-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg8 : FVec F S64x64 .f32) (main_arg9 : FVec F S64 .f32) (main_arg10 : FVec F S64x10 .f32) (main_arg11 : FVec F S10 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x10 .f32 := Host.absf main_arg10
  let main_cst_16 : FVec F S_ .f32 := constant S_ .f32 0x7F800000#32
  let main_v45 : FVec F S64x10 .f32 := broadcastInDim S64x10 ![] bcast_S_S64x10 main_cst_16
  let main_v46 : IVec S64x10 1 := cmpf .olt main_v44 main_v45
  let main_c_17 : IVec S_ 1 := constantI S_ 1 1#1
  let main_v47 : IVec S_ 1 := (fun x v => Host.reduce IntOp.andi x v reducesTo_S64x10_S_d0_1 h_S_) main_v46 main_c_17
  let main_v48 : IVec S_ 1 := andi main_v43 main_v47
  let main_v49 : FVec F S10 .f32 := Host.absf main_arg11
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg5 : FVec F S64 .f32) (main_arg6 : FVec F S64x64 .f32) (main_arg7 : FVec F S64 .f32) (main_arg8 : FVec F S64x64 .f32) (main_arg9 : FVec F S64 .f32) (main_arg10 : FVec F S64x10 .f32) (main_arg11 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64x64 .f32) (main_arg7 : FVec F S64 .f32) (main_arg8 : FVec F S64x64 .f32) (main_arg9 : FVec F S64 .f32) (main_arg10 : FVec F S64x10 .f32) (main_arg11 : FVec F S10 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_arg10 main_arg11 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1x64 : Shape := ⟨2, ![1, 64]⟩
abbrev S10000x64 : Shape := ⟨2, ![10000, 64]⟩
abbrev S1700000x64 : Shape := ⟨2, ![1700000, 64]⟩
abbrev S1x10 : Shape := ⟨2, ![1, 10]⟩
abbrev S100000x10 : Shape := ⟨2, ![100000, 10]⟩
abbrev S10000x10 : Shape := ⟨2, ![10000, 10]⟩
abbrev S100000x1 : Shape := ⟨2, ![100000, 1]⟩

abbrev nBuf : Space → Nat
  | .hbm => 155
  | .vmem => 45
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x10, .f32⟩
  | 11 => ⟨S10, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S100000, .f32⟩
  | 21 => ⟨S_, .i32⟩
  | 22 => ⟨S1700000, .i32⟩
  | 23 => ⟨S1700000, .i1⟩
  | 24 => ⟨S_, .i32⟩
  | 25 => ⟨S1700000, .i32⟩
  | 26 => ⟨S1700000, .i32⟩
  | 27 => ⟨S1700000, .i32⟩
  | 28 => ⟨S1700000x1, .i32⟩
  | 29 => ⟨S_, .f32⟩
  | 30 => ⟨S1700000, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .f32⟩
  | 53 => ⟨S1x64, .f32⟩
  | 54 => ⟨S100000x64, .f32⟩
  | 55 => ⟨S_, .i32⟩
  | 56 => ⟨S1700000, .i32⟩
  | 57 => ⟨S1700000, .i1⟩
  | 58 => ⟨S_, .i32⟩
  | 59 => ⟨S1700000, .i32⟩
  | 60 => ⟨S1700000, .i32⟩
  | 61 => ⟨S1700000, .i32⟩
  | 62 => ⟨S1700000x1, .i32⟩
  | 63 => ⟨S1700000x64, .f32⟩
  | 64 => ⟨S1700000x1, .f32⟩
  | 65 => ⟨S1700000x64, .f32⟩
  | 66 => ⟨S1700000x64, .f32⟩
  | 67 => ⟨S_, .f32⟩
  | 68 => ⟨S100000x64, .f32⟩
  | 69 => ⟨S_, .i32⟩
  | 70 => ⟨S1700000, .i32⟩
  | 71 => ⟨S1700000, .i1⟩
  | 72 => ⟨S_, .i32⟩
  | 73 => ⟨S1700000, .i32⟩
  | 74 => ⟨S1700000, .i32⟩
  | 75 => ⟨S1700000, .i32⟩
  | 76 => ⟨S1700000x1, .i32⟩
  | 77 => ⟨S100000x64, .f32⟩
  | 78 => ⟨S1x64, .f32⟩
  | 79 => ⟨S100000x64, .f32⟩
  | 80 => ⟨S_, .f32⟩
  | 81 => ⟨S1x64, .f32⟩
  | 82 => ⟨S100000x64, .f32⟩
  | 83 => ⟨S_, .i32⟩
  | 84 => ⟨S1700000, .i32⟩
  | 85 => ⟨S1700000, .i1⟩
  | 86 => ⟨S_, .i32⟩
  | 87 => ⟨S1700000, .i32⟩
  | 88 => ⟨S1700000, .i32⟩
  | 89 => ⟨S1700000, .i32⟩
  | 90 => ⟨S1700000x1, .i32⟩
  | 91 => ⟨S1700000x64, .f32⟩
  | 92 => ⟨S1700000x1, .f32⟩
  | 93 => ⟨S1700000x64, .f32⟩
  | 94 => ⟨S1700000x64, .f32⟩
  | 95 => ⟨S_, .f32⟩
  | 96 => ⟨S100000x64, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S100000x64, .f32⟩
  | 106 => ⟨S1x64, .f32⟩
  | 107 => ⟨S100000x64, .f32⟩
  | 108 => ⟨S_, .f32⟩
  | 109 => ⟨S1x64, .f32⟩
  | 110 => ⟨S100000x64, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000x64, .f32⟩
  | 120 => ⟨S1700000x1, .f32⟩
  | 121 => ⟨S1700000x64, .f32⟩
  | 122 => ⟨S1700000x64, .f32⟩
  | 123 => ⟨S_, .f32⟩
  | 124 => ⟨S100000x64, .f32⟩
  | 125 => ⟨S_, .i32⟩
  | 126 => ⟨S1700000, .i32⟩
  | 127 => ⟨S1700000, .i1⟩
  | _ => ⟨S100000x64, .f32⟩

abbrev hbmTy0_1 (i : Nat) : BufTy := match i % 128 with
  | 0 => ⟨S_, .i32⟩
  | 1 => ⟨S1700000, .i32⟩
  | 2 => ⟨S1700000, .i32⟩
  | 3 => ⟨S1700000, .i32⟩
  | 4 => ⟨S1700000x1, .i32⟩
  | 5 => ⟨S100000x64, .f32⟩
  | 6 => ⟨S1x64, .f32⟩
  | 7 => ⟨S100000x64, .f32⟩
  | 8 => ⟨S1x64, .f32⟩
  | 9 => ⟨S100000x64, .f32⟩
  | 10 => ⟨S1x10, .f32⟩
  | 11 => ⟨S100000x10, .f32⟩
  | 12 => ⟨S_, .f32⟩
  | 13 => ⟨S100000, .f32⟩
  | 14 => ⟨S_, .f32⟩
  | 15 => ⟨S100000, .f32⟩
  | 16 => ⟨S100000, .f32⟩
  | 17 => ⟨S100000x1, .f32⟩
  | 18 => ⟨S100000x10, .f32⟩
  | 19 => ⟨S100000x10, .f32⟩
  | 20 => ⟨S100000x10, .f32⟩
  | 21 => ⟨S_, .f32⟩
  | 22 => ⟨S100000, .f32⟩
  | 23 => ⟨S100000x1, .f32⟩
  | 24 => ⟨S100000x1, .f32⟩
  | 25 => ⟨S100000x10, .f32⟩
  | 26 => ⟨S100000x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S1x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S1x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S64x64, .f32⟩
  | .local _ .vmem, ⟨14, _⟩ => ⟨S1x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S1x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S64x64, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S1x64, .f32⟩
  | .local _ .vmem, ⟨31, _⟩ => ⟨S10000x64, .f32⟩
  | .local _ .vmem, ⟨32, _⟩ => ⟨S10000x64, .f32⟩
  | .local _ .vmem, ⟨33, _⟩ => ⟨S10000x64, .f32⟩
  | .local _ .vmem, ⟨34, _⟩ => ⟨S10000x64, .f32⟩
  | .local _ .vmem, ⟨35, _⟩ => ⟨S64x64, .f32⟩
  | .local _ .vmem, ⟨36, _⟩ => ⟨S1x64, .f32⟩
  | .local _ .vmem, ⟨37, _⟩ => ⟨S10000x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S64x10, .f32⟩
  | .local _ .vmem, ⟨42, _⟩ => ⟨S1x10, .f32⟩
  | .local _ .vmem, ⟨43, _⟩ => ⟨S10000x10, .f32⟩
  | .local _ .vmem, ⟨44, _⟩ => ⟨S10000x10, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_c_7 : Ref sig .tc := ⟨.hbm, 55, rfl⟩
abbrev main_v34 : Ref sig .tc := ⟨.hbm, 56, rfl⟩
abbrev main_v35 : Ref sig .tc := ⟨.hbm, 57, rfl⟩
abbrev main_c_8 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_c_10 : Ref sig .tc := ⟨.hbm, 69, rfl⟩
abbrev main_v45 : Ref sig .tc := ⟨.hbm, 70, rfl⟩
abbrev main_v46 : Ref sig .tc := ⟨.hbm, 71, rfl⟩
abbrev main_c_11 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_12 : Ref sig .tc := ⟨.hbm, 80, rfl⟩
abbrev main_v54 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_c_14 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_15 : Ref sig .tc := ⟨.hbm, 95, rfl⟩
abbrev main_v66 : Ref sig .tc := ⟨.hbm, 96, rfl⟩
abbrev main_c_16 : Ref sig .tc := ⟨.hbm, 97, rfl⟩
abbrev main_v67 : Ref sig .tc := ⟨.hbm, 98, rfl⟩
abbrev main_v68 : Ref sig .tc := ⟨.hbm, 99, rfl⟩
abbrev main_c_17 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_cst_18 : Ref sig .tc := ⟨.hbm, 108, rfl⟩
abbrev main_v76 : Ref sig .tc := ⟨.hbm, 109, rfl⟩
abbrev main_v77 : Ref sig .tc := ⟨.hbm, 110, rfl⟩
abbrev main_c_19 : Ref sig .tc := ⟨.hbm, 111, rfl⟩
abbrev main_v78 : Ref sig .tc := ⟨.hbm, 112, rfl⟩
abbrev main_v79 : Ref sig .tc := ⟨.hbm, 113, rfl⟩
abbrev main_c_20 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_21 : Ref sig .tc := ⟨.hbm, 123, rfl⟩
abbrev main_v88 : Ref sig .tc := ⟨.hbm, 124, rfl⟩
abbrev main_c_22 : Ref sig .tc := ⟨.hbm, 125, rfl⟩
abbrev main_v89 : Ref sig .tc := ⟨.hbm, 126, rfl⟩
abbrev main_v90 : Ref sig .tc := ⟨.hbm, 127, rfl⟩
abbrev main_c_23 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_call0_cst : Ref sig .tc := ⟨.hbm, 140, rfl⟩
abbrev main_call0_v0 : Ref sig .tc := ⟨.hbm, 141, rfl⟩
abbrev main_call0_cst_0 : Ref sig .tc := ⟨.hbm, 142, rfl⟩
abbrev main_call0_v1 : Ref sig .tc := ⟨.hbm, 143, rfl⟩
abbrev main_call0_v2 : Ref sig .tc := ⟨.hbm, 144, rfl⟩
abbrev main_call0_v3 : Ref sig .tc := ⟨.hbm, 145, rfl⟩
abbrev main_call0_v4 : Ref sig .tc := ⟨.hbm, 146, rfl⟩
abbrev main_call0_v5 : Ref sig .tc := ⟨.hbm, 147, rfl⟩
abbrev main_call0_v6 : Ref sig .tc := ⟨.hbm, 148, rfl⟩
abbrev main_call0_cst_1 : Ref sig .tc := ⟨.hbm, 149, rfl⟩
abbrev main_call0_v7 : Ref sig .tc := ⟨.hbm, 150, rfl⟩
abbrev main_call0_v8 : Ref sig .tc := ⟨.hbm, 151, rfl⟩
abbrev main_call0_v9 : Ref sig .tc := ⟨.hbm, 152, rfl⟩
abbrev main_call0_v10 : Ref sig .tc := ⟨.hbm, 153, rfl⟩
abbrev main_v102 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg3_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg2_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg3_0 : Ref sig .tc := ⟨.vmem, 37, rfl⟩
abbrev cc6_stg3_1 : Ref sig .tc := ⟨.vmem, 38, rfl⟩
abbrev cc7_stg0_0 : Ref sig .tc := ⟨.vmem, 39, rfl⟩
abbrev cc7_stg0_1 : Ref sig .tc := ⟨.vmem, 40, rfl⟩
abbrev cc7_stg1_0 : Ref sig .tc := ⟨.vmem, 41, rfl⟩
abbrev cc7_stg2_0 : Ref sig .tc := ⟨.vmem, 42, rfl⟩
abbrev cc7_stg3_0 : Ref sig .tc := ⟨.vmem, 43, rfl⟩
abbrev cc7_stg3_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem3_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem2_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem3_0 : DmaSem sig := 37
abbrev cc6_sem3_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc7_sem3_0 : DmaSem sig := 43
abbrev cc7_sem3_1 : DmaSem sig := 44

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S10000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x10 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x10 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S10000x10 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S_S1x64 : S_.BroadcastsInDim S1x64 (![] : Fin 0 → Fin S1x64.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S10_S1x10 : S10.ShapeCasts S1x10
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S10000x10 : S1x10.Broadcasts S10000x10
  inb_S10000x10_S10000x10_0_0 : ∀ a, (![0, 0] : Fin 2 → Nat) a + S10000x10.size a ≤ S10000x10.size a
  h_S10000x10 : 0 < S10000x10.numel
  reducesTo_S100000x10_S100000_d1 : S100000x10.ReducesTo [1] S100000
  h_S_ : 0 < S_.numel
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x10_S10000x10_1_0_0_1_n_n_wf : DotDims.WF S10000x64 S64x10 S10000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x64.size a ≤ S100000x64.size a
  hwx4_3 : ∀ i : grid4.Coords, EltTy.bits .f32 = 32 ∨ (Rect.block (s := S100000x64) S10000x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S10000x64.size a ≤ S100000x64.size a
  hwx6_3 : ∀ i : grid6.Coords, EltTy.bits .f32 = 32 ∨ (Rect.block (s := S100000x64) S10000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x64.size a ≤ S100000x64.size a
  hwx7_0 : ∀ i : grid7.Coords, EltTy.bits .f32 = 32 ∨ (Rect.block (s := S100000x64) S10000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x10.size a ≤ S64x10.size a
  hwx7_1 : ∀ i : grid7.Coords, EltTy.bits .f32 = 32 ∨ (Rect.block (s := S64x10) S64x10.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x10.size a ≤ S1x10.size a
  hwx7_2 : ∀ i : grid7.Coords, EltTy.bits .f32 = 32 ∨ (Rect.block (s := S1x10) S1x10.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x10.size a ≤ S100000x10.size a
  hwx7_3 : ∀ i : grid7.Coords, EltTy.bits .f32 = 32 ∨ (Rect.block (s := S100000x10) S10000x10.size (cc7_transform_3 i) (hinb7_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x10_S10000x10_1_0_0_1_n_n : DotDims S10000x64 S64x10 S10000x10 where
  lhsContracting := [1]
  rhsContracting := [0]
  lhsNonContracting := [0]
  rhsNonContracting := [1]
  lhsBatch := []
  rhsBatch := []
  wf := dot_S10000x64_S64x10_S10000x10_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v51) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v53) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v75) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v75) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v76) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v77) S10000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v95) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v96) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v97) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v97) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v98) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v99) S10000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v99) S10000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg10) S64x10.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v100) S1x10.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v101) S10000x10.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x10 : Shape := ⟨2, ![64, 10]⟩
abbrev S10 : Shape := ⟨1, ![10]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x10 : Shape := ⟨2, ![100000, 10]⟩
abbrev S1x10 : Shape := ⟨2, ![1, 10]⟩
abbrev S100000x1 : Shape := ⟨2, ![100000, 1]⟩

abbrev nBuf : Space → Nat
  | .hbm => 168
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x10, .f32⟩
  | 11 => ⟨S10, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S100000, .f32⟩
  | 21 => ⟨S_, .i32⟩
  | 22 => ⟨S1700000, .i32⟩
  | 23 => ⟨S1700000, .i1⟩
  | 24 => ⟨S_, .i32⟩
  | 25 => ⟨S1700000, .i32⟩
  | 26 => ⟨S1700000, .i32⟩
  | 27 => ⟨S1700000, .i32⟩
  | 28 => ⟨S1700000x1, .i32⟩
  | 29 => ⟨S_, .f32⟩
  | 30 => ⟨S1700000, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S100000x64, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x64, .f32⟩
  | 62 => ⟨S1700000x1, .f32⟩
  | 63 => ⟨S1700000x64, .f32⟩
  | 64 => ⟨S1700000x64, .f32⟩
  | 65 => ⟨S_, .f32⟩
  | 66 => ⟨S100000x64, .f32⟩
  | 67 => ⟨S_, .i32⟩
  | 68 => ⟨S1700000, .i32⟩
  | 69 => ⟨S1700000, .i1⟩
  | 70 => ⟨S_, .i32⟩
  | 71 => ⟨S1700000, .i32⟩
  | 72 => ⟨S1700000, .i32⟩
  | 73 => ⟨S1700000, .i32⟩
  | 74 => ⟨S1700000x1, .i32⟩
  | 75 => ⟨S100000x64, .f32⟩
  | 76 => ⟨S1x64, .f32⟩
  | 77 => ⟨S100000x64, .f32⟩
  | 78 => ⟨S100000x64, .f32⟩
  | 79 => ⟨S_, .f32⟩
  | 80 => ⟨S100000x64, .f32⟩
  | 81 => ⟨S100000x64, .f32⟩
  | 82 => ⟨S100000x64, .f32⟩
  | 83 => ⟨S_, .i32⟩
  | 84 => ⟨S1700000, .i32⟩
  | 85 => ⟨S1700000, .i1⟩
  | 86 => ⟨S_, .i32⟩
  | 87 => ⟨S1700000, .i32⟩
  | 88 => ⟨S1700000, .i32⟩
  | 89 => ⟨S1700000, .i32⟩
  | 90 => ⟨S1700000x1, .i32⟩
  | 91 => ⟨S1700000x64, .f32⟩
  | 92 => ⟨S1700000x1, .f32⟩
  | 93 => ⟨S1700000x64, .f32⟩
  | 94 => ⟨S1700000x64, .f32⟩
  | 95 => ⟨S_, .f32⟩
  | 96 => ⟨S100000x64, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S100000x64, .f32⟩
  | 106 => ⟨S1x64, .f32⟩
  | 107 => ⟨S100000x64, .f32⟩
  | 108 => ⟨S100000x64, .f32⟩
  | 109 => ⟨S_, .f32⟩
  | 110 => ⟨S100000x64, .f32⟩
  | 111 => ⟨S100000x64, .f32⟩
  | 112 => ⟨S100000x64, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000x64, .f32⟩
  | 122 => ⟨S1700000x1, .f32⟩
  | 123 => ⟨S1700000x64, .f32⟩
  | 124 => ⟨S1700000x64, .f32⟩
  | 125 => ⟨S_, .f32⟩
  | 126 => ⟨S100000x64, .f32⟩
  | 127 => ⟨S_, .i32⟩
  | _ => ⟨S100000x64, .f32⟩

abbrev hbmTy0_1 (i : Nat) : BufTy := match i % 128 with
  | 0 => ⟨S1700000, .i32⟩
  | 1 => ⟨S1700000, .i1⟩
  | 2 => ⟨S_, .i32⟩
  | 3 => ⟨S1700000, .i32⟩
  | 4 => ⟨S1700000, .i32⟩
  | 5 => ⟨S1700000, .i32⟩
  | 6 => ⟨S1700000x1, .i32⟩
  | 7 => ⟨S100000x64, .f32⟩
  | 8 => ⟨S1x64, .f32⟩
  | 9 => ⟨S100000x64, .f32⟩
  | 10 => ⟨S100000x64, .f32⟩
  | 11 => ⟨S_, .f32⟩
  | 12 => ⟨S100000x64, .f32⟩
  | 13 => ⟨S100000x64, .f32⟩
  | 14 => ⟨S100000x64, .f32⟩
  | 15 => ⟨S1x64, .f32⟩
  | 16 => ⟨S100000x64, .f32⟩
  | 17 => ⟨S100000x64, .f32⟩
  | 18 => ⟨S_, .f32⟩
  | 19 => ⟨S100000x64, .f32⟩
  | 20 => ⟨S100000x64, .f32⟩
  | 21 => ⟨S100000x10, .f32⟩
  | 22 => ⟨S1x10, .f32⟩
  | 23 => ⟨S100000x10, .f32⟩
  | 24 => ⟨S100000x10, .f32⟩
  | 25 => ⟨S_, .f32⟩
  | 26 => ⟨S100000, .f32⟩
  | 27 => ⟨S_, .f32⟩
  | 28 => ⟨S100000, .f32⟩
  | 29 => ⟨S100000, .f32⟩
  | 30 => ⟨S100000x1, .f32⟩
  | 31 => ⟨S100000x10, .f32⟩
  | 32 => ⟨S100000x10, .f32⟩
  | 33 => ⟨S100000x10, .f32⟩
  | 34 => ⟨S_, .f32⟩
  | 35 => ⟨S100000, .f32⟩
  | 36 => ⟨S100000x1, .f32⟩
  | 37 => ⟨S100000x1, .f32⟩
  | 38 => ⟨S100000x10, .f32⟩
  | 39 => ⟨S100000x10, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_c_9 : Ref sig .tc := ⟨.hbm, 67, rfl⟩
abbrev main_v44 : Ref sig .tc := ⟨.hbm, 68, rfl⟩
abbrev main_v45 : Ref sig .tc := ⟨.hbm, 69, rfl⟩
abbrev main_c_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_call0_cst : Ref sig .tc := ⟨.hbm, 79, rfl⟩
abbrev main_call0_v0 : Ref sig .tc := ⟨.hbm, 80, rfl⟩
abbrev main_v54 : Ref sig .tc := ⟨.hbm, 81, rfl⟩
abbrev main_v55 : Ref sig .tc := ⟨.hbm, 82, rfl⟩
abbrev main_c_11 : Ref sig .tc := ⟨.hbm, 83, rfl⟩
abbrev main_v56 : Ref sig .tc := ⟨.hbm, 84, rfl⟩
abbrev main_v57 : Ref sig .tc := ⟨.hbm, 85, rfl⟩
abbrev main_c_12 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_13 : Ref sig .tc := ⟨.hbm, 95, rfl⟩
abbrev main_v66 : Ref sig .tc := ⟨.hbm, 96, rfl⟩
abbrev main_c_14 : Ref sig .tc := ⟨.hbm, 97, rfl⟩
abbrev main_v67 : Ref sig .tc := ⟨.hbm, 98, rfl⟩
abbrev main_v68 : Ref sig .tc := ⟨.hbm, 99, rfl⟩
abbrev main_c_15 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_call1_cst : Ref sig .tc := ⟨.hbm, 109, rfl⟩
abbrev main_call1_v0 : Ref sig .tc := ⟨.hbm, 110, rfl⟩
abbrev main_v77 : Ref sig .tc := ⟨.hbm, 111, rfl⟩
abbrev main_v78 : Ref sig .tc := ⟨.hbm, 112, rfl⟩
abbrev main_c_16 : Ref sig .tc := ⟨.hbm, 113, rfl⟩
abbrev main_v79 : Ref sig .tc := ⟨.hbm, 114, rfl⟩
abbrev main_v80 : Ref sig .tc := ⟨.hbm, 115, rfl⟩
abbrev main_c_17 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_18 : Ref sig .tc := ⟨.hbm, 125, rfl⟩
abbrev main_v89 : Ref sig .tc := ⟨.hbm, 126, rfl⟩
abbrev main_c_19 : Ref sig .tc := ⟨.hbm, 127, rfl⟩
abbrev main_v90 : Ref sig .tc := ⟨.hbm, 128, rfl⟩
abbrev main_v91 : Ref sig .tc := ⟨.hbm, 129, rfl⟩
abbrev main_c_20 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_call2_cst : Ref sig .tc := ⟨.hbm, 139, rfl⟩
abbrev main_call2_v0 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_call3_cst : Ref sig .tc := ⟨.hbm, 146, rfl⟩
abbrev main_call3_v0 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_call4_cst : Ref sig .tc := ⟨.hbm, 153, rfl⟩
abbrev main_call4_v0 : Ref sig .tc := ⟨.hbm, 154, rfl⟩
abbrev main_call4_cst_0 : Ref sig .tc := ⟨.hbm, 155, rfl⟩
abbrev main_call4_v1 : Ref sig .tc := ⟨.hbm, 156, rfl⟩
abbrev main_call4_v2 : Ref sig .tc := ⟨.hbm, 157, rfl⟩
abbrev main_call4_v3 : Ref sig .tc := ⟨.hbm, 158, rfl⟩
abbrev main_call4_v4 : Ref sig .tc := ⟨.hbm, 159, rfl⟩
abbrev main_call4_v5 : Ref sig .tc := ⟨.hbm, 160, rfl⟩
abbrev main_call4_v6 : Ref sig .tc := ⟨.hbm, 161, rfl⟩
abbrev main_call4_cst_1 : Ref sig .tc := ⟨.hbm, 162, rfl⟩
abbrev main_call4_v7 : Ref sig .tc := ⟨.hbm, 163, rfl⟩
abbrev main_call4_v8 : Ref sig .tc := ⟨.hbm, 164, rfl⟩
abbrev main_call4_v9 : Ref sig .tc := ⟨.hbm, 165, rfl⟩
abbrev main_call4_v10 : Ref sig .tc := ⟨.hbm, 166, rfl⟩
abbrev main_v110 : Ref sig .tc := ⟨.hbm, 167, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x10_S100000x10_1_0_0_1_n_n_wf : DotDims.WF S100000x64 S64x10 S100000x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x10_S100000x10_1_0_0_1_n_n : DotDims S100000x64 S64x10 S100000x10 where
  lhsContracting := [1]
  rhsContracting := [0]
  lhsNonContracting := [0]
  rhsNonContracting := [1]
  lhsBatch := []
  rhsBatch := []
  wf := dot_S100000x64_S64x10_S100000x10_1_0_0_1_n_n_wf

class Facts : Prop extends Facts₀ where

variable [Facts]
-- ==== Proof.LibHostFold.lean ====
/-
  A fact about the operations of an inlined call, for any program. Such an operation writes its buffer through a typed
  reference, and the operation that consumes the value reads it back through the same reference: transports along
  "the buffer's type is the value's type" in opposite directions. What is read back is the value written, and
  conversely, whatever the buffer's type. With these two equations the transports between consecutive operations of a
  call cancel, and what is left of a host stretch's fold is a plain term of the operations' functions.
-/
import Idealize.ShloMosaic.Lib.StableHlo.Run

namespace Cert.LibHostFold

open Idealize.ShloMosaic Idealize.ShloMosaic.StableHlo

variable {sig : RefSig} {Val : EltTy → Type}

/-- Reading back through a typed reference what was written through it gives the value. -/
theorem ofBuf_toBuf {T : BufTy} (x : TRef sig T) (v : T.Contents Val) : x.ofBuf (x.toBuf v) = v := by
  unfold TRef.ofBuf TRef.toBuf
  simp

/-- Writing through a typed reference what was read through it gives the buffer's contents. -/
theorem toBuf_ofBuf {T : BufTy} (x : TRef sig T) (v : x.ref.ty.Contents Val) : x.toBuf (x.ofBuf v) = v := by
  unfold TRef.ofBuf TRef.toBuf
  simp

end Cert.LibHostFold
-- ==== Proof.RefChain.lean ====
/-
  The idealized reference's result, stretch by stretch. Its run ends with every buffer at the fold of its 156 host
  operations over the launch contents. The list is cut into five stretches — the edge lists and the normalization,
  the three graph layers, the dense layers with the log-softmax — and each stretch's last buffer is read as the
  reference's own stage function of the arguments, given the buffers the stretch starts from; what a later stretch
  reads of an earlier one (an argument, the edge lists, the normalization) no operation in between writes.
-/
import proofs.«163823_j53824530153630_1_alg».proof.Proof.RefRead
import proofs.«163823_j53824530153630_1_alg».proof.Proof.LibHostFold
import Idealize.ShloMosaic.Lib.StableHlo.Run
import Idealize.ShloMosaic.PureOps.Ideal.Laws

set_option maxRecDepth 16384

noncomputable section

namespace Cert.ReferenceIdeal.Chain

open Cert.ReferenceIdeal Cert.ReferenceIdeal.Gen Idealize.ShloMosaic Idealize.ShloMosaic.TcCoe Idealize.SL.Sem Idealize.ShloMosaic.StableHlo
open Cert.ReferenceIdeal.ReadP Cert.ReferenceIdeal.ValueP Cert.LibHostFold

/-! ## The typed references of the inlined calls

An operation of an inlined call writes its buffer through a typed reference and reads its operands back through
theirs: transports along "the buffer's type is the value's", which are identities here. Read back through the
reference it was written through, a value is itself; and at each buffer a call reads that a plain operation wrote,
or writes for a plain operation to read, the transport is the identity by computation. -/
theorem toBuf_v54 (v : (⟨S100000x64, .f32⟩ : BufTy).Contents (Elt Ideal)) : (TRef.of (sig := sig) (T := ⟨S100000x64, .f32⟩) main_v54).toBuf v = v := rfl
theorem toBuf_v77 (v : (⟨S100000x64, .f32⟩ : BufTy).Contents (Elt Ideal)) : (TRef.of (sig := sig) (T := ⟨S100000x64, .f32⟩) main_v77).toBuf v = v := rfl
theorem toBuf_v100 (v : (⟨S100000x64, .f32⟩ : BufTy).Contents (Elt Ideal)) : (TRef.of (sig := sig) (T := ⟨S100000x64, .f32⟩) main_v100).toBuf v = v := rfl
theorem toBuf_v105 (v : (⟨S100000x64, .f32⟩ : BufTy).Contents (Elt Ideal)) : (TRef.of (sig := sig) (T := ⟨S100000x64, .f32⟩) main_v105).toBuf v = v := rfl
theorem toBuf_v110 (v : (⟨S100000x10, .f32⟩ : BufTy).Contents (Elt Ideal)) : (TRef.of (sig := sig) (T := ⟨S100000x10, .f32⟩) main_v110).toBuf v = v := rfl
theorem ofBuf_v53 (v : (⟨S100000x64, .f32⟩ : BufTy).Contents (Elt Ideal)) : (TRef.of (sig := sig) (T := ⟨S100000x64, .f32⟩) main_v53).ofBuf v = v := rfl
theorem ofBuf_v76 (v : (⟨S100000x64, .f32⟩ : BufTy).Contents (Elt Ideal)) : (TRef.of (sig := sig) (T := ⟨S100000x64, .f32⟩) main_v76).ofBuf v = v := rfl
theorem ofBuf_v99 (v : (⟨S100000x64, .f32⟩ : BufTy).Contents (Elt Ideal)) : (TRef.of (sig := sig) (T := ⟨S100000x64, .f32⟩) main_v99).ofBuf v = v := rfl
theorem ofBuf_v104 (v : (⟨S100000x64, .f32⟩ : BufTy).Contents (Elt Ideal)) : (TRef.of (sig := sig) (T := ⟨S100000x64, .f32⟩) main_v104).ofBuf v = v := rfl
theorem ofBuf_v109 (v : (⟨S100000x10, .f32⟩ : BufTy).Contents (Elt Ideal)) : (TRef.of (sig := sig) (T := ⟨S100000x10, .f32⟩) main_v109).ofBuf v = v := rfl

/-! ## Stretch 0: the edge lists with the self-loops, the degrees, the normalization -/
theorem seg0_v3 (V : Valuation τ sig (Elt Ideal)) : after seg0 V (Proc.devRef .tc main_v3) = val_main_v3 (F := Ideal) (V (Proc.devRef .tc main_arg1)) := by
  after_results_simp
  rfl
theorem seg0_v6 (V : Valuation τ sig (Elt Ideal)) : after seg0 V (Proc.devRef .tc main_v6) = val_main_v6 (F := Ideal) (V (Proc.devRef .tc main_arg1)) := by
  after_results_simp
  rfl
theorem seg0_v31 (V : Valuation τ sig (Elt Ideal)) : after seg0 V (Proc.devRef .tc main_v31) = val_main_v31 (F := Ideal) (V (Proc.devRef .tc main_arg1)) := by
  after_results_simp
  rfl
theorem keepR0_main_arg0 (V : Valuation τ sig (Elt Ideal)) : after seg0 V (Proc.devRef .tc main_arg0) = V (Proc.devRef .tc main_arg0) := by after_results_simp
theorem keepR0_main_arg2 (V : Valuation τ sig (Elt Ideal)) : after seg0 V (Proc.devRef .tc main_arg2) = V (Proc.devRef .tc main_arg2) := by after_results_simp
theorem keepR0_main_arg3 (V : Valuation τ sig (Elt Ideal)) : after seg0 V (Proc.devRef .tc main_arg3) = V (Proc.devRef .tc main_arg3) := by after_results_simp
theorem keepR0_main_arg4 (V : Valuation τ sig (Elt Ideal)) : after seg0 V (Proc.devRef .tc main_arg4) = V (Proc.devRef .tc main_arg4) := by after_results_simp
theorem keepR0_main_arg5 (V : Valuation τ sig (Elt Ideal)) : after seg0 V (Proc.devRef .tc main_arg5) = V (Proc.devRef .tc main_arg5) := by after_results_simp
theorem keepR0_main_arg6 (V : Valuation τ sig (Elt Ideal)) : after seg0 V (Proc.devRef .tc main_arg6) = V (Proc.devRef .tc main_arg6) := by after_results_simp
theorem keepR0_main_arg7 (V : Valuation τ sig (Elt Ideal)) : after seg0 V (Proc.devRef .tc main_arg7) = V (Proc.devRef .tc main_arg7) := by after_results_simp
theorem keepR0_main_arg8 (V : Valuation τ sig (Elt Ideal)) : after seg0 V (Proc.devRef .tc main_arg8) = V (Proc.devRef .tc main_arg8) := by after_results_simp
theorem keepR0_main_arg9 (V : Valuation τ sig (Elt Ideal)) : after seg0 V (Proc.devRef .tc main_arg9) = V (Proc.devRef .tc main_arg9) := by after_results_simp
theorem keepR0_main_arg10 (V : Valuation τ sig (Elt Ideal)) : after seg0 V (Proc.devRef .tc main_arg10) = V (Proc.devRef .tc main_arg10) := by after_results_simp
theorem keepR0_main_arg11 (V : Valuation τ sig (Elt Ideal)) : after seg0 V (Proc.devRef .tc main_arg11) = V (Proc.devRef .tc main_arg11) := by after_results_simp

/-! ## Stretch 1: graph layer 1 -/
theorem seg1_v54 (V : Valuation τ sig (Elt Ideal)) (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal))
    (h0 : V (Proc.devRef .tc main_arg0) = x0) (h2 : V (Proc.devRef .tc main_arg2) = x2) (h3 : V (Proc.devRef .tc main_arg3) = x3)
    (hs : V (Proc.devRef .tc main_v3) = val_main_v3 (F := Ideal) x1) (hd : V (Proc.devRef .tc main_v6) = val_main_v6 (F := Ideal) x1) (hn : V (Proc.devRef .tc main_v31) = val_main_v31 (F := Ideal) x1) :
    after seg1 V (Proc.devRef .tc main_v54) = val_main_v54 (F := Ideal) x0 x1 x2 x3 := by
  after_results_simp
  simp only [ofBuf_toBuf, toBuf_v54, toBuf_v77, toBuf_v100, toBuf_v105, toBuf_v110, ofBuf_v53, ofBuf_v76, ofBuf_v99, ofBuf_v104, ofBuf_v109]
  rw [h0, h2, h3, hs, hd, hn]
  rfl
theorem keepR1_main_arg4 (V : Valuation τ sig (Elt Ideal)) : after seg1 V (Proc.devRef .tc main_arg4) = V (Proc.devRef .tc main_arg4) := by after_results_simp
theorem keepR1_main_arg5 (V : Valuation τ sig (Elt Ideal)) : after seg1 V (Proc.devRef .tc main_arg5) = V (Proc.devRef .tc main_arg5) := by after_results_simp
theorem keepR1_main_arg6 (V : Valuation τ sig (Elt Ideal)) : after seg1 V (Proc.devRef .tc main_arg6) = V (Proc.devRef .tc main_arg6) := by after_results_simp
theorem keepR1_main_arg7 (V : Valuation τ sig (Elt Ideal)) : after seg1 V (Proc.devRef .tc main_arg7) = V (Proc.devRef .tc main_arg7) := by after_results_simp
theorem keepR1_main_arg8 (V : Valuation τ sig (Elt Ideal)) : after seg1 V (Proc.devRef .tc main_arg8) = V (Proc.devRef .tc main_arg8) := by after_results_simp
theorem keepR1_main_arg9 (V : Valuation τ sig (Elt Ideal)) : after seg1 V (Proc.devRef .tc main_arg9) = V (Proc.devRef .tc main_arg9) := by after_results_simp
theorem keepR1_main_arg10 (V : Valuation τ sig (Elt Ideal)) : after seg1 V (Proc.devRef .tc main_arg10) = V (Proc.devRef .tc main_arg10) := by after_results_simp
theorem keepR1_main_arg11 (V : Valuation τ sig (Elt Ideal)) : after seg1 V (Proc.devRef .tc main_arg11) = V (Proc.devRef .tc main_arg11) := by after_results_simp
theorem keepR1_main_v3 (V : Valuation τ sig (Elt Ideal)) : after seg1 V (Proc.devRef .tc main_v3) = V (Proc.devRef .tc main_v3) := by after_results_simp
theorem keepR1_main_v6 (V : Valuation τ sig (Elt Ideal)) : after seg1 V (Proc.devRef .tc main_v6) = V (Proc.devRef .tc main_v6) := by after_results_simp
theorem keepR1_main_v31 (V : Valuation τ sig (Elt Ideal)) : after seg1 V (Proc.devRef .tc main_v31) = V (Proc.devRef .tc main_v31) := by after_results_simp

/-! ## Stretch 2: graph layer 2 -/
theorem seg2_v77 (V : Valuation τ sig (Elt Ideal)) (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal))
    (hh : V (Proc.devRef .tc main_v54) = val_main_v54 (F := Ideal) x0 x1 x2 x3) (h4 : V (Proc.devRef .tc main_arg4) = x4) (h5 : V (Proc.devRef .tc main_arg5) = x5)
    (hs : V (Proc.devRef .tc main_v3) = val_main_v3 (F := Ideal) x1) (hd : V (Proc.devRef .tc main_v6) = val_main_v6 (F := Ideal) x1) (hn : V (Proc.devRef .tc main_v31) = val_main_v31 (F := Ideal) x1) :
    after seg2 V (Proc.devRef .tc main_v77) = val_main_v77 (F := Ideal) x0 x1 x2 x3 x4 x5 := by
  after_results_simp
  simp only [ofBuf_toBuf, toBuf_v54, toBuf_v77, toBuf_v100, toBuf_v105, toBuf_v110, ofBuf_v53, ofBuf_v76, ofBuf_v99, ofBuf_v104, ofBuf_v109]
  rw [hh, h4, h5, hs, hd, hn]
  rfl
theorem keepR2_main_arg6 (V : Valuation τ sig (Elt Ideal)) : after seg2 V (Proc.devRef .tc main_arg6) = V (Proc.devRef .tc main_arg6) := by after_results_simp
theorem keepR2_main_arg7 (V : Valuation τ sig (Elt Ideal)) : after seg2 V (Proc.devRef .tc main_arg7) = V (Proc.devRef .tc main_arg7) := by after_results_simp
theorem keepR2_main_arg8 (V : Valuation τ sig (Elt Ideal)) : after seg2 V (Proc.devRef .tc main_arg8) = V (Proc.devRef .tc main_arg8) := by after_results_simp
theorem keepR2_main_arg9 (V : Valuation τ sig (Elt Ideal)) : after seg2 V (Proc.devRef .tc main_arg9) = V (Proc.devRef .tc main_arg9) := by after_results_simp
theorem keepR2_main_arg10 (V : Valuation τ sig (Elt Ideal)) : after seg2 V (Proc.devRef .tc main_arg10) = V (Proc.devRef .tc main_arg10) := by after_results_simp
theorem keepR2_main_arg11 (V : Valuation τ sig (Elt Ideal)) : after seg2 V (Proc.devRef .tc main_arg11) = V (Proc.devRef .tc main_arg11) := by after_results_simp
theorem keepR2_main_v3 (V : Valuation τ sig (Elt Ideal)) : after seg2 V (Proc.devRef .tc main_v3) = V (Proc.devRef .tc main_v3) := by after_results_simp
theorem keepR2_main_v6 (V : Valuation τ sig (Elt Ideal)) : after seg2 V (Proc.devRef .tc main_v6) = V (Proc.devRef .tc main_v6) := by after_results_simp
theorem keepR2_main_v31 (V : Valuation τ sig (Elt Ideal)) : after seg2 V (Proc.devRef .tc main_v31) = V (Proc.devRef .tc main_v31) := by after_results_simp

/-! ## Stretch 3: graph layer 3 -/
theorem seg3_v100 (V : Valuation τ sig (Elt Ideal)) (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal))
    (hh : V (Proc.devRef .tc main_v77) = val_main_v77 (F := Ideal) x0 x1 x2 x3 x4 x5) (h6 : V (Proc.devRef .tc main_arg6) = x6) (h7 : V (Proc.devRef .tc main_arg7) = x7)
    (hs : V (Proc.devRef .tc main_v3) = val_main_v3 (F := Ideal) x1) (hd : V (Proc.devRef .tc main_v6) = val_main_v6 (F := Ideal) x1) (hn : V (Proc.devRef .tc main_v31) = val_main_v31 (F := Ideal) x1) :
    after seg3 V (Proc.devRef .tc main_v100) = val_main_v100 (F := Ideal) x0 x1 x2 x3 x4 x5 x6 x7 := by
  after_results_simp
  simp only [ofBuf_toBuf, toBuf_v54, toBuf_v77, toBuf_v100, toBuf_v105, toBuf_v110, ofBuf_v53, ofBuf_v76, ofBuf_v99, ofBuf_v104, ofBuf_v109]
  rw [hh, h6, h7, hs, hd, hn]
  rfl
theorem keepR3_main_arg8 (V : Valuation τ sig (Elt Ideal)) : after seg3 V (Proc.devRef .tc main_arg8) = V (Proc.devRef .tc main_arg8) := by after_results_simp
theorem keepR3_main_arg9 (V : Valuation τ sig (Elt Ideal)) : after seg3 V (Proc.devRef .tc main_arg9) = V (Proc.devRef .tc main_arg9) := by after_results_simp
theorem keepR3_main_arg10 (V : Valuation τ sig (Elt Ideal)) : after seg3 V (Proc.devRef .tc main_arg10) = V (Proc.devRef .tc main_arg10) := by after_results_simp
theorem keepR3_main_arg11 (V : Valuation τ sig (Elt Ideal)) : after seg3 V (Proc.devRef .tc main_arg11) = V (Proc.devRef .tc main_arg11) := by after_results_simp

/-! ## Stretch 4: the two dense layers and the log-softmax -/
theorem seg4_v110 (V : Valuation τ sig (Elt Ideal)) (x0 : (⟨S100000x64, .f32⟩ : BufTy).Contents (Elt Ideal)) (x1 : (⟨S2x1600000, .i32⟩ : BufTy).Contents (Elt Ideal)) (x2 : (⟨S64x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S64x64, .f32⟩ : BufTy).Contents (Elt Ideal)) (x9 : (⟨S64, .f32⟩ : BufTy).Contents (Elt Ideal)) (x10 : (⟨S64x10, .f32⟩ : BufTy).Contents (Elt Ideal)) (x11 : (⟨S10, .f32⟩ : BufTy).Contents (Elt Ideal))
    (hh : V (Proc.devRef .tc main_v100) = val_main_v100 (F := Ideal) x0 x1 x2 x3 x4 x5 x6 x7)
    (h8 : V (Proc.devRef .tc main_arg8) = x8) (h9 : V (Proc.devRef .tc main_arg9) = x9) (h10 : V (Proc.devRef .tc main_arg10) = x10) (h11 : V (Proc.devRef .tc main_arg11) = x11) :
    after seg4 V (Proc.devRef .tc main_v110) = val_main_v110 (F := Ideal) x0 x1 x2 x3 x4 x5 x6 x7 x8 x9 x10 x11 := by
  after_results_simp
  simp only [ofBuf_toBuf, toBuf_v54, toBuf_v77, toBuf_v100, toBuf_v105, toBuf_v110, ofBuf_v53, ofBuf_v76, ofBuf_v99, ofBuf_v104, ofBuf_v109]
  rw [hh, h8, h9, h10, h11]
  rfl

/-! ## The whole list -/

variable (m : (ℓ : Loc nD τ sig) → Buf (Elt Ideal) ℓ) (c : Dev nD)

/-- The reference's result buffer after its operations: its last stage function of the twelve arguments' launch
    contents. -/
theorem result : after (ops (F := Ideal)) (launchContents m c) (Proc.devRef .tc main_v110)
    = val_main_v110 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [ops_eq, after_append, after_append, after_append, after_append]
  generalize hV0 : launchContents m c = V0
  have e0_0 : after seg0 V0 (Proc.devRef .tc main_arg0) = m ((c.tc : Thread nD τ).loc main_arg0) := (keepR0_main_arg0 V0).trans (by rw [← hV0])
  have e0_2 : after seg0 V0 (Proc.devRef .tc main_arg2) = m ((c.tc : Thread nD τ).loc main_arg2) := (keepR0_main_arg2 V0).trans (by rw [← hV0])
  have e0_3 : after seg0 V0 (Proc.devRef .tc main_arg3) = m ((c.tc : Thread nD τ).loc main_arg3) := (keepR0_main_arg3 V0).trans (by rw [← hV0])
  have e0_4 : after seg0 V0 (Proc.devRef .tc main_arg4) = m ((c.tc : Thread nD τ).loc main_arg4) := (keepR0_main_arg4 V0).trans (by rw [← hV0])
  have e0_5 : after seg0 V0 (Proc.devRef .tc main_arg5) = m ((c.tc : Thread nD τ).loc main_arg5) := (keepR0_main_arg5 V0).trans (by rw [← hV0])
  have e0_6 : after seg0 V0 (Proc.devRef .tc main_arg6) = m ((c.tc : Thread nD τ).loc main_arg6) := (keepR0_main_arg6 V0).trans (by rw [← hV0])
  have e0_7 : after seg0 V0 (Proc.devRef .tc main_arg7) = m ((c.tc : Thread nD τ).loc main_arg7) := (keepR0_main_arg7 V0).trans (by rw [← hV0])
  have e0_8 : after seg0 V0 (Proc.devRef .tc main_arg8) = m ((c.tc : Thread nD τ).loc main_arg8) := (keepR0_main_arg8 V0).trans (by rw [← hV0])
  have e0_9 : after seg0 V0 (Proc.devRef .tc main_arg9) = m ((c.tc : Thread nD τ).loc main_arg9) := (keepR0_main_arg9 V0).trans (by rw [← hV0])
  have e0_10 : after seg0 V0 (Proc.devRef .tc main_arg10) = m ((c.tc : Thread nD τ).loc main_arg10) := (keepR0_main_arg10 V0).trans (by rw [← hV0])
  have e0_11 : after seg0 V0 (Proc.devRef .tc main_arg11) = m ((c.tc : Thread nD τ).loc main_arg11) := (keepR0_main_arg11 V0).trans (by rw [← hV0])
  have e0_1 : V0 (Proc.devRef .tc main_arg1) = m ((c.tc : Thread nD τ).loc main_arg1) := by rw [← hV0]
  have s1 : after seg0 V0 (Proc.devRef .tc main_v3) = val_main_v3 (F := Ideal) (m ((c.tc : Thread nD τ).loc main_arg1)) := (seg0_v3 V0).trans (congrArg _ e0_1)
  have d1 : after seg0 V0 (Proc.devRef .tc main_v6) = val_main_v6 (F := Ideal) (m ((c.tc : Thread nD τ).loc main_arg1)) := (seg0_v6 V0).trans (congrArg _ e0_1)
  have n1 : after seg0 V0 (Proc.devRef .tc main_v31) = val_main_v31 (F := Ideal) (m ((c.tc : Thread nD τ).loc main_arg1)) := (seg0_v31 V0).trans (congrArg _ e0_1)
  generalize after seg0 V0 = V1 at *
  have e1_4 := (keepR1_main_arg4 V1).trans e0_4
  have e1_5 := (keepR1_main_arg5 V1).trans e0_5
  have e1_6 := (keepR1_main_arg6 V1).trans e0_6
  have e1_7 := (keepR1_main_arg7 V1).trans e0_7
  have e1_8 := (keepR1_main_arg8 V1).trans e0_8
  have e1_9 := (keepR1_main_arg9 V1).trans e0_9
  have e1_10 := (keepR1_main_arg10 V1).trans e0_10
  have e1_11 := (keepR1_main_arg11 V1).trans e0_11
  have s2 := (keepR1_main_v3 V1).trans s1
  have d2 := (keepR1_main_v6 V1).trans d1
  have n2 := (keepR1_main_v31 V1).trans n1
  have l1 := seg1_v54 V1 _ _ _ _ e0_0 e0_2 e0_3 s1 d1 n1
  generalize after seg1 V1 = V2 at *
  have e2_6 := (keepR2_main_arg6 V2).trans e1_6
  have e2_7 := (keepR2_main_arg7 V2).trans e1_7
  have e2_8 := (keepR2_main_arg8 V2).trans e1_8
  have e2_9 := (keepR2_main_arg9 V2).trans e1_9
  have e2_10 := (keepR2_main_arg10 V2).trans e1_10
  have e2_11 := (keepR2_main_arg11 V2).trans e1_11
  have s3 := (keepR2_main_v3 V2).trans s2
  have d3 := (keepR2_main_v6 V2).trans d2
  have n3 := (keepR2_main_v31 V2).trans n2
  have l2 := seg2_v77 V2 _ _ _ _ _ _ l1 e1_4 e1_5 s2 d2 n2
  generalize after seg2 V2 = V3 at *
  have e3_8 := (keepR3_main_arg8 V3).trans e2_8
  have e3_9 := (keepR3_main_arg9 V3).trans e2_9
  have e3_10 := (keepR3_main_arg10 V3).trans e2_10
  have e3_11 := (keepR3_main_arg11 V3).trans e2_11
  have l3 := seg3_v100 V3 _ _ _ _ _ _ _ _ l2 e2_6 e2_7 s3 d3 n3
  generalize after seg3 V3 = V4 at *
  exact seg4_v110 V4 _ _ _ _ _ _ _ _ _ _ _ _ l3 e3_8 e3_9 e3_10 e3_11

end Cert.ReferenceIdeal.Chain

end
-- ==== Proof.KernelRun.lean ====
/-
  The idealized kernel's run with its result named. The program is seventeen segments: nine stretches of host
  operations alternating with eight pallas_calls. The buffer contents at each segment boundary are a fold from
  the launch memory: a host stretch applies its operations, a pallas_call replaces its output array by what its
  blocks wrote back and leaves every other buffer alone. Every weakly fair execution terminates, and in every
  final state each unscoped buffer holds the last boundary's contents; read at the result buffer this names the
  value the program returns, and read at an argument it gives back the launch contents.
-/
import proofs.«163823_j53824530153630_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, the result buffer at the last boundary's contents
    and the twelve arguments as launched. -/
theorem run : θ_run defs (onTc (τ := τ) (main (F := F))) ⟨m, fun _ => 0, ρ⟩ (fun r => ∀ c : Dev nD,
      r.2.mem ((c.tc : Thread nD τ).loc main_v102) = W17 m ρ c (Proc.devRef .tc main_v102)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v102 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c)⟩)

end Cert.KernelIdeal.Run

end
-- ==== Proof.Dense6.lean ====
/-
  Region 6 of the kernel: the first dense layer after the graph layers, with its bias and rectifier. The pallas_call walks the
  100000 rows in ten blocks of 10000 rows; at each block the body multiplies the 10000 x 64 block by the whole
  64 x 64 weight matrix into a zero accumulator (the bf16 roundings on the way in are the identity on the extended
  reals), adds the one bias row to every row and takes the maximum with zero. Entry (r, q) of the output is
  max (sum over k of x(r, k) * w(k, q), plus b(0, q), 0), whichever block holds row r; the ten blocks tile the rows, so this
  describes the whole output array.
-/
import proofs.«163823_j53824530153630_1_alg».proof.Proof.Gen.KernelIdeal.Frame
import proofs.«163823_j53824530153630_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.Dense6

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The whole-array product: the host's matrix product of a [100000, 64] array with a [64, 64] array. -/
abbrev dense (x : Cert.ReferenceIdeal.S100000x64.Idx → EReal) (w : Cert.ReferenceIdeal.S64x64.Idx → EReal) : Cert.ReferenceIdeal.S100000x64.Idx → EReal :=
  Cert.ReferenceIdeal.ReadP.val_main_v32 (F := Ideal) x w
abbrev lidx := @Cert.ReferenceIdeal.ReadP.lidx_main_v32
abbrev ridx := @Cert.ReferenceIdeal.ReadP.ridx_main_v32
theorem dense_apply (x : Cert.ReferenceIdeal.S100000x64.Idx → EReal) (w : Cert.ReferenceIdeal.S64x64.Idx → EReal) (i : Cert.ReferenceIdeal.S100000x64.Idx) :
    dense x w i = ∑ k : Fin 64, x (lidx i k) * w (ridx i k) := Cert.ReferenceIdeal.ReadP.val_main_v32_apply x w i

/-- Row `j 0`, column `k` of a block of rows. -/
abbrev lrow (j : S10000x64.Idx) (k : Fin 64) : S10000x64.Idx := fun a => match a with
  | ⟨0, _⟩ => ⟨(j 0).val, (j 0).isLt⟩
  | ⟨1, _⟩ => ⟨k.val, k.isLt⟩
/-- Row `k`, column `j 1` of the weights. -/
abbrev rcol (j : S10000x64.Idx) (k : Fin 64) : S64x64.Idx := fun a => match a with
  | ⟨0, _⟩ => ⟨k.val, k.isLt⟩
  | ⟨1, _⟩ => ⟨(j 1).val, (j 1).isLt⟩
/-- The bias row's entry under column `j 1` of a block. -/
abbrev brow (j : S10000x64.Idx) : S1x64.Idx := fun a => match a with
  | ⟨0, _⟩ => ⟨0, Nat.one_pos⟩
  | ⟨1, _⟩ => ⟨(j 1).val, (j 1).isLt⟩
/-- The bias row's entry under column `i 1` of the whole array. -/
abbrev browA (i : S100000x64.Idx) : S1x64.Idx := fun a => match a with
  | ⟨0, _⟩ => ⟨0, Nat.one_pos⟩
  | ⟨1, _⟩ => ⟨(i 1).val, (i 1).isLt⟩

/-- The whole-array function: the product, the bias row added to every row, then the maximum with zero. -/
def denseBiasRelu (x : Cert.ReferenceIdeal.S100000x64.Idx → EReal) (w : S64x64.Idx → EReal) (b : S1x64.Idx → EReal) : S100000x64.Idx → EReal :=
  fun i => FloatOps.maximumf (F := Ideal) (FloatOps.addf (F := Ideal) (φ := .f32) (dense x w i) (b (browA i))) (Scalar.ofBits (F := Ideal) .f32 0x00000000#32)

local notation "dd" => dot_S10000x64_S64x64_S10000x64_1_0_0_1_n_n

theorem lhs0 (i : S10000x64.Idx) (q : (dd).contr.Idx) : ((dd).lhsIdx i q 0).val = (i 0).val := by
  unfold DotDims.lhsIdx
  rw [dif_neg (show ¬(0 : Fin S10000x64.rank) ∈ (dd).lhsBatch by decide), dif_pos (show (0 : Fin S10000x64.rank) ∈ (dd).lhsNonContracting by decide)]
  rfl
theorem lhs1 (i : S10000x64.Idx) (q : (dd).contr.Idx) : ((dd).lhsIdx i q 1).val = (q ⟨0, by decide⟩).val :=
  (dd).lhsIdx_val_of_single rfl i q
theorem rhs0 (i : S10000x64.Idx) (q : (dd).contr.Idx) : ((dd).rhsIdx i q 0).val = (q ⟨0, by decide⟩).val :=
  (dd).rhsIdx_val_of_single rfl i q
theorem rhs1 (i : S10000x64.Idx) (q : (dd).contr.Idx) : ((dd).rhsIdx i q 1).val = (i 1).val := by
  unfold DotDims.rhsIdx
  rw [dif_neg (show ¬(1 : Fin S64x64.rank) ∈ (dd).rhsBatch by decide), dif_pos (show (1 : Fin S64x64.rank) ∈ (dd).rhsNonContracting by decide)]
  rfl

/-- The block product at an entry: the row of the feature block against the column of the weights. -/
theorem prod_apply (x : Vec Ideal S10000x64 .f32) (w : Vec Ideal S64x64 .f32) (j : S10000x64.Idx) :
    FloatOps.matmul (F := Ideal) (φ₁ := .f32) (φ₂ := .f32) (dd) none x w (constant S10000x64 .f32 0x00000000#32) j = ∑ k : Fin 64, x (lrow j k) * w (rcol j k) := by
  rw [Ideal.matmul_constant_zero_apply, ← Equiv.sum_comp (ValueIdx.contrEquiv1 (dd) 64 rfl rfl).symm]
  refine Finset.sum_congr rfl fun k _ => ?_
  have hk := ValueIdx.contrEquiv1_symm_val (dd) 64 rfl rfl k
  have el : (dd).lhsIdx j ((ValueIdx.contrEquiv1 (dd) 64 rfl rfl).symm k) = lrow j k := funext fun a => Fin.ext (by
    match a with
    | ⟨0, _⟩ => exact lhs0 _ _
    | ⟨1, _⟩ => exact (lhs1 _ _).trans hk)
  have er : (dd).rhsIdx j ((ValueIdx.contrEquiv1 (dd) 64 rfl rfl).symm k) = rcol j k := funext fun a => Fin.ext (by
    match a with
    | ⟨0, _⟩ => exact (rhs0 _ _).trans hk
    | ⟨1, _⟩ => exact rhs1 _ _)
  rw [el, er]

/-- The body's value at an entry of the block. -/
theorem pay_apply (x : Vec Ideal S10000x64 .f32) (w : Vec Ideal S64x64 .f32) (b : Vec Ideal S1x64 .f32) (j : S10000x64.Idx) :
    k6_pay1 (F := Ideal) x w b j
      = FloatOps.maximumf (F := Ideal) (FloatOps.addf (F := Ideal) (φ := .f32) (∑ k : Fin 64, x (lrow j k) * w (rcol j k)) (b (brow j))) (Scalar.ofBits (F := Ideal) .f32 0x00000000#32) := by
  show FloatOps.maximumf (F := Ideal) (FloatOps.addf (F := Ideal) (φ := .f32)
      (FloatOps.matmul (F := Ideal) (φ₁ := .f32) (φ₂ := .f32) (dd) none (shapeCast S10000x64 x shapeCasts_S10000x64_S10000x64) w (constant S10000x64 .f32 0x00000000#32) j)
      (broadcastTo S10000x64 (shapeCast S1x64 (shapeCast S1x64 b shapeCasts_S1x64_S1x64) shapeCasts_S1x64_S1x64) broadcasts_S1x64_S10000x64 j)) _ = _
  rw [shapeCast_self, shapeCast_self, shapeCast_self, prod_apply x w j,
    broadcastTo_apply b broadcasts_S1x64_S10000x64 j (brow j) (fun a => by
      match a with
      | ⟨0, _⟩ => rfl
      | ⟨1, _⟩ => rfl)]
  rfl

/-- A block row against a weight column is the whole product's entry, when the block's row is the array's row and the
    block's column the array's column. -/
theorem sum_eq (x : Vec Ideal S10000x64 .f32) (w : Vec Ideal S64x64 .f32) (X : Cert.ReferenceIdeal.S100000x64.Idx → EReal) (W : Cert.ReferenceIdeal.S64x64.Idx → EReal)
    (i : Cert.ReferenceIdeal.S100000x64.Idx) (j : S10000x64.Idx) (hx : ∀ k, x (lrow j k) = X (lidx i k)) (hw : ∀ k, w (rcol j k) = W (ridx i k)) :
    (∑ k : Fin 64, x (lrow j k) * w (rcol j k)) = dense X W i := by
  rw [dense_apply]
  exact Finset.sum_congr rfl fun k _ => by rw [hx k, hw k]

/-- The printed index maps over the ten grid points: the feature block and the output block move together down
    the rows, point `t` holding rows 10000 t to 10000 t + 9999; the weights and the bias row stay put. -/
theorem idx_facts : ∀ t : Fin cfg6.N, win6_0.index t (0 : Fin 2) = win6_3.index t (0 : Fin 2)
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (1 : Fin 2) = 0
    ∧ win6_3.index t (0 : Fin 2) = t.val :=
  (by decide +kernel : ∀ t : Fin grid6.N, _)

/-- What point `t` writes back is block `t` of the whole-array function of the arrays the region finds. -/
theorem flushed_eq (c : Dev nD) (t : Fin cfg6.N) :
    (dat6 V c).flushed 3 t = ((cfg6.win 3).blk t).view.read (Elt Ideal) (denseBiasRelu (V c main_v97) (V c main_arg8) (V c main_v98)) := by
  show (cfg6.win 3).cut (grid6.coords t) ((dat6 V c).after 3 t) = _
  rw [after6_3]
  unfold out6_3
  rw [View.canon_unit_zero hz]
  simp only [View.ld_unit_zero (S := S10000x64) hz, View.ld_unit_zero (S := S64x64) hz, View.ld_unit_zero (S := S1x64) hz]
  obtain ⟨e0, e1, e2, e3, e4, e5, e6, e7⟩ := idx_facts t
  funext j
  show k6_pay1 (F := Ideal) (iblk6 V c 0 t) (iblk6 V c 1 t) (iblk6 V c 2 t) j = denseBiasRelu (V c main_v97) (V c main_arg8) (V c main_v98) (((cfg6.win 3).blk t).view.emb j)
  refine (pay_apply (iblk6 V c 0 t) (iblk6 V c 1 t) (iblk6 V c 2 t) j).trans ?_
  have h0 : ∀ k : Fin 64, iblk6 V c 0 t (lrow j k) = V c main_v97 (lidx (((cfg6.win 3).blk t).view.emb j) k) := fun k => by
    show V c main_v97 (((cfg6.win 0).blk t).view.emb (lrow j k)) = _
    refine congrArg (V c main_v97) (funext fun a => Fin.ext ?_)
    match a with
    | ⟨0, _⟩ => show win6_0.index t (0 : Fin 2) * 10000 + 1 * (j 0).val = win6_3.index t (0 : Fin 2) * 10000 + 1 * (j 0).val; omega
    | ⟨1, _⟩ => show win6_0.index t (1 : Fin 2) * 64 + 1 * k.val = k.val; omega
  have h1 : ∀ k : Fin 64, iblk6 V c 1 t (rcol j k) = V c main_arg8 (ridx (((cfg6.win 3).blk t).view.emb j) k) := fun k => by
    show V c main_arg8 (((cfg6.win 1).blk t).view.emb (rcol j k)) = _
    refine congrArg (V c main_arg8) (funext fun a => Fin.ext ?_)
    match a with
    | ⟨0, _⟩ => show win6_1.index t (0 : Fin 2) * 64 + 1 * k.val = k.val; omega
    | ⟨1, _⟩ => show win6_1.index t (1 : Fin 2) * 64 + 1 * (j 1).val = win6_3.index t (1 : Fin 2) * 64 + 1 * (j 1).val; omega
  have hb : iblk6 V c 2 t (brow j) = V c main_v98 (browA (((cfg6.win 3).blk t).view.emb j)) := by
    show V c main_v98 (((cfg6.win 2).blk t).view.emb (brow j)) = _
    refine congrArg (V c main_v98) (funext fun a => Fin.ext ?_)
    match a with
    | ⟨0, _⟩ => show win6_2.index t (0 : Fin 2) * 1 + 1 * 0 = 0; omega
    | ⟨1, _⟩ => show win6_2.index t (1 : Fin 2) * 64 + 1 * (j 1).val = win6_3.index t (1 : Fin 2) * 64 + 1 * (j 1).val; omega
  rw [sum_eq (iblk6 V c 0 t) (iblk6 V c 1 t) (V c main_v97) (V c main_arg8) (((cfg6.win 3).blk t).view.emb j) j h0 h1, hb]
  rfl

/-- An index of the output array lies in point `t`'s block iff each coordinate is in the block's range. -/
theorem mem_blk (t : Fin cfg6.N) (i : S100000x64.Idx) :
    i ∈ ((cfg6.win 3).blk t).view.set ↔ ∀ a : Fin 2, win6_3.index t a * S10000x64.size a ≤ (i a).val ∧ (i a).val < win6_3.index t a * S10000x64.size a + S10000x64.size a := by
  show i ∈ ((View.whole main_v99).slice (win6_3.rect t)).set ↔ _
  rw [View.set_slice_whole, Rect.mem_set_unit]
  exact Iff.rfl

/-- Every block of rows is some point's. -/
theorem point_of : ∀ q : Fin 10, ∃ t : Fin cfg6.N, win6_3.index t = ![q.val, 0] :=
  (by decide +kernel : ∀ q : Fin 10, ∃ t : Fin grid6.N, win6_3.index t = ![q.val, 0])

/-- The ten blocks tile the output array: row r is in the block of point r / 10000. -/
theorem cover (i : S100000x64.Idx) : ∃ t : Fin cfg6.N, (cfg6.win 3).flush t = true ∧ i ∈ ((cfg6.win 3).blk t).view.set := by
  have hi0 : (i 0).val < 100000 := (i 0).isLt
  have hi1 : (i 1).val < 64 := (i 1).isLt
  obtain ⟨t, ht⟩ := point_of ⟨(i 0).val / 10000, by omega⟩
  have q0 : win6_3.index t (0 : Fin 2) = (i 0).val / 10000 := congrFun ht 0
  have q1 : win6_3.index t (1 : Fin 2) = 0 := congrFun ht 1
  refine ⟨t, flush6_3 t, ?_⟩
  rw [mem_blk]
  intro a
  match a with
  | ⟨0, _⟩ => show win6_3.index t (0 : Fin 2) * 10000 ≤ (i 0).val ∧ (i 0).val < win6_3.index t (0 : Fin 2) * 10000 + 10000; omega
  | ⟨1, _⟩ => show win6_3.index t (1 : Fin 2) * 64 ≤ (i 1).val ∧ (i 1).val < win6_3.index t (1 : Fin 2) * 64 + 64; omega

/-- After the region the output array is the whole-array function of the three arrays the region found. -/
theorem final (c : Dev nD) : (dat6 V c).arrAt 3 cfg6.N = denseBiasRelu (V c main_v97) (V c main_arg8) (V c main_v98) :=
  (dat6 V c).arrAt_eq_of_cover 3 (denseBiasRelu (V c main_v97) (V c main_arg8) (V c main_v98)) (fun t _ => flushed_eq V c t) cover

end Cert.KernelIdeal.Dense6

end
-- ==== Proof.Dense7.lean ====
/-
  Region 7 of the kernel: the last dense layer, with its bias. The pallas_call walks the
  100000 rows in ten blocks of 10000 rows; at each block the body multiplies the 10000 x 64 block by the whole
  64 x 10 weight matrix into a zero accumulator (the bf16 roundings on the way in are the identity on the extended
  reals), adds the one bias row to every row. Entry (r, q) of the output is
  sum over k of x(r, k) * w(k, q), plus b(0, q), whichever block holds row r; the ten blocks tile the rows, so this
  describes the whole output array.
-/
import proofs.«163823_j53824530153630_1_alg».proof.Proof.Gen.KernelIdeal.Frame
import proofs.«163823_j53824530153630_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.Dense7

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

local notation "DD" => Cert.ReferenceIdeal.dot_S100000x64_S64x10_S100000x10_1_0_0_1_n_n
/-- The whole-array product: the host's matrix product of a [100000, 64] array with a [64, 10] array. -/
def dense (x : Cert.ReferenceIdeal.S100000x64.Idx → EReal) (w : Cert.ReferenceIdeal.S64x10.Idx → EReal) : Cert.ReferenceIdeal.S100000x10.Idx → EReal :=
  Host.dotGeneral (F := Ideal) (φ₁ := .f32) (φ₂ := .f32) DD none x w
abbrev lidx := @Cert.ReferenceIdeal.ReadP.lidx_main_v106
abbrev ridx := @Cert.ReferenceIdeal.ReadP.ridx_main_v106
/-- Read at an index it is the row of the left array against the column of the right one. -/
theorem dense_apply (x : Cert.ReferenceIdeal.S100000x64.Idx → EReal) (w : Cert.ReferenceIdeal.S64x10.Idx → EReal) (i : Cert.ReferenceIdeal.S100000x10.Idx) :
    dense x w i = ∑ k : Fin 64, x (lidx i k) * w (ridx i k) := by
  unfold dense
  simp only [Host.dotGeneral]
  rw [Ideal.dotGeneral_apply, ← Equiv.sum_comp (ValueIdx.contrEquiv1 DD 64 rfl rfl).symm]
  refine Finset.sum_congr rfl fun k _ => ?_
  have hk := ValueIdx.contrEquiv1_symm_val DD 64 rfl rfl k
  have el : (DD).lhsIdx i ((ValueIdx.contrEquiv1 DD 64 rfl rfl).symm k) = lidx i k := funext fun a => Fin.ext (by
    match a with
    | ⟨0, _⟩ => exact Cert.ReferenceIdeal.ReadP.lhs_main_v106_0 _ _
    | ⟨1, _⟩ => exact (Cert.ReferenceIdeal.ReadP.lhs_main_v106_1 _ _).trans hk)
  have er : (DD).rhsIdx i ((ValueIdx.contrEquiv1 DD 64 rfl rfl).symm k) = ridx i k := funext fun a => Fin.ext (by
    match a with
    | ⟨0, _⟩ => exact (Cert.ReferenceIdeal.ReadP.rhs_main_v106_0 _ _).trans hk
    | ⟨1, _⟩ => exact Cert.ReferenceIdeal.ReadP.rhs_main_v106_1 _ _)
  rw [el, er]

/-- Row `j 0`, column `k` of a block of rows. -/
abbrev lrow (j : S10000x10.Idx) (k : Fin 64) : S10000x64.Idx := fun a => match a with
  | ⟨0, _⟩ => ⟨(j 0).val, (j 0).isLt⟩
  | ⟨1, _⟩ => ⟨k.val, k.isLt⟩
/-- Row `k`, column `j 1` of the weights. -/
abbrev rcol (j : S10000x10.Idx) (k : Fin 64) : S64x10.Idx := fun a => match a with
  | ⟨0, _⟩ => ⟨k.val, k.isLt⟩
  | ⟨1, _⟩ => ⟨(j 1).val, (j 1).isLt⟩
/-- The bias row's entry under column `j 1` of a block. -/
abbrev brow (j : S10000x10.Idx) : S1x10.Idx := fun a => match a with
  | ⟨0, _⟩ => ⟨0, Nat.one_pos⟩
  | ⟨1, _⟩ => ⟨(j 1).val, (j 1).isLt⟩
/-- The bias row's entry under column `i 1` of the whole array. -/
abbrev browA (i : S100000x10.Idx) : S1x10.Idx := fun a => match a with
  | ⟨0, _⟩ => ⟨0, Nat.one_pos⟩
  | ⟨1, _⟩ => ⟨(i 1).val, (i 1).isLt⟩

/-- The whole-array function: the product, the bias row added to every row. -/
def denseBias (x : Cert.ReferenceIdeal.S100000x64.Idx → EReal) (w : S64x10.Idx → EReal) (b : S1x10.Idx → EReal) : S100000x10.Idx → EReal :=
  fun i => FloatOps.addf (F := Ideal) (φ := .f32) (dense x w i) (b (browA i))

local notation "dd" => dot_S10000x64_S64x10_S10000x10_1_0_0_1_n_n

theorem lhs0 (i : S10000x10.Idx) (q : (dd).contr.Idx) : ((dd).lhsIdx i q 0).val = (i 0).val := by
  unfold DotDims.lhsIdx
  rw [dif_neg (show ¬(0 : Fin S10000x64.rank) ∈ (dd).lhsBatch by decide), dif_pos (show (0 : Fin S10000x64.rank) ∈ (dd).lhsNonContracting by decide)]
  rfl
theorem lhs1 (i : S10000x10.Idx) (q : (dd).contr.Idx) : ((dd).lhsIdx i q 1).val = (q ⟨0, by decide⟩).val :=
  (dd).lhsIdx_val_of_single rfl i q
theorem rhs0 (i : S10000x10.Idx) (q : (dd).contr.Idx) : ((dd).rhsIdx i q 0).val = (q ⟨0, by decide⟩).val :=
  (dd).rhsIdx_val_of_single rfl i q
theorem rhs1 (i : S10000x10.Idx) (q : (dd).contr.Idx) : ((dd).rhsIdx i q 1).val = (i 1).val := by
  unfold DotDims.rhsIdx
  rw [dif_neg (show ¬(1 : Fin S64x10.rank) ∈ (dd).rhsBatch by decide), dif_pos (show (1 : Fin S64x10.rank) ∈ (dd).rhsNonContracting by decide)]
  rfl

/-- The block product at an entry: the row of the feature block against the column of the weights. -/
theorem prod_apply (x : Vec Ideal S10000x64 .f32) (w : Vec Ideal S64x10 .f32) (j : S10000x10.Idx) :
    FloatOps.matmul (F := Ideal) (φ₁ := .f32) (φ₂ := .f32) (dd) none x w (constant S10000x10 .f32 0x00000000#32) j = ∑ k : Fin 64, x (lrow j k) * w (rcol j k) := by
  rw [Ideal.matmul_constant_zero_apply, ← Equiv.sum_comp (ValueIdx.contrEquiv1 (dd) 64 rfl rfl).symm]
  refine Finset.sum_congr rfl fun k _ => ?_
  have hk := ValueIdx.contrEquiv1_symm_val (dd) 64 rfl rfl k
  have el : (dd).lhsIdx j ((ValueIdx.contrEquiv1 (dd) 64 rfl rfl).symm k) = lrow j k := funext fun a => Fin.ext (by
    match a with
    | ⟨0, _⟩ => exact lhs0 _ _
    | ⟨1, _⟩ => exact (lhs1 _ _).trans hk)
  have er : (dd).rhsIdx j ((ValueIdx.contrEquiv1 (dd) 64 rfl rfl).symm k) = rcol j k := funext fun a => Fin.ext (by
    match a with
    | ⟨0, _⟩ => exact (rhs0 _ _).trans hk
    | ⟨1, _⟩ => exact rhs1 _ _)
  rw [el, er]

/-- The body's value at an entry of the block. -/
theorem pay_apply (x : Vec Ideal S10000x64 .f32) (w : Vec Ideal S64x10 .f32) (b : Vec Ideal S1x10 .f32) (j : S10000x10.Idx) :
    k7_pay1 (F := Ideal) x w b j
      = FloatOps.addf (F := Ideal) (φ := .f32) (∑ k : Fin 64, x (lrow j k) * w (rcol j k)) (b (brow j)) := by
  show FloatOps.addf (F := Ideal) (φ := .f32)
      (FloatOps.matmul (F := Ideal) (φ₁ := .f32) (φ₂ := .f32) (dd) none (shapeCast S10000x64 x shapeCasts_S10000x64_S10000x64) w (constant S10000x10 .f32 0x00000000#32) j)
      (broadcastTo S10000x10 (shapeCast S1x10 (shapeCast S1x10 b shapeCasts_S1x10_S1x10) shapeCasts_S1x10_S1x10) broadcasts_S1x10_S10000x10 j) = _
  rw [shapeCast_self, shapeCast_self, shapeCast_self, prod_apply x w j,
    broadcastTo_apply b broadcasts_S1x10_S10000x10 j (brow j) (fun a => by
      match a with
      | ⟨0, _⟩ => rfl
      | ⟨1, _⟩ => rfl)]

/-- A block row against a weight column is the whole product's entry, when the block's row is the array's row and the
    block's column the array's column. -/
theorem sum_eq (x : Vec Ideal S10000x64 .f32) (w : Vec Ideal S64x10 .f32) (X : Cert.ReferenceIdeal.S100000x64.Idx → EReal) (W : Cert.ReferenceIdeal.S64x10.Idx → EReal)
    (i : Cert.ReferenceIdeal.S100000x10.Idx) (j : S10000x10.Idx) (hx : ∀ k, x (lrow j k) = X (lidx i k)) (hw : ∀ k, w (rcol j k) = W (ridx i k)) :
    (∑ k : Fin 64, x (lrow j k) * w (rcol j k)) = dense X W i := by
  rw [dense_apply]
  exact Finset.sum_congr rfl fun k _ => by rw [hx k, hw k]

/-- The printed index maps over the ten grid points: the feature block and the output block move together down
    the rows, point `t` holding rows 10000 t to 10000 t + 9999; the weights and the bias row stay put. -/
theorem idx_facts : ∀ t : Fin cfg7.N, win7_0.index t (0 : Fin 2) = win7_3.index t (0 : Fin 2)
    ∧ win7_0.index t (1 : Fin 2) = 0
    ∧ win7_1.index t (0 : Fin 2) = 0
    ∧ win7_1.index t (1 : Fin 2) = 0
    ∧ win7_2.index t (0 : Fin 2) = 0
    ∧ win7_2.index t (1 : Fin 2) = 0
    ∧ win7_3.index t (1 : Fin 2) = 0
    ∧ win7_3.index t (0 : Fin 2) = t.val :=
  (by decide +kernel : ∀ t : Fin grid7.N, _)

/-- What point `t` writes back is block `t` of the whole-array function of the arrays the region finds. -/
theorem flushed_eq (c : Dev nD) (t : Fin cfg7.N) :
    (dat7 V c).flushed 3 t = ((cfg7.win 3).blk t).view.read (Elt Ideal) (denseBias (V c main_v99) (V c main_arg10) (V c main_v100)) := by
  show (cfg7.win 3).cut (grid7.coords t) ((dat7 V c).after 3 t) = _
  rw [after7_3]
  unfold out7_3
  rw [View.canon_unit_zero hz]
  simp only [View.ld_unit_zero (S := S10000x64) hz, View.ld_unit_zero (S := S64x10) hz, View.ld_unit_zero (S := S1x10) hz]
  obtain ⟨e0, e1, e2, e3, e4, e5, e6, e7⟩ := idx_facts t
  funext j
  show k7_pay1 (F := Ideal) (iblk7 V c 0 t) (iblk7 V c 1 t) (iblk7 V c 2 t) j = denseBias (V c main_v99) (V c main_arg10) (V c main_v100) (((cfg7.win 3).blk t).view.emb j)
  refine (pay_apply (iblk7 V c 0 t) (iblk7 V c 1 t) (iblk7 V c 2 t) j).trans ?_
  have h0 : ∀ k : Fin 64, iblk7 V c 0 t (lrow j k) = V c main_v99 (lidx (((cfg7.win 3).blk t).view.emb j) k) := fun k => by
    show V c main_v99 (((cfg7.win 0).blk t).view.emb (lrow j k)) = _
    refine congrArg (V c main_v99) (funext fun a => Fin.ext ?_)
    match a with
    | ⟨0, _⟩ => show win7_0.index t (0 : Fin 2) * 10000 + 1 * (j 0).val = win7_3.index t (0 : Fin 2) * 10000 + 1 * (j 0).val; omega
    | ⟨1, _⟩ => show win7_0.index t (1 : Fin 2) * 64 + 1 * k.val = k.val; omega
  have h1 : ∀ k : Fin 64, iblk7 V c 1 t (rcol j k) = V c main_arg10 (ridx (((cfg7.win 3).blk t).view.emb j) k) := fun k => by
    show V c main_arg10 (((cfg7.win 1).blk t).view.emb (rcol j k)) = _
    refine congrArg (V c main_arg10) (funext fun a => Fin.ext ?_)
    match a with
    | ⟨0, _⟩ => show win7_1.index t (0 : Fin 2) * 64 + 1 * k.val = k.val; omega
    | ⟨1, _⟩ => show win7_1.index t (1 : Fin 2) * 10 + 1 * (j 1).val = win7_3.index t (1 : Fin 2) * 10 + 1 * (j 1).val; omega
  have hb : iblk7 V c 2 t (brow j) = V c main_v100 (browA (((cfg7.win 3).blk t).view.emb j)) := by
    show V c main_v100 (((cfg7.win 2).blk t).view.emb (brow j)) = _
    refine congrArg (V c main_v100) (funext fun a => Fin.ext ?_)
    match a with
    | ⟨0, _⟩ => show win7_2.index t (0 : Fin 2) * 1 + 1 * 0 = 0; omega
    | ⟨1, _⟩ => show win7_2.index t (1 : Fin 2) * 10 + 1 * (j 1).val = win7_3.index t (1 : Fin 2) * 10 + 1 * (j 1).val; omega
  rw [sum_eq (iblk7 V c 0 t) (iblk7 V c 1 t) (V c main_v99) (V c main_arg10) (((cfg7.win 3).blk t).view.emb j) j h0 h1, hb]
  rfl

/-- An index of the output array lies in point `t`'s block iff each coordinate is in the block's range. -/
theorem mem_blk (t : Fin cfg7.N) (i : S100000x10.Idx) :
    i ∈ ((cfg7.win 3).blk t).view.set ↔ ∀ a : Fin 2, win7_3.index t a * S10000x10.size a ≤ (i a).val ∧ (i a).val < win7_3.index t a * S10000x10.size a + S10000x10.size a := by
  show i ∈ ((View.whole main_v101).slice (win7_3.rect t)).set ↔ _
  rw [View.set_slice_whole, Rect.mem_set_unit]
  exact Iff.rfl

/-- Every block of rows is some point's. -/
theorem point_of : ∀ q : Fin 10, ∃ t : Fin cfg7.N, win7_3.index t = ![q.val, 0] :=
  (by decide +kernel : ∀ q : Fin 10, ∃ t : Fin grid7.N, win7_3.index t = ![q.val, 0])

/-- The ten blocks tile the output array: row r is in the block of point r / 10000. -/
theorem cover (i : S100000x10.Idx) : ∃ t : Fin cfg7.N, (cfg7.win 3).flush t = true ∧ i ∈ ((cfg7.win 3).blk t).view.set := by
  have hi0 : (i 0).val < 100000 := (i 0).isLt
  have hi1 : (i 1).val < 10 := (i 1).isLt
  obtain ⟨t, ht⟩ := point_of ⟨(i 0).val / 10000, by omega⟩
  have q0 : win7_3.index t (0 : Fin 2) = (i 0).val / 10000 := congrFun ht 0
  have q1 : win7_3.index t (1 : Fin 2) = 0 := congrFun ht 1
  refine ⟨t, flush7_3 t, ?_⟩
  rw [mem_blk]
  intro a
  match a with
  | ⟨0, _⟩ => show win7_3.index t (0 : Fin 2) * 10000 ≤ (i 0).val ∧ (i 0).val < win7_3.index t (0 : Fin 2) * 10000 + 10000; omega
  | ⟨1, _⟩ => show win7_3.index t (1 : Fin 2) * 10 ≤ (i 1).val ∧ (i 1).val < win7_3.index t (1 : Fin 2) * 10 + 10; omega

/-- After the region the output array is the whole-array function of the three arrays the region found. -/
theorem final (c : Dev nD) : (dat7 V c).arrAt 3 cfg7.N = denseBias (V c main_v99) (V c main_arg10) (V c main_v100) :=
  (dat7 V c).arrAt_eq_of_cover 3 (denseBias (V c main_v99) (V c main_arg10) (V c main_v100)) (fun t _ => flushed_eq V c t) cover

end Cert.KernelIdeal.Dense7

end
-- ==== Proof.BiasRelu1.lean ====
/-
  Region 1 of the kernel: the bias and the rectifier of graph layer 1. The pallas_call walks the 100000 rows of
  the aggregated features in ten blocks of 10000 rows; at each block the body adds the one bias row to every row
  of the block and takes the maximum with zero. Entry (r, q) of the output is max (a(r, q) + b(0, q), 0),
  whichever block holds row r; the ten blocks tile the rows, so this describes the whole output array.
-/
import proofs.«163823_j53824530153630_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.BiasRelu1

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The bias row's entry under column `j 1` of a block. -/
abbrev brow (j : S10000x64.Idx) : S1x64.Idx := fun a => match a with
  | ⟨0, _⟩ => ⟨0, Nat.one_pos⟩
  | ⟨1, _⟩ => ⟨(j 1).val, (j 1).isLt⟩
/-- The bias row's entry under column `i 1` of the whole array. -/
abbrev browA (i : S100000x64.Idx) : S1x64.Idx := fun a => match a with
  | ⟨0, _⟩ => ⟨0, Nat.one_pos⟩
  | ⟨1, _⟩ => ⟨(i 1).val, (i 1).isLt⟩

/-- The whole-array function: the bias row added to every row, then the maximum with zero. -/
def biasRelu (a : S100000x64.Idx → EReal) (b : S1x64.Idx → EReal) : S100000x64.Idx → EReal :=
  fun i => FloatOps.maximumf (F := Ideal) (FloatOps.addf (F := Ideal) (φ := .f32) (a i) (b (browA i))) (Scalar.ofBits (F := Ideal) .f32 0x00000000#32)

/-- The body's value at an entry of the block. -/
theorem pay_apply (x : Vec Ideal S10000x64 .f32) (b : Vec Ideal S1x64 .f32) (j : S10000x64.Idx) :
    k1_pay1 (F := Ideal) x b j
      = FloatOps.maximumf (F := Ideal) (FloatOps.addf (F := Ideal) (φ := .f32) (x j) (b (brow j))) (Scalar.ofBits (F := Ideal) .f32 0x00000000#32) := by
  show FloatOps.maximumf (F := Ideal) (FloatOps.addf (F := Ideal) (φ := .f32) (shapeCast S10000x64 x shapeCasts_S10000x64_S10000x64 j)
      (broadcastTo S10000x64 (shapeCast S1x64 (shapeCast S1x64 b shapeCasts_S1x64_S1x64) shapeCasts_S1x64_S1x64) broadcasts_S1x64_S10000x64 j)) _ = _
  rw [shapeCast_self, shapeCast_self, shapeCast_self,
    broadcastTo_apply b broadcasts_S1x64_S10000x64 j (brow j) (fun a => by
      match a with
      | ⟨0, _⟩ => rfl
      | ⟨1, _⟩ => rfl)]
  rfl

/-- The printed index maps over the ten grid points: the input block and the output block move together down
    the rows, point `t` holding rows 10000 t to 10000 t + 9999; the bias row stays put. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

/-- What point `t` writes back is block `t` of the whole-array function of the arrays the region finds. -/
theorem flushed_eq (c : Dev nD) (t : Fin cfg1.N) :
    (dat1 V c).flushed 2 t = ((cfg1.win 2).blk t).view.read (Elt Ideal) (biasRelu (V c main_v51) (V c main_v52)) := by
  show (cfg1.win 2).cut (grid1.coords t) ((dat1 V c).after 2 t) = _
  rw [after1_2]
  unfold out1_2
  rw [View.canon_unit_zero hz]
  simp only [View.ld_unit_zero (S := S10000x64) hz, View.ld_unit_zero (S := S1x64) hz]
  obtain ⟨e0, e1, e2, e3, e4, e5⟩ := idx_facts t
  funext j
  show k1_pay1 (F := Ideal) (iblk1 V c 0 t) (iblk1 V c 1 t) j = biasRelu (V c main_v51) (V c main_v52) (((cfg1.win 2).blk t).view.emb j)
  refine (pay_apply (iblk1 V c 0 t) (iblk1 V c 1 t) j).trans ?_
  have h0 : iblk1 V c 0 t j = V c main_v51 (((cfg1.win 2).blk t).view.emb j) := by
    show V c main_v51 (((cfg1.win 0).blk t).view.emb j) = _
    refine congrArg (V c main_v51) (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : iblk1 V c 1 t (brow j) = V c main_v52 (browA (((cfg1.win 2).blk t).view.emb j)) := by
    show V c main_v52 (((cfg1.win 1).blk t).view.emb (brow j)) = _
    refine congrArg (V c main_v52) (funext fun a => Fin.ext ?_)
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  rw [h0, h1]
  rfl

/-- An index of the output array lies in point `t`'s block iff each coordinate is in the block's range. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v53).slice (win1_2.rect t)).set ↔ _
  rw [View.set_slice_whole, Rect.mem_set_unit]
  exact Iff.rfl

/-- Every block of rows is some point's. -/
theorem point_of : ∀ q : Fin 10, ∃ t : Fin cfg1.N, win1_2.index t = ![q.val, 0] :=
  (by decide +kernel : ∀ q : Fin 10, ∃ t : Fin grid1.N, win1_2.index t = ![q.val, 0])

/-- The ten blocks tile the output array: row r is in the block of point r / 10000. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := point_of ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the region the output array is the whole-array function of the two arrays the region found. -/
theorem final (c : Dev nD) : (dat1 V c).arrAt 2 cfg1.N = biasRelu (V c main_v51) (V c main_v52) :=
  (dat1 V c).arrAt_eq_of_cover 2 (biasRelu (V c main_v51) (V c main_v52)) (fun t _ => flushed_eq V c t) cover

end Cert.KernelIdeal.BiasRelu1

end
-- ==== Proof.Bridge.lean ====
/-
  The two spellings of a bias row. The kernel reshapes a bias vector b of length 64 to one row [1, 64] on the host,
  and its bodies add that row to every row of a block; the reference broadcasts b to [1, 64] and then to
  [100000, 64] and adds the arrays. Entry (r, q) of either is a(r, q) + b(q). Likewise the rectifier: the body
  takes the maximum with a splat zero, the reference with a zero scalar broadcast to the whole array. So the
  kernel's whole-array functions are the reference's operations on the same arrays, index by index; the same
  for the last layer's bias of length 10.
-/
import proofs.«163823_j53824530153630_1_alg».proof.Proof.RefRead
import proofs.«163823_j53824530153630_1_alg».proof.Proof.BiasRelu1
import proofs.«163823_j53824530153630_1_alg».proof.Proof.Dense6
import proofs.«163823_j53824530153630_1_alg».proof.Proof.Dense7
import Idealize.ShloMosaic.Lib.Pipeline.Value
import Idealize.ShloMosaic.Lib.ValueIdx

set_option maxRecDepth 16384

noncomputable section

namespace Cert.Bridge

open Idealize.ShloMosaic Cert.ReferenceIdeal Cert.ReferenceIdeal.ReadP

/-- The bias row as the kernel's host code makes it: the vector of length 64 reshaped to [1, 64]. -/
abbrev biasRow (b : (⟨S64, .f32⟩ : BufTy).Contents (Elt Ideal)) : (⟨S1x64, .f32⟩ : BufTy).Contents (Elt Ideal) :=
  shapeCast Cert.KernelIdeal.S1x64 b Cert.KernelIdeal.Gen.shapeCasts_S64_S1x64

/-- The reference's bias and rectifier on whole arrays. -/
abbrev refBiasRelu (a : (⟨S100000x64, .f32⟩ : BufTy).Contents (Elt Ideal)) (b : (⟨S64, .f32⟩ : BufTy).Contents (Elt Ideal)) :
    (⟨S100000x64, .f32⟩ : BufTy).Contents (Elt Ideal) :=
  maximumf (F := Ideal) (φ := .f32) (addf (F := Ideal) (φ := .f32) a (val_main_v52 (F := Ideal) b)) (val_main_call0_v0 (F := Ideal))

/-- The kernel's bias-and-rectifier function of an array and the reshaped bias is the reference's of the array
    and the bias vector: both are max (a(r, q) + b(q), 0) at every entry. -/
theorem biasRelu_eq (a : (⟨S100000x64, .f32⟩ : BufTy).Contents (Elt Ideal)) (b : (⟨S64, .f32⟩ : BufTy).Contents (Elt Ideal)) :
    Cert.KernelIdeal.BiasRelu1.biasRelu a (biasRow b) = refBiasRelu a b := by
  funext i
  show FloatOps.maximumf (F := Ideal) (FloatOps.addf (F := Ideal) (φ := .f32) (a i) (shapeCast Cert.KernelIdeal.S1x64 b Cert.KernelIdeal.Gen.shapeCasts_S64_S1x64 (Cert.KernelIdeal.BiasRelu1.browA i)))
      (Scalar.ofBits (F := Ideal) .f32 0x00000000#32)
    = FloatOps.maximumf (F := Ideal) (FloatOps.addf (F := Ideal) (φ := .f32) (a i) (val_main_v52 (F := Ideal) b i)) (val_main_call0_v0 (F := Ideal) i)
  rw [val_main_v52_apply, val_main_v51_apply, val_main_call0_v0_apply, val_main_call0_cst_apply,
    shapeCast_apply b Cert.KernelIdeal.Gen.shapeCasts_S64_S1x64 (Cert.KernelIdeal.BiasRelu1.browA i) (idx_main_v51 (idx_main_v52 i))
      (by rewrite [Shape.rowMajor_val_two, Shape.rowMajor_val_one]; show (i 1).val = 0 * 64 + (i 1).val; omega)]

/-- The dense layer with bias and rectifier is the same function of the product array. -/
theorem denseBiasRelu_eq (x : (⟨S100000x64, .f32⟩ : BufTy).Contents (Elt Ideal)) (w : (⟨S64x64, .f32⟩ : BufTy).Contents (Elt Ideal))
    (b : (⟨S64, .f32⟩ : BufTy).Contents (Elt Ideal)) :
    Cert.KernelIdeal.Dense6.denseBiasRelu x w (biasRow b) = refBiasRelu (val_main_v32 (F := Ideal) x w) b :=
  (show Cert.KernelIdeal.Dense6.denseBiasRelu x w (biasRow b) = Cert.KernelIdeal.BiasRelu1.biasRelu (val_main_v32 (F := Ideal) x w) (biasRow b) from rfl).trans
    (biasRelu_eq (val_main_v32 (F := Ideal) x w) b)

/-- The last layer's bias row: the vector of length 10 reshaped to [1, 10]. -/
abbrev biasRow10 (b : (⟨S10, .f32⟩ : BufTy).Contents (Elt Ideal)) : (⟨S1x10, .f32⟩ : BufTy).Contents (Elt Ideal) :=
  shapeCast Cert.KernelIdeal.S1x10 b Cert.KernelIdeal.Gen.shapeCasts_S10_S1x10

/-- The last dense layer: the kernel's product-plus-bias-row is the reference's product plus the broadcast bias. -/
theorem denseBias_eq (x : (⟨S100000x64, .f32⟩ : BufTy).Contents (Elt Ideal)) (w : (⟨S64x10, .f32⟩ : BufTy).Contents (Elt Ideal))
    (b : (⟨S10, .f32⟩ : BufTy).Contents (Elt Ideal)) :
    Cert.KernelIdeal.Dense7.denseBias x w (biasRow10 b)
      = addf (F := Ideal) (φ := .f32) (Host.dotGeneral (F := Ideal) (φ₁ := .f32) (φ₂ := .f32) dot_S100000x64_S64x10_S100000x10_1_0_0_1_n_n none x w) (val_main_v108 (F := Ideal) b) := by
  funext i
  show FloatOps.addf (F := Ideal) (φ := .f32) (Cert.KernelIdeal.Dense7.dense x w i) (shapeCast Cert.KernelIdeal.S1x10 b Cert.KernelIdeal.Gen.shapeCasts_S10_S1x10 (Cert.KernelIdeal.Dense7.browA i))
    = FloatOps.addf (F := Ideal) (φ := .f32) (Host.dotGeneral (F := Ideal) (φ₁ := .f32) (φ₂ := .f32) dot_S100000x64_S64x10_S100000x10_1_0_0_1_n_n none x w i) (val_main_v108 (F := Ideal) b i)
  rw [val_main_v108_apply, val_main_v107_apply,
    shapeCast_apply b Cert.KernelIdeal.Gen.shapeCasts_S10_S1x10 (Cert.KernelIdeal.Dense7.browA i) (idx_main_v107 (idx_main_v108 i))
      (by rewrite [Shape.rowMajor_val_two, Shape.rowMajor_val_one]; show (i 1).val = 0 * 10 + (i 1).val; omega)]
  rfl

end Cert.Bridge

end
-- ==== Proof.Dense4.lean ====
/-
  Region 4 of the kernel: the dense product of graph layer 3. The pallas_call walks the 100000 node rows in ten
  blocks of 10000 rows; at each block the body multiplies the 10000 x 64 block of the features by the whole
  64 x 64 weight matrix into a zero accumulator (the bf16 roundings on the way in are the identity on the
  extended reals). Row r of the output therefore depends on row r of the features and on the whole weight
  matrix only: entry (r, q) is the sum over k of x(r, k) * w(k, q), whichever block holds r. The ten blocks
  tile the rows, so the output array as a whole is the host's plain matrix product of the two arrays.
-/
import proofs.«163823_j53824530153630_1_alg».proof.Proof.Gen.KernelIdeal.Frame
import proofs.«163823_j53824530153630_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.Dense4

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The whole-array product: the host's matrix product of a [100000, 64] array with a [64, 64] array. -/
abbrev dense (x : Cert.ReferenceIdeal.S100000x64.Idx → EReal) (w : Cert.ReferenceIdeal.S64x64.Idx → EReal) :
    Cert.ReferenceIdeal.S100000x64.Idx → EReal :=
  Cert.ReferenceIdeal.ReadP.val_main_v32 (F := Ideal) x w

/-- Row `j 0`, column `k` of a block of rows. -/
abbrev lrow (j : S10000x64.Idx) (k : Fin 64) : S10000x64.Idx := fun a => match a with
  | ⟨0, _⟩ => ⟨(j 0).val, (j 0).isLt⟩
  | ⟨1, _⟩ => ⟨k.val, k.isLt⟩
/-- Row `k`, column `j 1` of the weights. -/
abbrev rcol (j : S10000x64.Idx) (k : Fin 64) : S64x64.Idx := fun a => match a with
  | ⟨0, _⟩ => ⟨k.val, k.isLt⟩
  | ⟨1, _⟩ => ⟨(j 1).val, (j 1).isLt⟩

local notation "dd" => dot_S10000x64_S64x64_S10000x64_1_0_0_1_n_n

theorem lhs0 (i : S10000x64.Idx) (q : (dd).contr.Idx) : ((dd).lhsIdx i q 0).val = (i 0).val := by
  unfold DotDims.lhsIdx
  rw [dif_neg (show ¬(0 : Fin S10000x64.rank) ∈ (dd).lhsBatch by decide), dif_pos (show (0 : Fin S10000x64.rank) ∈ (dd).lhsNonContracting by decide)]
  rfl
theorem lhs1 (i : S10000x64.Idx) (q : (dd).contr.Idx) : ((dd).lhsIdx i q 1).val = (q ⟨0, by decide⟩).val :=
  (dd).lhsIdx_val_of_single rfl i q
theorem rhs0 (i : S10000x64.Idx) (q : (dd).contr.Idx) : ((dd).rhsIdx i q 0).val = (q ⟨0, by decide⟩).val :=
  (dd).rhsIdx_val_of_single rfl i q
theorem rhs1 (i : S10000x64.Idx) (q : (dd).contr.Idx) : ((dd).rhsIdx i q 1).val = (i 1).val := by
  unfold DotDims.rhsIdx
  rw [dif_neg (show ¬(1 : Fin S64x64.rank) ∈ (dd).rhsBatch by decide), dif_pos (show (1 : Fin S64x64.rank) ∈ (dd).rhsNonContracting by decide)]
  rfl

/-- The body's value at an entry of the block: the row of the feature block against the column of the weights. -/
theorem pay_apply (x : Vec Ideal S10000x64 .f32) (w : Vec Ideal S64x64 .f32) (j : S10000x64.Idx) :
    k4_pay1 (F := Ideal) x w j = ∑ k : Fin 64, x (lrow j k) * w (rcol j k) := by
  show FloatOps.matmul (F := Ideal) (dd) none (truncf .bf16 (shapeCast S10000x64 x shapeCasts_S10000x64_S10000x64) bitsLt_bf16_f32) (truncf .bf16 w bitsLt_bf16_f32) (constant S10000x64 .f32 0x00000000#32) j = _
  rw [shapeCast_self, Ideal.matmul_constant_zero_apply, ← Equiv.sum_comp (ValueIdx.contrEquiv1 (dd) 64 rfl rfl).symm]
  refine Finset.sum_congr rfl fun k _ => ?_
  have hk := ValueIdx.contrEquiv1_symm_val (dd) 64 rfl rfl k
  have el : (dd).lhsIdx j ((ValueIdx.contrEquiv1 (dd) 64 rfl rfl).symm k) = lrow j k := funext fun a => Fin.ext (by
    match a with
    | ⟨0, _⟩ => exact lhs0 _ _
    | ⟨1, _⟩ => exact (lhs1 _ _).trans hk)
  have er : (dd).rhsIdx j ((ValueIdx.contrEquiv1 (dd) 64 rfl rfl).symm k) = rcol j k := funext fun a => Fin.ext (by
    match a with
    | ⟨0, _⟩ => exact (rhs0 _ _).trans hk
    | ⟨1, _⟩ => exact rhs1 _ _)
  rw [el, er]
  rfl

/-- The printed index maps over the ten grid points: the feature block and the output block move together down
    the rows, point `t` holding rows 10000 t to 10000 t + 9999; the weights stay put. -/
theorem idx_facts : ∀ t : Fin cfg4.N, win4_0.index t (0 : Fin 2) = win4_3.index t (0 : Fin 2)
    ∧ win4_0.index t (1 : Fin 2) = 0
    ∧ win4_1.index t (0 : Fin 2) = 0
    ∧ win4_1.index t (1 : Fin 2) = 0
    ∧ win4_3.index t (1 : Fin 2) = 0
    ∧ win4_3.index t (0 : Fin 2) = t.val :=
  (by decide +kernel : ∀ t : Fin grid4.N, _)

/-- What point `t` writes back is block `t` of the whole-array product of the arrays the region finds. -/
theorem flushed_eq (c : Dev nD) (t : Fin cfg4.N) :
    (dat4 V c).flushed 3 t = ((cfg4.win 3).blk t).view.read (Elt Ideal) (dense (V c main_v75) (V c main_arg6)) := by
  show (cfg4.win 3).cut (grid4.coords t) ((dat4 V c).after 3 t) = _
  rw [after4_3]
  unfold out4_3
  rw [View.canon_unit_zero hz]
  simp only [View.ld_unit_zero (S := S10000x64) hz, View.ld_unit_zero (S := S64x64) hz]
  obtain ⟨e0, e1, e2, e3, e4, e5⟩ := idx_facts t
  funext j
  show k4_pay1 (F := Ideal) (iblk4 V c 0 t) (iblk4 V c 1 t) j = dense (V c main_v75) (V c main_arg6) (((cfg4.win 3).blk t).view.emb j)
  refine (pay_apply (iblk4 V c 0 t) (iblk4 V c 1 t) j).trans ?_
  refine Eq.trans ?_ (Cert.ReferenceIdeal.ReadP.val_main_v32_apply (V c main_v75) (V c main_arg6) (((cfg4.win 3).blk t).view.emb j)).symm
  refine Finset.sum_congr rfl fun k _ => ?_
  have h0 : iblk4 V c 0 t (lrow j k) = V c main_v75 (Cert.ReferenceIdeal.ReadP.lidx_main_v32 (((cfg4.win 3).blk t).view.emb j) k) := by
    show V c main_v75 (((cfg4.win 0).blk t).view.emb (lrow j k)) = _
    refine congrArg (V c main_v75) (funext fun a => Fin.ext ?_)
    match a with
    | ⟨0, _⟩ => show win4_0.index t (0 : Fin 2) * 10000 + 1 * (j 0).val = win4_3.index t (0 : Fin 2) * 10000 + 1 * (j 0).val; omega
    | ⟨1, _⟩ => show win4_0.index t (1 : Fin 2) * 64 + 1 * k.val = k.val; omega
  have h1 : iblk4 V c 1 t (rcol j k) = V c main_arg6 (Cert.ReferenceIdeal.ReadP.ridx_main_v32 (((cfg4.win 3).blk t).view.emb j) k) := by
    show V c main_arg6 (((cfg4.win 1).blk t).view.emb (rcol j k)) = _
    refine congrArg (V c main_arg6) (funext fun a => Fin.ext ?_)
    match a with
    | ⟨0, _⟩ => show win4_1.index t (0 : Fin 2) * 64 + 1 * k.val = k.val; omega
    | ⟨1, _⟩ => show win4_1.index t (1 : Fin 2) * 64 + 1 * (j 1).val = win4_3.index t (1 : Fin 2) * 64 + 1 * (j 1).val; omega
  rw [h0, h1]

/-- An index of the output array lies in point `t`'s block iff each coordinate is in the block's range. -/
theorem mem_blk (t : Fin cfg4.N) (i : S100000x64.Idx) :
    i ∈ ((cfg4.win 3).blk t).view.set ↔ ∀ a : Fin 2, win4_3.index t a * S10000x64.size a ≤ (i a).val ∧ (i a).val < win4_3.index t a * S10000x64.size a + S10000x64.size a := by
  show i ∈ ((View.whole main_v77).slice (win4_3.rect t)).set ↔ _
  rw [View.set_slice_whole, Rect.mem_set_unit]
  exact Iff.rfl

/-- Every point of the grid is some block's: rows 10000 t to 10000 t + 9999 belong to point t. -/
theorem point_of : ∀ q : Fin 10, ∃ t : Fin cfg4.N, win4_3.index t = ![q.val, 0] :=
  (by decide +kernel : ∀ q : Fin 10, ∃ t : Fin grid4.N, win4_3.index t = ![q.val, 0])

/-- The ten blocks tile the output array: row r is in the block of point r / 10000. -/
theorem cover (i : S100000x64.Idx) : ∃ t : Fin cfg4.N, (cfg4.win 3).flush t = true ∧ i ∈ ((cfg4.win 3).blk t).view.set := by
  have hi0 : (i 0).val < 100000 := (i 0).isLt
  have hi1 : (i 1).val < 64 := (i 1).isLt
  obtain ⟨t, ht⟩ := point_of ⟨(i 0).val / 10000, by omega⟩
  have q0 : win4_3.index t (0 : Fin 2) = (i 0).val / 10000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 10000 ≤ (i 0).val ∧ (i 0).val < win4_3.index t (0 : Fin 2) * 10000 + 10000; omega
  | ⟨1, _⟩ => show win4_3.index t (1 : Fin 2) * 64 ≤ (i 1).val ∧ (i 1).val < win4_3.index t (1 : Fin 2) * 64 + 64; omega

/-- After the region the output array is the whole-array product of the two arrays the region found. -/
theorem final (c : Dev nD) : (dat4 V c).arrAt 3 cfg4.N = dense (V c main_v75) (V c main_arg6) :=
  (dat4 V c).arrAt_eq_of_cover 3 (dense (V c main_v75) (V c main_arg6)) (fun t _ => flushed_eq V c t) cover

end Cert.KernelIdeal.Dense4

end
-- ==== Proof.BiasRelu5.lean ====
/-
  Region 5 of the kernel: the bias and the rectifier of graph layer 3. The pallas_call walks the 100000 rows of
  the aggregated features in ten blocks of 10000 rows; at each block the body adds the one bias row to every row
  of the block and takes the maximum with zero. Entry (r, q) of the output is max (a(r, q) + b(0, q), 0),
  whichever block holds row r; the ten blocks tile the rows, so this describes the whole output array.
-/
import proofs.«163823_j53824530153630_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.BiasRelu5

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The bias row's entry under column `j 1` of a block. -/
abbrev brow (j : S10000x64.Idx) : S1x64.Idx := fun a => match a with
  | ⟨0, _⟩ => ⟨0, Nat.one_pos⟩
  | ⟨1, _⟩ => ⟨(j 1).val, (j 1).isLt⟩
/-- The bias row's entry under column `i 1` of the whole array. -/
abbrev browA (i : S100000x64.Idx) : S1x64.Idx := fun a => match a with
  | ⟨0, _⟩ => ⟨0, Nat.one_pos⟩
  | ⟨1, _⟩ => ⟨(i 1).val, (i 1).isLt⟩

/-- The whole-array function: the bias row added to every row, then the maximum with zero. -/
def biasRelu (a : S100000x64.Idx → EReal) (b : S1x64.Idx → EReal) : S100000x64.Idx → EReal :=
  fun i => FloatOps.maximumf (F := Ideal) (FloatOps.addf (F := Ideal) (φ := .f32) (a i) (b (browA i))) (Scalar.ofBits (F := Ideal) .f32 0x00000000#32)

/-- The body's value at an entry of the block. -/
theorem pay_apply (x : Vec Ideal S10000x64 .f32) (b : Vec Ideal S1x64 .f32) (j : S10000x64.Idx) :
    k5_pay1 (F := Ideal) x b j
      = FloatOps.maximumf (F := Ideal) (FloatOps.addf (F := Ideal) (φ := .f32) (x j) (b (brow j))) (Scalar.ofBits (F := Ideal) .f32 0x00000000#32) := by
  show FloatOps.maximumf (F := Ideal) (FloatOps.addf (F := Ideal) (φ := .f32) (shapeCast S10000x64 x shapeCasts_S10000x64_S10000x64 j)
      (broadcastTo S10000x64 (shapeCast S1x64 (shapeCast S1x64 b shapeCasts_S1x64_S1x64) shapeCasts_S1x64_S1x64) broadcasts_S1x64_S10000x64 j)) _ = _
  rw [shapeCast_self, shapeCast_self, shapeCast_self,
    broadcastTo_apply b broadcasts_S1x64_S10000x64 j (brow j) (fun a => by
      match a with
      | ⟨0, _⟩ => rfl
      | ⟨1, _⟩ => rfl)]
  rfl

/-- The printed index maps over the ten grid points: the input block and the output block move together down
    the rows, point `t` holding rows 10000 t to 10000 t + 9999; the bias row stays put. -/
theorem idx_facts : ∀ t : Fin cfg5.N, win5_0.index t (0 : Fin 2) = win5_2.index t (0 : Fin 2)
    ∧ win5_0.index t (1 : Fin 2) = 0
    ∧ win5_1.index t (0 : Fin 2) = 0
    ∧ win5_1.index t (1 : Fin 2) = 0
    ∧ win5_2.index t (1 : Fin 2) = 0
    ∧ win5_2.index t (0 : Fin 2) = t.val :=
  (by decide +kernel : ∀ t : Fin grid5.N, _)

/-- What point `t` writes back is block `t` of the whole-array function of the arrays the region finds. -/
theorem flushed_eq (c : Dev nD) (t : Fin cfg5.N) :
    (dat5 V c).flushed 2 t = ((cfg5.win 2).blk t).view.read (Elt Ideal) (biasRelu (V c main_v95) (V c main_v96)) := by
  show (cfg5.win 2).cut (grid5.coords t) ((dat5 V c).after 2 t) = _
  rw [after5_2]
  unfold out5_2
  rw [View.canon_unit_zero hz]
  simp only [View.ld_unit_zero (S := S10000x64) hz, View.ld_unit_zero (S := S1x64) hz]
  obtain ⟨e0, e1, e2, e3, e4, e5⟩ := idx_facts t
  funext j
  show k5_pay1 (F := Ideal) (iblk5 V c 0 t) (iblk5 V c 1 t) j = biasRelu (V c main_v95) (V c main_v96) (((cfg5.win 2).blk t).view.emb j)
  refine (pay_apply (iblk5 V c 0 t) (iblk5 V c 1 t) j).trans ?_
  have h0 : iblk5 V c 0 t j = V c main_v95 (((cfg5.win 2).blk t).view.emb j) := by
    show V c main_v95 (((cfg5.win 0).blk t).view.emb j) = _
    refine congrArg (V c main_v95) (funext fun a => Fin.ext ?_)
    match a with
    | ⟨0, _⟩ => show win5_0.index t (0 : Fin 2) * 10000 + 1 * (j 0).val = win5_2.index t (0 : Fin 2) * 10000 + 1 * (j 0).val; omega
    | ⟨1, _⟩ => show win5_0.index t (1 : Fin 2) * 64 + 1 * (j 1).val = win5_2.index t (1 : Fin 2) * 64 + 1 * (j 1).val; omega
  have h1 : iblk5 V c 1 t (brow j) = V c main_v96 (browA (((cfg5.win 2).blk t).view.emb j)) := by
    show V c main_v96 (((cfg5.win 1).blk t).view.emb (brow j)) = _
    refine congrArg (V c main_v96) (funext fun a => Fin.ext ?_)
    match a with
    | ⟨0, _⟩ => show win5_1.index t (0 : Fin 2) * 1 + 1 * 0 = 0; omega
    | ⟨1, _⟩ => show win5_1.index t (1 : Fin 2) * 64 + 1 * (j 1).val = win5_2.index t (1 : Fin 2) * 64 + 1 * (j 1).val; omega
  rw [h0, h1]
  rfl

/-- An index of the output array lies in point `t`'s block iff each coordinate is in the block's range. -/
theorem mem_blk (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v97).slice (win5_2.rect t)).set ↔ _
  rw [View.set_slice_whole, Rect.mem_set_unit]
  exact Iff.rfl

/-- Every block of rows is some point's. -/
theorem point_of : ∀ q : Fin 10, ∃ t : Fin cfg5.N, win5_2.index t = ![q.val, 0] :=
  (by decide +kernel : ∀ q : Fin 10, ∃ t : Fin grid5.N, win5_2.index t = ![q.val, 0])

/-- The ten blocks tile the output array: row r is in the block of point r / 10000. -/
theorem cover (i : S100000x64.Idx) : ∃ t : Fin cfg5.N, (cfg5.win 2).flush t = true ∧ i ∈ ((cfg5.win 2).blk t).view.set := by
  have hi0 : (i 0).val < 100000 := (i 0).isLt
  have hi1 : (i 1).val < 64 := (i 1).isLt
  obtain ⟨t, ht⟩ := point_of ⟨(i 0).val / 10000, by omega⟩
  have q0 : win5_2.index t (0 : Fin 2) = (i 0).val / 10000 := congrFun ht 0
  have q1 : win5_2.index t (1 : Fin 2) = 0 := congrFun ht 1
  refine ⟨t, flush5_2 t, ?_⟩
  rw [mem_blk]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- After the region the output array is the whole-array function of the two arrays the region found. -/
theorem final (c : Dev nD) : (dat5 V c).arrAt 2 cfg5.N = biasRelu (V c main_v95) (V c main_v96) :=
  (dat5 V c).arrAt_eq_of_cover 2 (biasRelu (V c main_v95) (V c main_v96)) (fun t _ => flushed_eq V c t) cover

end Cert.KernelIdeal.BiasRelu5

end
-- ==== Proof.Dense2.lean ====
/-
  Region 2 of the kernel: the dense product of graph layer 2. The pallas_call walks the 100000 node rows in ten
  blocks of 10000 rows; at each block the body multiplies the 10000 x 64 block of the features by the whole
  64 x 64 weight matrix into a zero accumulator (the bf16 roundings on the way in are the identity on the
  extended reals). Row r of the output therefore depends on row r of the features and on the whole weight
  matrix only: entry (r, q) is the sum over k of x(r, k) * w(k, q), whichever block holds r. The ten blocks
  tile the rows, so the output array as a whole is the host's plain matrix product of the two arrays.
-/
import proofs.«163823_j53824530153630_1_alg».proof.Proof.Gen.KernelIdeal.Frame
import proofs.«163823_j53824530153630_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.Dense2

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The whole-array product: the host's matrix product of a [100000, 64] array with a [64, 64] array. -/
abbrev dense (x : Cert.ReferenceIdeal.S100000x64.Idx → EReal) (w : Cert.ReferenceIdeal.S64x64.Idx → EReal) :
    Cert.ReferenceIdeal.S100000x64.Idx → EReal :=
  Cert.ReferenceIdeal.ReadP.val_main_v32 (F := Ideal) x w

/-- Row `j 0`, column `k` of a block of rows. -/
abbrev lrow (j : S10000x64.Idx) (k : Fin 64) : S10000x64.Idx := fun a => match a with
  | ⟨0, _⟩ => ⟨(j 0).val, (j 0).isLt⟩
  | ⟨1, _⟩ => ⟨k.val, k.isLt⟩
/-- Row `k`, column `j 1` of the weights. -/
abbrev rcol (j : S10000x64.Idx) (k : Fin 64) : S64x64.Idx := fun a => match a with
  | ⟨0, _⟩ => ⟨k.val, k.isLt⟩
  | ⟨1, _⟩ => ⟨(j 1).val, (j 1).isLt⟩

local notation "dd" => dot_S10000x64_S64x64_S10000x64_1_0_0_1_n_n

theorem lhs0 (i : S10000x64.Idx) (q : (dd).contr.Idx) : ((dd).lhsIdx i q 0).val = (i 0).val := by
  unfold DotDims.lhsIdx
  rw [dif_neg (show ¬(0 : Fin S10000x64.rank) ∈ (dd).lhsBatch by decide), dif_pos (show (0 : Fin S10000x64.rank) ∈ (dd).lhsNonContracting by decide)]
  rfl
theorem lhs1 (i : S10000x64.Idx) (q : (dd).contr.Idx) : ((dd).lhsIdx i q 1).val = (q ⟨0, by decide⟩).val :=
  (dd).lhsIdx_val_of_single rfl i q
theorem rhs0 (i : S10000x64.Idx) (q : (dd).contr.Idx) : ((dd).rhsIdx i q 0).val = (q ⟨0, by decide⟩).val :=
  (dd).rhsIdx_val_of_single rfl i q
theorem rhs1 (i : S10000x64.Idx) (q : (dd).contr.Idx) : ((dd).rhsIdx i q 1).val = (i 1).val := by
  unfold DotDims.rhsIdx
  rw [dif_neg (show ¬(1 : Fin S64x64.rank) ∈ (dd).rhsBatch by decide), dif_pos (show (1 : Fin S64x64.rank) ∈ (dd).rhsNonContracting by decide)]
  rfl

/-- The body's value at an entry of the block: the row of the feature block against the column of the weights. -/
theorem pay_apply (x : Vec Ideal S10000x64 .f32) (w : Vec Ideal S64x64 .f32) (j : S10000x64.Idx) :
    k2_pay1 (F := Ideal) x w j = ∑ k : Fin 64, x (lrow j k) * w (rcol j k) := by
  show FloatOps.matmul (F := Ideal) (dd) none (truncf .bf16 (shapeCast S10000x64 x shapeCasts_S10000x64_S10000x64) bitsLt_bf16_f32) (truncf .bf16 w bitsLt_bf16_f32) (constant S10000x64 .f32 0x00000000#32) j = _
  rw [shapeCast_self, Ideal.matmul_constant_zero_apply, ← Equiv.sum_comp (ValueIdx.contrEquiv1 (dd) 64 rfl rfl).symm]
  refine Finset.sum_congr rfl fun k _ => ?_
  have hk := ValueIdx.contrEquiv1_symm_val (dd) 64 rfl rfl k
  have el : (dd).lhsIdx j ((ValueIdx.contrEquiv1 (dd) 64 rfl rfl).symm k) = lrow j k := funext fun a => Fin.ext (by
    match a with
    | ⟨0, _⟩ => exact lhs0 _ _
    | ⟨1, _⟩ => exact (lhs1 _ _).trans hk)
  have er : (dd).rhsIdx j ((ValueIdx.contrEquiv1 (dd) 64 rfl rfl).symm k) = rcol j k := funext fun a => Fin.ext (by
    match a with
    | ⟨0, _⟩ => exact (rhs0 _ _).trans hk
    | ⟨1, _⟩ => exact rhs1 _ _)
  rw [el, er]
  rfl

/-- The printed index maps over the ten grid points: the feature block and the output block move together down
    the rows, point `t` holding rows 10000 t to 10000 t + 9999; the weights stay put. -/
theorem idx_facts : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_3.index t (1 : Fin 2) = 0
    ∧ win2_3.index t (0 : Fin 2) = t.val :=
  (by decide +kernel : ∀ t : Fin grid2.N, _)

/-- What point `t` writes back is block `t` of the whole-array product of the arrays the region finds. -/
theorem flushed_eq (c : Dev nD) (t : Fin cfg2.N) :
    (dat2 V c).flushed 3 t = ((cfg2.win 3).blk t).view.read (Elt Ideal) (dense (V c main_v53) (V c main_arg4)) := by
  show (cfg2.win 3).cut (grid2.coords t) ((dat2 V c).after 3 t) = _
  rw [after2_3]
  unfold out2_3
  rw [View.canon_unit_zero hz]
  simp only [View.ld_unit_zero (S := S10000x64) hz, View.ld_unit_zero (S := S64x64) hz]
  obtain ⟨e0, e1, e2, e3, e4, e5⟩ := idx_facts t
  funext j
  show k2_pay1 (F := Ideal) (iblk2 V c 0 t) (iblk2 V c 1 t) j = dense (V c main_v53) (V c main_arg4) (((cfg2.win 3).blk t).view.emb j)
  refine (pay_apply (iblk2 V c 0 t) (iblk2 V c 1 t) j).trans ?_
  refine Eq.trans ?_ (Cert.ReferenceIdeal.ReadP.val_main_v32_apply (V c main_v53) (V c main_arg4) (((cfg2.win 3).blk t).view.emb j)).symm
  refine Finset.sum_congr rfl fun k _ => ?_
  have h0 : iblk2 V c 0 t (lrow j k) = V c main_v53 (Cert.ReferenceIdeal.ReadP.lidx_main_v32 (((cfg2.win 3).blk t).view.emb j) k) := by
    show V c main_v53 (((cfg2.win 0).blk t).view.emb (lrow j k)) = _
    refine congrArg (V c main_v53) (funext fun a => Fin.ext ?_)
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 64 + 1 * k.val = k.val; omega
  have h1 : iblk2 V c 1 t (rcol j k) = V c main_arg4 (Cert.ReferenceIdeal.ReadP.ridx_main_v32 (((cfg2.win 3).blk t).view.emb j) k) := by
    show V c main_arg4 (((cfg2.win 1).blk t).view.emb (rcol j k)) = _
    refine congrArg (V c main_arg4) (funext fun a => Fin.ext ?_)
    match a with
    | ⟨0, _⟩ => show win2_1.index t (0 : Fin 2) * 64 + 1 * k.val = k.val; omega
    | ⟨1, _⟩ => show win2_1.index t (1 : Fin 2) * 64 + 1 * (j 1).val = win2_3.index t (1 : Fin 2) * 64 + 1 * (j 1).val; omega
  rw [h0, h1]

/-- An index of the output array lies in point `t`'s block iff each coordinate is in the block's range. -/
theorem mem_blk (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v55).slice (win2_3.rect t)).set ↔ _
  rw [View.set_slice_whole, Rect.mem_set_unit]
  exact Iff.rfl

/-- Every point of the grid is some block's: rows 10000 t to 10000 t + 9999 belong to point t. -/
theorem point_of : ∀ q : Fin 10, ∃ t : Fin cfg2.N, win2_3.index t = ![q.val, 0] :=
  (by decide +kernel : ∀ q : Fin 10, ∃ t : Fin grid2.N, win2_3.index t = ![q.val, 0])

/-- The ten blocks tile the output array: row r is in the block of point r / 10000. -/
theorem cover (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, ht⟩ := point_of ⟨(i 0).val / 10000, by omega⟩
  have q0 : win2_3.index t (0 : Fin 2) = (i 0).val / 10000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 10000 ≤ (i 0).val ∧ (i 0).val < win2_3.index t (0 : Fin 2) * 10000 + 10000; omega
  | ⟨1, _⟩ => show win2_3.index t (1 : Fin 2) * 64 ≤ (i 1).val ∧ (i 1).val < win2_3.index t (1 : Fin 2) * 64 + 64; omega

/-- After the region the output array is the whole-array product of the two arrays the region found. -/
theorem final (c : Dev nD) : (dat2 V c).arrAt 3 cfg2.N = dense (V c main_v53) (V c main_arg4) :=
  (dat2 V c).arrAt_eq_of_cover 3 (dense (V c main_v53) (V c main_arg4)) (fun t _ => flushed_eq V c t) cover

end Cert.KernelIdeal.Dense2

end
-- ==== Proof.BiasRelu3.lean ====
/-
  Region 3 of the kernel: the bias and the rectifier of graph layer 2. The pallas_call walks the 100000 rows of
  the aggregated features in ten blocks of 10000 rows; at each block the body adds the one bias row to every row
  of the block and takes the maximum with zero. Entry (r, q) of the output is max (a(r, q) + b(0, q), 0),
  whichever block holds row r; the ten blocks tile the rows, so this describes the whole output array.
-/
import proofs.«163823_j53824530153630_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.BiasRelu3

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The bias row's entry under column `j 1` of a block. -/
abbrev brow (j : S10000x64.Idx) : S1x64.Idx := fun a => match a with
  | ⟨0, _⟩ => ⟨0, Nat.one_pos⟩
  | ⟨1, _⟩ => ⟨(j 1).val, (j 1).isLt⟩
/-- The bias row's entry under column `i 1` of the whole array. -/
abbrev browA (i : S100000x64.Idx) : S1x64.Idx := fun a => match a with
  | ⟨0, _⟩ => ⟨0, Nat.one_pos⟩
  | ⟨1, _⟩ => ⟨(i 1).val, (i 1).isLt⟩

/-- The whole-array function: the bias row added to every row, then the maximum with zero. -/
def biasRelu (a : S100000x64.Idx → EReal) (b : S1x64.Idx → EReal) : S100000x64.Idx → EReal :=
  fun i => FloatOps.maximumf (F := Ideal) (FloatOps.addf (F := Ideal) (φ := .f32) (a i) (b (browA i))) (Scalar.ofBits (F := Ideal) .f32 0x00000000#32)

/-- The body's value at an entry of the block. -/
theorem pay_apply (x : Vec Ideal S10000x64 .f32) (b : Vec Ideal S1x64 .f32) (j : S10000x64.Idx) :
    k3_pay1 (F := Ideal) x b j
      = FloatOps.maximumf (F := Ideal) (FloatOps.addf (F := Ideal) (φ := .f32) (x j) (b (brow j))) (Scalar.ofBits (F := Ideal) .f32 0x00000000#32) := by
  show FloatOps.maximumf (F := Ideal) (FloatOps.addf (F := Ideal) (φ := .f32) (shapeCast S10000x64 x shapeCasts_S10000x64_S10000x64 j)
      (broadcastTo S10000x64 (shapeCast S1x64 (shapeCast S1x64 b shapeCasts_S1x64_S1x64) shapeCasts_S1x64_S1x64) broadcasts_S1x64_S10000x64 j)) _ = _
  rw [shapeCast_self, shapeCast_self, shapeCast_self,
    broadcastTo_apply b broadcasts_S1x64_S10000x64 j (brow j) (fun a => by
      match a with
      | ⟨0, _⟩ => rfl
      | ⟨1, _⟩ => rfl)]
  rfl

/-- The printed index maps over the ten grid points: the input block and the output block move together down
    the rows, point `t` holding rows 10000 t to 10000 t + 9999; the bias row stays put. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) = t.val :=
  (by decide +kernel : ∀ t : Fin grid3.N, _)

/-- What point `t` writes back is block `t` of the whole-array function of the arrays the region finds. -/
theorem flushed_eq (c : Dev nD) (t : Fin cfg3.N) :
    (dat3 V c).flushed 2 t = ((cfg3.win 2).blk t).view.read (Elt Ideal) (biasRelu (V c main_v73) (V c main_v74)) := by
  show (cfg3.win 2).cut (grid3.coords t) ((dat3 V c).after 2 t) = _
  rw [after3_2]
  unfold out3_2
  rw [View.canon_unit_zero hz]
  simp only [View.ld_unit_zero (S := S10000x64) hz, View.ld_unit_zero (S := S1x64) hz]
  obtain ⟨e0, e1, e2, e3, e4, e5⟩ := idx_facts t
  funext j
  show k3_pay1 (F := Ideal) (iblk3 V c 0 t) (iblk3 V c 1 t) j = biasRelu (V c main_v73) (V c main_v74) (((cfg3.win 2).blk t).view.emb j)
  refine (pay_apply (iblk3 V c 0 t) (iblk3 V c 1 t) j).trans ?_
  have h0 : iblk3 V c 0 t j = V c main_v73 (((cfg3.win 2).blk t).view.emb j) := by
    show V c main_v73 (((cfg3.win 0).blk t).view.emb j) = _
    refine congrArg (V c main_v73) (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  have h1 : iblk3 V c 1 t (brow j) = V c main_v74 (browA (((cfg3.win 2).blk t).view.emb j)) := by
    show V c main_v74 (((cfg3.win 1).blk t).view.emb (brow j)) = _
    refine congrArg (V c main_v74) (funext fun a => Fin.ext ?_)
    match a with
    | ⟨0, _⟩ => show win3_1.index t (0 : Fin 2) * 1 + 1 * 0 = 0; omega
    | ⟨1, _⟩ => show win3_1.index t (1 : Fin 2) * 64 + 1 * (j 1).val = win3_2.index t (1 : Fin 2) * 64 + 1 * (j 1).val; omega
  rw [h0, h1]
  rfl

/-- An index of the output array lies in point `t`'s block iff each coordinate is in the block's range. -/
theorem mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v75).slice (win3_2.rect t)).set ↔ _
  rw [View.set_slice_whole, Rect.mem_set_unit]
  exact Iff.rfl

/-- Every block of rows is some point's. -/
theorem point_of : ∀ q : Fin 10, ∃ t : Fin cfg3.N, win3_2.index t = ![q.val, 0] :=
  (by decide +kernel : ∀ q : Fin 10, ∃ t : Fin grid3.N, win3_2.index t = ![q.val, 0])

/-- The ten blocks tile the output array: row r is in the block of point r / 10000. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := point_of ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- After the region the output array is the whole-array function of the two arrays the region found. -/
theorem final (c : Dev nD) : (dat3 V c).arrAt 2 cfg3.N = biasRelu (V c main_v73) (V c main_v74) :=
  (dat3 V c).arrAt_eq_of_cover 2 (biasRelu (V c main_v73) (V c main_v74)) (fun t _ => flushed_eq V c t) cover

end Cert.KernelIdeal.BiasRelu3

end
-- ==== Proof.Dense0.lean ====
/-
  Region 0 of the kernel: the first layer's dense product. The pallas_call walks the 100000 node rows in ten
  blocks of 10000 rows; at each block the body multiplies the 10000 x 64 block of the features by the whole
  64 x 64 weight matrix into a zero accumulator (the bf16 roundings on the way in are the identity on the
  extended reals). Row r of the output therefore depends on row r of the features and on the whole weight
  matrix only: entry (r, q) is the sum over k of x(r, k) * w(k, q), whichever block holds r. The ten blocks
  tile the rows, so the output array as a whole is the host's plain matrix product of the two arrays.
-/
import proofs.«163823_j53824530153630_1_alg».proof.Proof.Gen.KernelIdeal.Frame
import proofs.«163823_j53824530153630_1_alg».proof.Proof.RefRead
import Idealize.ShloMosaic.Lib.Pipeline.Value
import Idealize.ShloMosaic.Lib.ValueIdx
import Idealize.ShloMosaic.PureOps.Ideal.Laws

set_option maxRecDepth 16384

noncomputable section

namespace Cert.KernelIdeal.Dense0

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The whole-array product: the host's matrix product of a [100000, 64] array with a [64, 64] array. -/
abbrev dense (x : Cert.ReferenceIdeal.S100000x64.Idx → EReal) (w : Cert.ReferenceIdeal.S64x64.Idx → EReal) :
    Cert.ReferenceIdeal.S100000x64.Idx → EReal :=
  Cert.ReferenceIdeal.ReadP.val_main_v32 (F := Ideal) x w

/-- Row `j 0`, column `k` of a block of rows. -/
abbrev lrow (j : S10000x64.Idx) (k : Fin 64) : S10000x64.Idx := fun a => match a with
  | ⟨0, _⟩ => ⟨(j 0).val, (j 0).isLt⟩
  | ⟨1, _⟩ => ⟨k.val, k.isLt⟩
/-- Row `k`, column `j 1` of the weights. -/
abbrev rcol (j : S10000x64.Idx) (k : Fin 64) : S64x64.Idx := fun a => match a with
  | ⟨0, _⟩ => ⟨k.val, k.isLt⟩
  | ⟨1, _⟩ => ⟨(j 1).val, (j 1).isLt⟩

local notation "dd" => dot_S10000x64_S64x64_S10000x64_1_0_0_1_n_n

theorem lhs0 (i : S10000x64.Idx) (q : (dd).contr.Idx) : ((dd).lhsIdx i q 0).val = (i 0).val := by
  unfold DotDims.lhsIdx
  rw [dif_neg (show ¬(0 : Fin S10000x64.rank) ∈ (dd).lhsBatch by decide), dif_pos (show (0 : Fin S10000x64.rank) ∈ (dd).lhsNonContracting by decide)]
  rfl
theorem lhs1 (i : S10000x64.Idx) (q : (dd).contr.Idx) : ((dd).lhsIdx i q 1).val = (q ⟨0, by decide⟩).val :=
  (dd).lhsIdx_val_of_single rfl i q
theorem rhs0 (i : S10000x64.Idx) (q : (dd).contr.Idx) : ((dd).rhsIdx i q 0).val = (q ⟨0, by decide⟩).val :=
  (dd).rhsIdx_val_of_single rfl i q
theorem rhs1 (i : S10000x64.Idx) (q : (dd).contr.Idx) : ((dd).rhsIdx i q 1).val = (i 1).val := by
  unfold DotDims.rhsIdx
  rw [dif_neg (show ¬(1 : Fin S64x64.rank) ∈ (dd).rhsBatch by decide), dif_pos (show (1 : Fin S64x64.rank) ∈ (dd).rhsNonContracting by decide)]
  rfl

/-- The body's value at an entry of the block: the row of the feature block against the column of the weights. -/
theorem pay_apply (x : Vec Ideal S10000x64 .f32) (w : Vec Ideal S64x64 .f32) (j : S10000x64.Idx) :
    k0_pay1 (F := Ideal) x w j = ∑ k : Fin 64, x (lrow j k) * w (rcol j k) := by
  show FloatOps.matmul (F := Ideal) (dd) none (truncf .bf16 x bitsLt_bf16_f32) (truncf .bf16 w bitsLt_bf16_f32) (constant S10000x64 .f32 0x00000000#32) j = _
  rw [Ideal.matmul_constant_zero_apply, ← Equiv.sum_comp (ValueIdx.contrEquiv1 (dd) 64 rfl rfl).symm]
  refine Finset.sum_congr rfl fun k _ => ?_
  have hk := ValueIdx.contrEquiv1_symm_val (dd) 64 rfl rfl k
  have el : (dd).lhsIdx j ((ValueIdx.contrEquiv1 (dd) 64 rfl rfl).symm k) = lrow j k := funext fun a => Fin.ext (by
    match a with
    | ⟨0, _⟩ => exact lhs0 _ _
    | ⟨1, _⟩ => exact (lhs1 _ _).trans hk)
  have er : (dd).rhsIdx j ((ValueIdx.contrEquiv1 (dd) 64 rfl rfl).symm k) = rcol j k := funext fun a => Fin.ext (by
    match a with
    | ⟨0, _⟩ => exact (rhs0 _ _).trans hk
    | ⟨1, _⟩ => exact rhs1 _ _)
  rw [el, er]
  rfl

/-- The printed index maps over the ten grid points: the feature block and the output block move together down
    the rows, point `t` holding rows 10000 t to 10000 t + 9999; the weights stay put. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_3.index t (1 : Fin 2) = 0
    ∧ win0_3.index t (0 : Fin 2) = t.val :=
  (by decide +kernel : ∀ t : Fin grid0.N, _)

/-- What point `t` writes back is block `t` of the whole-array product of the arrays the region finds. -/
theorem flushed_eq (c : Dev nD) (t : Fin cfg0.N) :
    (dat0 V c).flushed 3 t = ((cfg0.win 3).blk t).view.read (Elt Ideal) (dense (V c main_arg0) (V c main_arg2)) := by
  show (cfg0.win 3).cut (grid0.coords t) ((dat0 V c).after 3 t) = _
  rw [after0_3]
  unfold out0_3
  rw [View.canon_unit_zero hz]
  simp only [View.ld_unit_zero (S := S10000x64) hz, View.ld_unit_zero (S := S64x64) hz]
  obtain ⟨e0, e1, e2, e3, e4, e5⟩ := idx_facts t
  funext j
  show k0_pay1 (F := Ideal) (iblk0 V c 0 t) (iblk0 V c 1 t) j = dense (V c main_arg0) (V c main_arg2) (((cfg0.win 3).blk t).view.emb j)
  refine (pay_apply (iblk0 V c 0 t) (iblk0 V c 1 t) j).trans ?_
  refine Eq.trans ?_ (Cert.ReferenceIdeal.ReadP.val_main_v32_apply (V c main_arg0) (V c main_arg2) (((cfg0.win 3).blk t).view.emb j)).symm
  refine Finset.sum_congr rfl fun k _ => ?_
  have h0 : iblk0 V c 0 t (lrow j k) = V c main_arg0 (Cert.ReferenceIdeal.ReadP.lidx_main_v32 (((cfg0.win 3).blk t).view.emb j) k) := by
    show V c main_arg0 (((cfg0.win 0).blk t).view.emb (lrow j k)) = _
    refine congrArg (V c main_arg0) (funext fun a => Fin.ext ?_)
    match a with
    | ⟨0, _⟩ => show win0_0.index t (0 : Fin 2) * 10000 + 1 * (j 0).val = win0_3.index t (0 : Fin 2) * 10000 + 1 * (j 0).val; omega
    | ⟨1, _⟩ => show win0_0.index t (1 : Fin 2) * 64 + 1 * k.val = k.val; omega
  have h1 : iblk0 V c 1 t (rcol j k) = V c main_arg2 (Cert.ReferenceIdeal.ReadP.ridx_main_v32 (((cfg0.win 3).blk t).view.emb j) k) := by
    show V c main_arg2 (((cfg0.win 1).blk t).view.emb (rcol j k)) = _
    refine congrArg (V c main_arg2) (funext fun a => Fin.ext ?_)
    match a with
    | ⟨0, _⟩ => show win0_1.index t (0 : Fin 2) * 64 + 1 * k.val = k.val; omega
    | ⟨1, _⟩ => show win0_1.index t (1 : Fin 2) * 64 + 1 * (j 1).val = win0_3.index t (1 : Fin 2) * 64 + 1 * (j 1).val; omega
  rw [h0, h1]

/-- An index of the output array lies in point `t`'s block iff each coordinate is in the block's range. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v33).slice (win0_3.rect t)).set ↔ _
  rw [View.set_slice_whole, Rect.mem_set_unit]
  exact Iff.rfl

/-- Every point of the grid is some block's: rows 10000 t to 10000 t + 9999 belong to point t. -/
theorem point_of : ∀ q : Fin 10, ∃ t : Fin cfg0.N, win0_3.index t = ![q.val, 0] :=
  (by decide +kernel : ∀ q : Fin 10, ∃ t : Fin grid0.N, win0_3.index t = ![q.val, 0])

/-- The ten blocks tile the output array: row r is in the block of point r / 10000. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := point_of ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- After the region the output array is the whole-array product of the two arrays the region found. -/
theorem final (c : Dev nD) : (dat0 V c).arrAt 3 cfg0.N = dense (V c main_arg0) (V c main_arg2) :=
  (dat0 V c).arrAt_eq_of_cover 3 (dense (V c main_arg0) (V c main_arg2)) (fun t _ => flushed_eq V c t) cover

end Cert.KernelIdeal.Dense0

end
-- ==== Proof.KChain1.lean ====
/-
  The idealized kernel's buffer contents, boundary by boundary, up to the end of graph layer 1. The contents at the
  seventeen segment boundaries are a fold from the launch memory; here each buffer that a later segment reads is
  followed through the first four boundaries: an argument stays what it was at launch (no host operation and no
  pallas_call writes one), the edge lists with self-loops and the per-edge normalization are the reference's own
  terms of the edge argument (the same host operations compute them), the first pallas_call leaves the plain
  matrix product x W1, the host stretch after it gathers, scales and scatter-adds exactly as the reference does,
  and the second pallas_call adds the bias row and rectifies. So the layer's output is the reference's.
-/
import proofs.«163823_j53824530153630_1_alg».proof.Proof.Gen.KernelIdeal.Frame
import proofs.«163823_j53824530153630_1_alg».proof.Proof.RefRead
import proofs.«163823_j53824530153630_1_alg».proof.Proof.Dense0
import proofs.«163823_j53824530153630_1_alg».proof.Proof.BiasRelu1
import proofs.«163823_j53824530153630_1_alg».proof.Proof.Bridge
import Idealize.ShloMosaic.Lib.StableHlo.Run
import Idealize.ShloMosaic.PureOps.Ideal.Laws

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.ReadP (val_main_v3 val_main_v6 val_main_v31 val_main_v32 val_main_v50 val_main_v54 val_main_v55 val_main_v73 val_main_v77 val_main_v78 val_main_v96 val_main_v100 val_main_v101 val_main_v105 val_main_v106 val_main_v109 val_main_v110)

variable (m : (ℓ : Loc nD τ sig) → Buf (Elt Ideal) ℓ) (ρ : Dev nD → PrngReg) (c : Dev nD)

/-- The twelve arguments' launch contents, typed as arrays. -/
abbrev a0 : (⟨Cert.ReferenceIdeal.S100000x64, .f32⟩ : BufTy).Contents (Elt Ideal) := m ((c : Thread nD τ).loc main_arg0)
abbrev a1 : (⟨Cert.ReferenceIdeal.S2x1600000, .i32⟩ : BufTy).Contents (Elt Ideal) := m ((c : Thread nD τ).loc main_arg1)
abbrev a2 : (⟨Cert.ReferenceIdeal.S64x64, .f32⟩ : BufTy).Contents (Elt Ideal) := m ((c : Thread nD τ).loc main_arg2)
abbrev a3 : (⟨Cert.ReferenceIdeal.S64, .f32⟩ : BufTy).Contents (Elt Ideal) := m ((c : Thread nD τ).loc main_arg3)
abbrev a4 : (⟨Cert.ReferenceIdeal.S64x64, .f32⟩ : BufTy).Contents (Elt Ideal) := m ((c : Thread nD τ).loc main_arg4)
abbrev a5 : (⟨Cert.ReferenceIdeal.S64, .f32⟩ : BufTy).Contents (Elt Ideal) := m ((c : Thread nD τ).loc main_arg5)
abbrev a6 : (⟨Cert.ReferenceIdeal.S64x64, .f32⟩ : BufTy).Contents (Elt Ideal) := m ((c : Thread nD τ).loc main_arg6)
abbrev a7 : (⟨Cert.ReferenceIdeal.S64, .f32⟩ : BufTy).Contents (Elt Ideal) := m ((c : Thread nD τ).loc main_arg7)
abbrev a8 : (⟨Cert.ReferenceIdeal.S64x64, .f32⟩ : BufTy).Contents (Elt Ideal) := m ((c : Thread nD τ).loc main_arg8)
abbrev a9 : (⟨Cert.ReferenceIdeal.S64, .f32⟩ : BufTy).Contents (Elt Ideal) := m ((c : Thread nD τ).loc main_arg9)
abbrev a10 : (⟨Cert.ReferenceIdeal.S64x10, .f32⟩ : BufTy).Contents (Elt Ideal) := m ((c : Thread nD τ).loc main_arg10)
abbrev a11 : (⟨Cert.ReferenceIdeal.S10, .f32⟩ : BufTy).Contents (Elt Ideal) := m ((c : Thread nD τ).loc main_arg11)

/-! ## At launch -/
theorem w0_main_arg0 : W0 m ρ c (Proc.devRef .tc main_arg0) = a0 m c := rfl
theorem w0_main_arg1 : W0 m ρ c (Proc.devRef .tc main_arg1) = a1 m c := rfl
theorem w0_main_arg2 : W0 m ρ c (Proc.devRef .tc main_arg2) = a2 m c := rfl
theorem w0_main_arg3 : W0 m ρ c (Proc.devRef .tc main_arg3) = a3 m c := rfl
theorem w0_main_arg4 : W0 m ρ c (Proc.devRef .tc main_arg4) = a4 m c := rfl
theorem w0_main_arg5 : W0 m ρ c (Proc.devRef .tc main_arg5) = a5 m c := rfl
theorem w0_main_arg6 : W0 m ρ c (Proc.devRef .tc main_arg6) = a6 m c := rfl
theorem w0_main_arg7 : W0 m ρ c (Proc.devRef .tc main_arg7) = a7 m c := rfl
theorem w0_main_arg8 : W0 m ρ c (Proc.devRef .tc main_arg8) = a8 m c := rfl
theorem w0_main_arg9 : W0 m ρ c (Proc.devRef .tc main_arg9) = a9 m c := rfl
theorem w0_main_arg10 : W0 m ρ c (Proc.devRef .tc main_arg10) = a10 m c := rfl
theorem w0_main_arg11 : W0 m ρ c (Proc.devRef .tc main_arg11) = a11 m c := rfl

/-! ## Host stretch 0: the edge lists, the degrees, the normalization -/
theorem keep0_main_arg0 (V : Valuation τ sig (Elt Ideal)) : StableHlo.after hostOps0 V (Proc.devRef .tc main_arg0) = V (Proc.devRef .tc main_arg0) := by after_results_simp
theorem keep0_main_arg2 (V : Valuation τ sig (Elt Ideal)) : StableHlo.after hostOps0 V (Proc.devRef .tc main_arg2) = V (Proc.devRef .tc main_arg2) := by after_results_simp
theorem keep0_main_arg3 (V : Valuation τ sig (Elt Ideal)) : StableHlo.after hostOps0 V (Proc.devRef .tc main_arg3) = V (Proc.devRef .tc main_arg3) := by after_results_simp
theorem keep0_main_arg4 (V : Valuation τ sig (Elt Ideal)) : StableHlo.after hostOps0 V (Proc.devRef .tc main_arg4) = V (Proc.devRef .tc main_arg4) := by after_results_simp
theorem keep0_main_arg5 (V : Valuation τ sig (Elt Ideal)) : StableHlo.after hostOps0 V (Proc.devRef .tc main_arg5) = V (Proc.devRef .tc main_arg5) := by after_results_simp
theorem keep0_main_arg6 (V : Valuation τ sig (Elt Ideal)) : StableHlo.after hostOps0 V (Proc.devRef .tc main_arg6) = V (Proc.devRef .tc main_arg6) := by after_results_simp
theorem keep0_main_arg7 (V : Valuation τ sig (Elt Ideal)) : StableHlo.after hostOps0 V (Proc.devRef .tc main_arg7) = V (Proc.devRef .tc main_arg7) := by after_results_simp
theorem keep0_main_arg8 (V : Valuation τ sig (Elt Ideal)) : StableHlo.after hostOps0 V (Proc.devRef .tc main_arg8) = V (Proc.devRef .tc main_arg8) := by after_results_simp
theorem keep0_main_arg9 (V : Valuation τ sig (Elt Ideal)) : StableHlo.after hostOps0 V (Proc.devRef .tc main_arg9) = V (Proc.devRef .tc main_arg9) := by after_results_simp
theorem keep0_main_arg10 (V : Valuation τ sig (Elt Ideal)) : StableHlo.after hostOps0 V (Proc.devRef .tc main_arg10) = V (Proc.devRef .tc main_arg10) := by after_results_simp
theorem keep0_main_arg11 (V : Valuation τ sig (Elt Ideal)) : StableHlo.after hostOps0 V (Proc.devRef .tc main_arg11) = V (Proc.devRef .tc main_arg11) := by after_results_simp
theorem w1_main_arg0 : W1 m ρ c (Proc.devRef .tc main_arg0) = a0 m c := (keep0_main_arg0 (W0 m ρ c)).trans (w0_main_arg0 m ρ c)
theorem w1_main_arg2 : W1 m ρ c (Proc.devRef .tc main_arg2) = a2 m c := (keep0_main_arg2 (W0 m ρ c)).trans (w0_main_arg2 m ρ c)
theorem w1_main_arg3 : W1 m ρ c (Proc.devRef .tc main_arg3) = a3 m c := (keep0_main_arg3 (W0 m ρ c)).trans (w0_main_arg3 m ρ c)
theorem w1_main_arg4 : W1 m ρ c (Proc.devRef .tc main_arg4) = a4 m c := (keep0_main_arg4 (W0 m ρ c)).trans (w0_main_arg4 m ρ c)
theorem w1_main_arg5 : W1 m ρ c (Proc.devRef .tc main_arg5) = a5 m c := (keep0_main_arg5 (W0 m ρ c)).trans (w0_main_arg5 m ρ c)
theorem w1_main_arg6 : W1 m ρ c (Proc.devRef .tc main_arg6) = a6 m c := (keep0_main_arg6 (W0 m ρ c)).trans (w0_main_arg6 m ρ c)
theorem w1_main_arg7 : W1 m ρ c (Proc.devRef .tc main_arg7) = a7 m c := (keep0_main_arg7 (W0 m ρ c)).trans (w0_main_arg7 m ρ c)
theorem w1_main_arg8 : W1 m ρ c (Proc.devRef .tc main_arg8) = a8 m c := (keep0_main_arg8 (W0 m ρ c)).trans (w0_main_arg8 m ρ c)
theorem w1_main_arg9 : W1 m ρ c (Proc.devRef .tc main_arg9) = a9 m c := (keep0_main_arg9 (W0 m ρ c)).trans (w0_main_arg9 m ρ c)
theorem w1_main_arg10 : W1 m ρ c (Proc.devRef .tc main_arg10) = a10 m c := (keep0_main_arg10 (W0 m ρ c)).trans (w0_main_arg10 m ρ c)
theorem w1_main_arg11 : W1 m ρ c (Proc.devRef .tc main_arg11) = a11 m c := (keep0_main_arg11 (W0 m ρ c)).trans (w0_main_arg11 m ρ c)

/-- The sources with the self-loops appended are the reference's term of the edge argument. -/
theorem host0_v3 (V : Valuation τ sig (Elt Ideal)) : StableHlo.after hostOps0 V (Proc.devRef .tc main_v3) = val_main_v3 (F := Ideal) (V (Proc.devRef .tc main_arg1)) := by
  after_results_simp
  rfl
/-- So are the targets, -/
theorem host0_v6 (V : Valuation τ sig (Elt Ideal)) : StableHlo.after hostOps0 V (Proc.devRef .tc main_v6) = val_main_v6 (F := Ideal) (V (Proc.devRef .tc main_arg1)) := by
  after_results_simp
  rfl
/-- and the per-edge normalization: the product of the inverse square roots of the two end points' degrees. -/
theorem host0_v31 (V : Valuation τ sig (Elt Ideal)) : StableHlo.after hostOps0 V (Proc.devRef .tc main_v31) = val_main_v31 (F := Ideal) (V (Proc.devRef .tc main_arg1)) := by
  after_results_simp
  rfl
theorem w1_main_v3 : W1 m ρ c (Proc.devRef .tc main_v3) = val_main_v3 (F := Ideal) (a1 m c) := host0_v3 (W0 m ρ c)
theorem w1_main_v6 : W1 m ρ c (Proc.devRef .tc main_v6) = val_main_v6 (F := Ideal) (a1 m c) := host0_v6 (W0 m ρ c)
theorem w1_main_v31 : W1 m ρ c (Proc.devRef .tc main_v31) = val_main_v31 (F := Ideal) (a1 m c) := host0_v31 (W0 m ρ c)

/-! ## Region 0: x W1 -/
theorem w2_main_arg3 : W2 m ρ c (Proc.devRef .tc main_arg3) = a3 m c := (W2_of_ne m ρ c main_arg3 (by decide)).trans (w1_main_arg3 m ρ c)
theorem w2_main_arg4 : W2 m ρ c (Proc.devRef .tc main_arg4) = a4 m c := (W2_of_ne m ρ c main_arg4 (by decide)).trans (w1_main_arg4 m ρ c)
theorem w2_main_arg5 : W2 m ρ c (Proc.devRef .tc main_arg5) = a5 m c := (W2_of_ne m ρ c main_arg5 (by decide)).trans (w1_main_arg5 m ρ c)
theorem w2_main_arg6 : W2 m ρ c (Proc.devRef .tc main_arg6) = a6 m c := (W2_of_ne m ρ c main_arg6 (by decide)).trans (w1_main_arg6 m ρ c)
theorem w2_main_arg7 : W2 m ρ c (Proc.devRef .tc main_arg7) = a7 m c := (W2_of_ne m ρ c main_arg7 (by decide)).trans (w1_main_arg7 m ρ c)
theorem w2_main_arg8 : W2 m ρ c (Proc.devRef .tc main_arg8) = a8 m c := (W2_of_ne m ρ c main_arg8 (by decide)).trans (w1_main_arg8 m ρ c)
theorem w2_main_arg9 : W2 m ρ c (Proc.devRef .tc main_arg9) = a9 m c := (W2_of_ne m ρ c main_arg9 (by decide)).trans (w1_main_arg9 m ρ c)
theorem w2_main_arg10 : W2 m ρ c (Proc.devRef .tc main_arg10) = a10 m c := (W2_of_ne m ρ c main_arg10 (by decide)).trans (w1_main_arg10 m ρ c)
theorem w2_main_arg11 : W2 m ρ c (Proc.devRef .tc main_arg11) = a11 m c := (W2_of_ne m ρ c main_arg11 (by decide)).trans (w1_main_arg11 m ρ c)
theorem w2_main_v3 : W2 m ρ c (Proc.devRef .tc main_v3) = val_main_v3 (F := Ideal) (a1 m c) := (W2_of_ne m ρ c main_v3 (by decide)).trans (w1_main_v3 m ρ c)
theorem w2_main_v6 : W2 m ρ c (Proc.devRef .tc main_v6) = val_main_v6 (F := Ideal) (a1 m c) := (W2_of_ne m ρ c main_v6 (by decide)).trans (w1_main_v6 m ρ c)
theorem w2_main_v31 : W2 m ρ c (Proc.devRef .tc main_v31) = val_main_v31 (F := Ideal) (a1 m c) := (W2_of_ne m ρ c main_v31 (by decide)).trans (w1_main_v31 m ρ c)
theorem w2_main_v33 : W2 m ρ c (Proc.devRef .tc main_v33) = val_main_v32 (F := Ideal) (a0 m c) (a2 m c) :=
  (W2_arr m ρ c 3).trans ((Dense0.final (V1 m ρ) c).trans (by
    show Dense0.dense (W1 m ρ c (Proc.devRef .tc main_arg0)) (W1 m ρ c (Proc.devRef .tc main_arg2)) = _
    rw [w1_main_arg0 m ρ c, w1_main_arg2 m ρ c]))

/-! ## Host stretch 1: gather along the sources, scale, scatter-add at the targets; the bias row -/
theorem keep1_main_arg4 (V : Valuation τ sig (Elt Ideal)) : StableHlo.after hostOps1 V (Proc.devRef .tc main_arg4) = V (Proc.devRef .tc main_arg4) := by after_results_simp
theorem keep1_main_arg5 (V : Valuation τ sig (Elt Ideal)) : StableHlo.after hostOps1 V (Proc.devRef .tc main_arg5) = V (Proc.devRef .tc main_arg5) := by after_results_simp
theorem keep1_main_arg6 (V : Valuation τ sig (Elt Ideal)) : StableHlo.after hostOps1 V (Proc.devRef .tc main_arg6) = V (Proc.devRef .tc main_arg6) := by after_results_simp
theorem keep1_main_arg7 (V : Valuation τ sig (Elt Ideal)) : StableHlo.after hostOps1 V (Proc.devRef .tc main_arg7) = V (Proc.devRef .tc main_arg7) := by after_results_simp
theorem keep1_main_arg8 (V : Valuation τ sig (Elt Ideal)) : StableHlo.after hostOps1 V (Proc.devRef .tc main_arg8) = V (Proc.devRef .tc main_arg8) := by after_results_simp
theorem keep1_main_arg9 (V : Valuation τ sig (Elt Ideal)) : StableHlo.after hostOps1 V (Proc.devRef .tc main_arg9) = V (Proc.devRef .tc main_arg9) := by after_results_simp
theorem keep1_main_arg10 (V : Valuation τ sig (Elt Ideal)) : StableHlo.after hostOps1 V (Proc.devRef .tc main_arg10) = V (Proc.devRef .tc main_arg10) := by after_results_simp
theorem keep1_main_arg11 (V : Valuation τ sig (Elt Ideal)) : StableHlo.after hostOps1 V (Proc.devRef .tc main_arg11) = V (Proc.devRef .tc main_arg11) := by after_results_simp
theorem keep1_main_v3 (V : Valuation τ sig (Elt Ideal)) : StableHlo.after hostOps1 V (Proc.devRef .tc main_v3) = V (Proc.devRef .tc main_v3) := by after_results_simp
theorem keep1_main_v6 (V : Valuation τ sig (Elt Ideal)) : StableHlo.after hostOps1 V (Proc.devRef .tc main_v6) = V (Proc.devRef .tc main_v6) := by after_results_simp
theorem keep1_main_v31 (V : Valuation τ sig (Elt Ideal)) : StableHlo.after hostOps1 V (Proc.devRef .tc main_v31) = V (Proc.devRef .tc main_v31) := by after_results_simp
theorem w3_main_arg4 : W3 m ρ c (Proc.devRef .tc main_arg4) = a4 m c := (keep1_main_arg4 (W2 m ρ c)).trans (w2_main_arg4 m ρ c)
theorem w3_main_arg5 : W3 m ρ c (Proc.devRef .tc main_arg5) = a5 m c := (keep1_main_arg5 (W2 m ρ c)).trans (w2_main_arg5 m ρ c)
theorem w3_main_arg6 : W3 m ρ c (Proc.devRef .tc main_arg6) = a6 m c := (keep1_main_arg6 (W2 m ρ c)).trans (w2_main_arg6 m ρ c)
theorem w3_main_arg7 : W3 m ρ c (Proc.devRef .tc main_arg7) = a7 m c := (keep1_main_arg7 (W2 m ρ c)).trans (w2_main_arg7 m ρ c)
theorem w3_main_arg8 : W3 m ρ c (Proc.devRef .tc main_arg8) = a8 m c := (keep1_main_arg8 (W2 m ρ c)).trans (w2_main_arg8 m ρ c)
theorem w3_main_arg9 : W3 m ρ c (Proc.devRef .tc main_arg9) = a9 m c := (keep1_main_arg9 (W2 m ρ c)).trans (w2_main_arg9 m ρ c)
theorem w3_main_arg10 : W3 m ρ c (Proc.devRef .tc main_arg10) = a10 m c := (keep1_main_arg10 (W2 m ρ c)).trans (w2_main_arg10 m ρ c)
theorem w3_main_arg11 : W3 m ρ c (Proc.devRef .tc main_arg11) = a11 m c := (keep1_main_arg11 (W2 m ρ c)).trans (w2_main_arg11 m ρ c)
theorem w3_main_v3 : W3 m ρ c (Proc.devRef .tc main_v3) = val_main_v3 (F := Ideal) (a1 m c) := (keep1_main_v3 (W2 m ρ c)).trans (w2_main_v3 m ρ c)
theorem w3_main_v6 : W3 m ρ c (Proc.devRef .tc main_v6) = val_main_v6 (F := Ideal) (a1 m c) := (keep1_main_v6 (W2 m ρ c)).trans (w2_main_v6 m ρ c)
theorem w3_main_v31 : W3 m ρ c (Proc.devRef .tc main_v31) = val_main_v31 (F := Ideal) (a1 m c) := (keep1_main_v31 (W2 m ρ c)).trans (w2_main_v31 m ρ c)
/-- The aggregation of layer 1 is the reference's, given the reference's product, edge lists and normalization. -/
theorem host1_v51 (V : Valuation τ sig (Elt Ideal)) (x0 : (⟨Cert.ReferenceIdeal.S100000x64, .f32⟩ : BufTy).Contents (Elt Ideal))
    (x1 : (⟨Cert.ReferenceIdeal.S2x1600000, .i32⟩ : BufTy).Contents (Elt Ideal)) (x2 : (⟨Cert.ReferenceIdeal.S64x64, .f32⟩ : BufTy).Contents (Elt Ideal))
    (hh : V (Proc.devRef .tc main_v33) = val_main_v32 (F := Ideal) x0 x2) (hs : V (Proc.devRef .tc main_v3) = val_main_v3 (F := Ideal) x1)
    (hd : V (Proc.devRef .tc main_v6) = val_main_v6 (F := Ideal) x1) (hn : V (Proc.devRef .tc main_v31) = val_main_v31 (F := Ideal) x1) :
    StableHlo.after hostOps1 V (Proc.devRef .tc main_v51) = val_main_v50 (F := Ideal) x0 x1 x2 := by
  after_results_simp
  rw [hh, hs, hd, hn]
  rfl
theorem host1_v52 (V : Valuation τ sig (Elt Ideal)) :
    StableHlo.after hostOps1 V (Proc.devRef .tc main_v52) = Cert.Bridge.biasRow (V (Proc.devRef .tc main_arg3)) := by
  after_results_simp
  rfl
theorem w3_main_v51 : W3 m ρ c (Proc.devRef .tc main_v51) = val_main_v50 (F := Ideal) (a0 m c) (a1 m c) (a2 m c) :=
  host1_v51 (W2 m ρ c) (a0 m c) (a1 m c) (a2 m c) (w2_main_v33 m ρ c) (w2_main_v3 m ρ c) (w2_main_v6 m ρ c) (w2_main_v31 m ρ c)
theorem w3_main_v52 : W3 m ρ c (Proc.devRef .tc main_v52) = Cert.Bridge.biasRow (a3 m c) :=
  (host1_v52 (W2 m ρ c)).trans (congrArg Cert.Bridge.biasRow (w2_main_arg3 m ρ c))

/-! ## Region 1: the bias and the rectifier -/
theorem w4_main_arg4 : W4 m ρ c (Proc.devRef .tc main_arg4) = a4 m c := (W4_of_ne m ρ c main_arg4 (by decide)).trans (w3_main_arg4 m ρ c)
theorem w4_main_arg5 : W4 m ρ c (Proc.devRef .tc main_arg5) = a5 m c := (W4_of_ne m ρ c main_arg5 (by decide)).trans (w3_main_arg5 m ρ c)
theorem w4_main_arg6 : W4 m ρ c (Proc.devRef .tc main_arg6) = a6 m c := (W4_of_ne m ρ c main_arg6 (by decide)).trans (w3_main_arg6 m ρ c)
theorem w4_main_arg7 : W4 m ρ c (Proc.devRef .tc main_arg7) = a7 m c := (W4_of_ne m ρ c main_arg7 (by decide)).trans (w3_main_arg7 m ρ c)
theorem w4_main_arg8 : W4 m ρ c (Proc.devRef .tc main_arg8) = a8 m c := (W4_of_ne m ρ c main_arg8 (by decide)).trans (w3_main_arg8 m ρ c)
theorem w4_main_arg9 : W4 m ρ c (Proc.devRef .tc main_arg9) = a9 m c := (W4_of_ne m ρ c main_arg9 (by decide)).trans (w3_main_arg9 m ρ c)
theorem w4_main_arg10 : W4 m ρ c (Proc.devRef .tc main_arg10) = a10 m c := (W4_of_ne m ρ c main_arg10 (by decide)).trans (w3_main_arg10 m ρ c)
theorem w4_main_arg11 : W4 m ρ c (Proc.devRef .tc main_arg11) = a11 m c := (W4_of_ne m ρ c main_arg11 (by decide)).trans (w3_main_arg11 m ρ c)
theorem w4_main_v3 : W4 m ρ c (Proc.devRef .tc main_v3) = val_main_v3 (F := Ideal) (a1 m c) := (W4_of_ne m ρ c main_v3 (by decide)).trans (w3_main_v3 m ρ c)
theorem w4_main_v6 : W4 m ρ c (Proc.devRef .tc main_v6) = val_main_v6 (F := Ideal) (a1 m c) := (W4_of_ne m ρ c main_v6 (by decide)).trans (w3_main_v6 m ρ c)
theorem w4_main_v31 : W4 m ρ c (Proc.devRef .tc main_v31) = val_main_v31 (F := Ideal) (a1 m c) := (W4_of_ne m ρ c main_v31 (by decide)).trans (w3_main_v31 m ρ c)
/-- The output of graph layer 1 is the reference's. -/
theorem w4_main_v53 : W4 m ρ c (Proc.devRef .tc main_v53) = val_main_v54 (F := Ideal) (a0 m c) (a1 m c) (a2 m c) (a3 m c) :=
  (W4_arr m ρ c 2).trans ((BiasRelu1.final (V3 m ρ) c).trans (by
    show BiasRelu1.biasRelu (W3 m ρ c (Proc.devRef .tc main_v51)) (W3 m ρ c (Proc.devRef .tc main_v52)) = _
    rw [w3_main_v51 m ρ c, w3_main_v52 m ρ c, Cert.Bridge.biasRelu_eq]
    rfl))

end Cert.KernelIdeal.Chain

end
-- ==== Proof.KChain2.lean ====
/-
  The idealized kernel's buffer contents through graph layer 2: a host stretch that only makes an unused zero
  row, the pallas_call of the dense product, the host stretch that gathers along the sources, scales by the
  normalization and scatter-adds at the targets (and reshapes the bias to a row), and the pallas_call of the bias
  and the rectifier. Each buffer a later segment reads is followed boundary by boundary; the layer's output is the
  reference's stage function of the arguments.
-/
import proofs.«163823_j53824530153630_1_alg».proof.Proof.Gen.KernelIdeal.Frame
import proofs.«163823_j53824530153630_1_alg».proof.Proof.RefRead
import proofs.«163823_j53824530153630_1_alg».proof.Proof.Dense2
import proofs.«163823_j53824530153630_1_alg».proof.Proof.BiasRelu3
import proofs.«163823_j53824530153630_1_alg».proof.Proof.BiasRelu1
import proofs.«163823_j53824530153630_1_alg».proof.Proof.Bridge
import proofs.«163823_j53824530153630_1_alg».proof.Proof.KChain1
import Idealize.ShloMosaic.Lib.StableHlo.Run
import Idealize.ShloMosaic.PureOps.Ideal.Laws

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.ReadP (val_main_v3 val_main_v6 val_main_v31 val_main_v32 val_main_v50 val_main_v54 val_main_v55 val_main_v73 val_main_v77 val_main_v78 val_main_v96 val_main_v100 val_main_v101 val_main_v105 val_main_v106 val_main_v109 val_main_v110)

variable (m : (ℓ : Loc nD τ sig) → Buf (Elt Ideal) ℓ) (ρ : Dev nD → PrngReg) (c : Dev nD)

/-! ## Host stretch 2: an unused zero row -/
theorem keep2_main_arg4 (V : Valuation τ sig (Elt Ideal)) : StableHlo.after hostOps2 V (Proc.devRef .tc main_arg4) = V (Proc.devRef .tc main_arg4) := by after_results_simp
theorem keep2_main_arg5 (V : Valuation τ sig (Elt Ideal)) : StableHlo.after hostOps2 V (Proc.devRef .tc main_arg5) = V (Proc.devRef .tc main_arg5) := by after_results_simp
theorem keep2_main_arg6 (V : Valuation τ sig (Elt Ideal)) : StableHlo.after hostOps2 V (Proc.devRef .tc main_arg6) = V (Proc.devRef .tc main_arg6) := by after_results_simp
theorem keep2_main_arg7 (V : Valuation τ sig (Elt Ideal)) : StableHlo.after hostOps2 V (Proc.devRef .tc main_arg7) = V (Proc.devRef .tc main_arg7) := by after_results_simp
theorem keep2_main_arg8 (V : Valuation τ sig (Elt Ideal)) : StableHlo.after hostOps2 V (Proc.devRef .tc main_arg8) = V (Proc.devRef .tc main_arg8) := by after_results_simp
theorem keep2_main_arg9 (V : Valuation τ sig (Elt Ideal)) : StableHlo.after hostOps2 V (Proc.devRef .tc main_arg9) = V (Proc.devRef .tc main_arg9) := by after_results_simp
theorem keep2_main_arg10 (V : Valuation τ sig (Elt Ideal)) : StableHlo.after hostOps2 V (Proc.devRef .tc main_arg10) = V (Proc.devRef .tc main_arg10) := by after_results_simp
theorem keep2_main_arg11 (V : Valuation τ sig (Elt Ideal)) : StableHlo.after hostOps2 V (Proc.devRef .tc main_arg11) = V (Proc.devRef .tc main_arg11) := by after_results_simp
theorem keep2_main_v3 (V : Valuation τ sig (Elt Ideal)) : StableHlo.after hostOps2 V (Proc.devRef .tc main_v3) = V (Proc.devRef .tc main_v3) := by after_results_simp
theorem keep2_main_v6 (V : Valuation τ sig (Elt Ideal)) : StableHlo.after hostOps2 V (Proc.devRef .tc main_v6) = V (Proc.devRef .tc main_v6) := by after_results_simp
theorem keep2_main_v31 (V : Valuation τ sig (Elt Ideal)) : StableHlo.after hostOps2 V (Proc.devRef .tc main_v31) = V (Proc.devRef .tc main_v31) := by after_results_simp
theorem keep2_main_v53 (V : Valuation τ sig (Elt Ideal)) : StableHlo.after hostOps2 V (Proc.devRef .tc main_v53) = V (Proc.devRef .tc main_v53) := by after_results_simp
theorem w5_main_arg4 : W5 m ρ c (Proc.devRef .tc main_arg4) = a4 m c := (keep2_main_arg4 (W4 m ρ c)).trans (w4_main_arg4 m ρ c)
theorem w5_main_arg5 : W5 m ρ c (Proc.devRef .tc main_arg5) = a5 m c := (keep2_main_arg5 (W4 m ρ c)).trans (w4_main_arg5 m ρ c)
theorem w5_main_arg6 : W5 m ρ c (Proc.devRef .tc main_arg6) = a6 m c := (keep2_main_arg6 (W4 m ρ c)).trans (w4_main_arg6 m ρ c)
theorem w5_main_arg7 : W5 m ρ c (Proc.devRef .tc main_arg7) = a7 m c := (keep2_main_arg7 (W4 m ρ c)).trans (w4_main_arg7 m ρ c)
theorem w5_main_arg8 : W5 m ρ c (Proc.devRef .tc main_arg8) = a8 m c := (keep2_main_arg8 (W4 m ρ c)).trans (w4_main_arg8 m ρ c)
theorem w5_main_arg9 : W5 m ρ c (Proc.devRef .tc main_arg9) = a9 m c := (keep2_main_arg9 (W4 m ρ c)).trans (w4_main_arg9 m ρ c)
theorem w5_main_arg10 : W5 m ρ c (Proc.devRef .tc main_arg10) = a10 m c := (keep2_main_arg10 (W4 m ρ c)).trans (w4_main_arg10 m ρ c)
theorem w5_main_arg11 : W5 m ρ c (Proc.devRef .tc main_arg11) = a11 m c := (keep2_main_arg11 (W4 m ρ c)).trans (w4_main_arg11 m ρ c)
theorem w5_main_v3 : W5 m ρ c (Proc.devRef .tc main_v3) = val_main_v3 (F := Ideal) (a1 m c) := (keep2_main_v3 (W4 m ρ c)).trans (w4_main_v3 m ρ c)
theorem w5_main_v6 : W5 m ρ c (Proc.devRef .tc main_v6) = val_main_v6 (F := Ideal) (a1 m c) := (keep2_main_v6 (W4 m ρ c)).trans (w4_main_v6 m ρ c)
theorem w5_main_v31 : W5 m ρ c (Proc.devRef .tc main_v31) = val_main_v31 (F := Ideal) (a1 m c) := (keep2_main_v31 (W4 m ρ c)).trans (w4_main_v31 m ρ c)
theorem w5_main_v53 : W5 m ρ c (Proc.devRef .tc main_v53) = val_main_v54 (F := Ideal) (a0 m c) (a1 m c) (a2 m c) (a3 m c) := (keep2_main_v53 (W4 m ρ c)).trans (w4_main_v53 m ρ c)

/-! ## Region 2: the dense product -/
theorem w6_main_arg5 : W6 m ρ c (Proc.devRef .tc main_arg5) = a5 m c := (W6_of_ne m ρ c main_arg5 (by decide)).trans (w5_main_arg5 m ρ c)
theorem w6_main_arg6 : W6 m ρ c (Proc.devRef .tc main_arg6) = a6 m c := (W6_of_ne m ρ c main_arg6 (by decide)).trans (w5_main_arg6 m ρ c)
theorem w6_main_arg7 : W6 m ρ c (Proc.devRef .tc main_arg7) = a7 m c := (W6_of_ne m ρ c main_arg7 (by decide)).trans (w5_main_arg7 m ρ c)
theorem w6_main_arg8 : W6 m ρ c (Proc.devRef .tc main_arg8) = a8 m c := (W6_of_ne m ρ c main_arg8 (by decide)).trans (w5_main_arg8 m ρ c)
theorem w6_main_arg9 : W6 m ρ c (Proc.devRef .tc main_arg9) = a9 m c := (W6_of_ne m ρ c main_arg9 (by decide)).trans (w5_main_arg9 m ρ c)
theorem w6_main_arg10 : W6 m ρ c (Proc.devRef .tc main_arg10) = a10 m c := (W6_of_ne m ρ c main_arg10 (by decide)).trans (w5_main_arg10 m ρ c)
theorem w6_main_arg11 : W6 m ρ c (Proc.devRef .tc main_arg11) = a11 m c := (W6_of_ne m ρ c main_arg11 (by decide)).trans (w5_main_arg11 m ρ c)
theorem w6_main_v3 : W6 m ρ c (Proc.devRef .tc main_v3) = val_main_v3 (F := Ideal) (a1 m c) := (W6_of_ne m ρ c main_v3 (by decide)).trans (w5_main_v3 m ρ c)
theorem w6_main_v6 : W6 m ρ c (Proc.devRef .tc main_v6) = val_main_v6 (F := Ideal) (a1 m c) := (W6_of_ne m ρ c main_v6 (by decide)).trans (w5_main_v6 m ρ c)
theorem w6_main_v31 : W6 m ρ c (Proc.devRef .tc main_v31) = val_main_v31 (F := Ideal) (a1 m c) := (W6_of_ne m ρ c main_v31 (by decide)).trans (w5_main_v31 m ρ c)
theorem w6_main_v55 : W6 m ρ c (Proc.devRef .tc main_v55) = val_main_v55 (F := Ideal) (a0 m c) (a1 m c) (a2 m c) (a3 m c) (a4 m c) :=
  (W6_arr m ρ c 3).trans ((Dense2.final (V5 m ρ) c).trans (by
    show Dense2.dense (W5 m ρ c (Proc.devRef .tc main_v53)) (W5 m ρ c (Proc.devRef .tc main_arg4)) = _
    rw [w5_main_v53 m ρ c, w5_main_arg4 m ρ c]
    rfl))

/-! ## Host stretch 3: gather along the sources, scale, scatter-add at the targets; the bias row -/
theorem keep3_main_arg6 (V : Valuation τ sig (Elt Ideal)) : StableHlo.after hostOps3 V (Proc.devRef .tc main_arg6) = V (Proc.devRef .tc main_arg6) := by after_results_simp
theorem keep3_main_arg7 (V : Valuation τ sig (Elt Ideal)) : StableHlo.after hostOps3 V (Proc.devRef .tc main_arg7) = V (Proc.devRef .tc main_arg7) := by after_results_simp
theorem keep3_main_arg8 (V : Valuation τ sig (Elt Ideal)) : StableHlo.after hostOps3 V (Proc.devRef .tc main_arg8) = V (Proc.devRef .tc main_arg8) := by after_results_simp
theorem keep3_main_arg9 (V : Valuation τ sig (Elt Ideal)) : StableHlo.after hostOps3 V (Proc.devRef .tc main_arg9) = V (Proc.devRef .tc main_arg9) := by after_results_simp
theorem keep3_main_arg10 (V : Valuation τ sig (Elt Ideal)) : StableHlo.after hostOps3 V (Proc.devRef .tc main_arg10) = V (Proc.devRef .tc main_arg10) := by after_results_simp
theorem keep3_main_arg11 (V : Valuation τ sig (Elt Ideal)) : StableHlo.after hostOps3 V (Proc.devRef .tc main_arg11) = V (Proc.devRef .tc main_arg11) := by after_results_simp
theorem keep3_main_v3 (V : Valuation τ sig (Elt Ideal)) : StableHlo.after hostOps3 V (Proc.devRef .tc main_v3) = V (Proc.devRef .tc main_v3) := by after_results_simp
theorem keep3_main_v6 (V : Valuation τ sig (Elt Ideal)) : StableHlo.after hostOps3 V (Proc.devRef .tc main_v6) = V (Proc.devRef .tc main_v6) := by after_results_simp
theorem keep3_main_v31 (V : Valuation τ sig (Elt Ideal)) : StableHlo.after hostOps3 V (Proc.devRef .tc main_v31) = V (Proc.devRef .tc main_v31) := by after_results_simp
theorem w7_main_arg6 : W7 m ρ c (Proc.devRef .tc main_arg6) = a6 m c := (keep3_main_arg6 (W6 m ρ c)).trans (w6_main_arg6 m ρ c)
theorem w7_main_arg7 : W7 m ρ c (Proc.devRef .tc main_arg7) = a7 m c := (keep3_main_arg7 (W6 m ρ c)).trans (w6_main_arg7 m ρ c)
theorem w7_main_arg8 : W7 m ρ c (Proc.devRef .tc main_arg8) = a8 m c := (keep3_main_arg8 (W6 m ρ c)).trans (w6_main_arg8 m ρ c)
theorem w7_main_arg9 : W7 m ρ c (Proc.devRef .tc main_arg9) = a9 m c := (keep3_main_arg9 (W6 m ρ c)).trans (w6_main_arg9 m ρ c)
theorem w7_main_arg10 : W7 m ρ c (Proc.devRef .tc main_arg10) = a10 m c := (keep3_main_arg10 (W6 m ρ c)).trans (w6_main_arg10 m ρ c)
theorem w7_main_arg11 : W7 m ρ c (Proc.devRef .tc main_arg11) = a11 m c := (keep3_main_arg11 (W6 m ρ c)).trans (w6_main_arg11 m ρ c)
theorem w7_main_v3 : W7 m ρ c (Proc.devRef .tc main_v3) = val_main_v3 (F := Ideal) (a1 m c) := (keep3_main_v3 (W6 m ρ c)).trans (w6_main_v3 m ρ c)
theorem w7_main_v6 : W7 m ρ c (Proc.devRef .tc main_v6) = val_main_v6 (F := Ideal) (a1 m c) := (keep3_main_v6 (W6 m ρ c)).trans (w6_main_v6 m ρ c)
theorem w7_main_v31 : W7 m ρ c (Proc.devRef .tc main_v31) = val_main_v31 (F := Ideal) (a1 m c) := (keep3_main_v31 (W6 m ρ c)).trans (w6_main_v31 m ρ c)
/-- The aggregation of layer 2 is the reference's, given the reference's product, edge lists and normalization. -/
theorem host3_agg (V : Valuation τ sig (Elt Ideal)) (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S64x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal))
    (hh : V (Proc.devRef .tc main_v55) = val_main_v55 (F := Ideal) x0 x1 x2 x3 x4) (hs : V (Proc.devRef .tc main_v3) = val_main_v3 (F := Ideal) x1)
    (hd : V (Proc.devRef .tc main_v6) = val_main_v6 (F := Ideal) x1) (hn : V (Proc.devRef .tc main_v31) = val_main_v31 (F := Ideal) x1) :
    StableHlo.after hostOps3 V (Proc.devRef .tc main_v73) = val_main_v73 (F := Ideal) x0 x1 x2 x3 x4 := by
  after_results_simp
  rw [hh, hs, hd, hn]
  rfl
theorem host3_brow (V : Valuation τ sig (Elt Ideal)) :
    StableHlo.after hostOps3 V (Proc.devRef .tc main_v74) = Cert.Bridge.biasRow (V (Proc.devRef .tc main_arg5)) := by
  after_results_simp
  rfl
theorem w7_main_v73 : W7 m ρ c (Proc.devRef .tc main_v73) = val_main_v73 (F := Ideal) (a0 m c) (a1 m c) (a2 m c) (a3 m c) (a4 m c) :=
  host3_agg (W6 m ρ c) (a0 m c) (a1 m c) (a2 m c) (a3 m c) (a4 m c) (w6_main_v55 m ρ c) (w6_main_v3 m ρ c) (w6_main_v6 m ρ c) (w6_main_v31 m ρ c)
theorem w7_main_v74 : W7 m ρ c (Proc.devRef .tc main_v74) = Cert.Bridge.biasRow (a5 m c) :=
  (host3_brow (W6 m ρ c)).trans (congrArg Cert.Bridge.biasRow (w6_main_arg5 m ρ c))

/-! ## Region 3: the bias and the rectifier -/
theorem w8_main_arg6 : W8 m ρ c (Proc.devRef .tc main_arg6) = a6 m c := (W8_of_ne m ρ c main_arg6 (by decide)).trans (w7_main_arg6 m ρ c)
theorem w8_main_arg7 : W8 m ρ c (Proc.devRef .tc main_arg7) = a7 m c := (W8_of_ne m ρ c main_arg7 (by decide)).trans (w7_main_arg7 m ρ c)
theorem w8_main_arg8 : W8 m ρ c (Proc.devRef .tc main_arg8) = a8 m c := (W8_of_ne m ρ c main_arg8 (by decide)).trans (w7_main_arg8 m ρ c)
theorem w8_main_arg9 : W8 m ρ c (Proc.devRef .tc main_arg9) = a9 m c := (W8_of_ne m ρ c main_arg9 (by decide)).trans (w7_main_arg9 m ρ c)
theorem w8_main_arg10 : W8 m ρ c (Proc.devRef .tc main_arg10) = a10 m c := (W8_of_ne m ρ c main_arg10 (by decide)).trans (w7_main_arg10 m ρ c)
theorem w8_main_arg11 : W8 m ρ c (Proc.devRef .tc main_arg11) = a11 m c := (W8_of_ne m ρ c main_arg11 (by decide)).trans (w7_main_arg11 m ρ c)
theorem w8_main_v3 : W8 m ρ c (Proc.devRef .tc main_v3) = val_main_v3 (F := Ideal) (a1 m c) := (W8_of_ne m ρ c main_v3 (by decide)).trans (w7_main_v3 m ρ c)
theorem w8_main_v6 : W8 m ρ c (Proc.devRef .tc main_v6) = val_main_v6 (F := Ideal) (a1 m c) := (W8_of_ne m ρ c main_v6 (by decide)).trans (w7_main_v6 m ρ c)
theorem w8_main_v31 : W8 m ρ c (Proc.devRef .tc main_v31) = val_main_v31 (F := Ideal) (a1 m c) := (W8_of_ne m ρ c main_v31 (by decide)).trans (w7_main_v31 m ρ c)
/-- The output of graph layer 2 is the reference's. -/
theorem w8_main_v75 : W8 m ρ c (Proc.devRef .tc main_v75) = val_main_v77 (F := Ideal) (a0 m c) (a1 m c) (a2 m c) (a3 m c) (a4 m c) (a5 m c) :=
  (W8_arr m ρ c 2).trans ((BiasRelu3.final (V7 m ρ) c).trans (by
    show BiasRelu3.biasRelu (W7 m ρ c (Proc.devRef .tc main_v73)) (W7 m ρ c (Proc.devRef .tc main_v74)) = _
    rw [w7_main_v73 m ρ c, w7_main_v74 m ρ c]
    exact (show BiasRelu3.biasRelu _ _ = BiasRelu1.biasRelu _ _ from rfl).trans ((Cert.Bridge.biasRelu_eq _ _).trans rfl)))

end Cert.KernelIdeal.Chain

end
-- ==== Proof.KChain3.lean ====
/-
  The idealized kernel's buffer contents through graph layer 3: a host stretch that only makes an unused zero
  row, the pallas_call of the dense product, the host stretch that gathers along the sources, scales by the
  normalization and scatter-adds at the targets (and reshapes the bias to a row), and the pallas_call of the bias
  and the rectifier. Each buffer a later segment reads is followed boundary by boundary; the layer's output is the
  reference's stage function of the arguments.
-/
import proofs.«163823_j53824530153630_1_alg».proof.Proof.Gen.KernelIdeal.Frame
import proofs.«163823_j53824530153630_1_alg».proof.Proof.RefRead
import proofs.«163823_j53824530153630_1_alg».proof.Proof.Dense4
import proofs.«163823_j53824530153630_1_alg».proof.Proof.BiasRelu5
import proofs.«163823_j53824530153630_1_alg».proof.Proof.BiasRelu1
import proofs.«163823_j53824530153630_1_alg».proof.Proof.Bridge
import proofs.«163823_j53824530153630_1_alg».proof.Proof.KChain2
import Idealize.ShloMosaic.Lib.StableHlo.Run
import Idealize.ShloMosaic.PureOps.Ideal.Laws

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.ReadP (val_main_v3 val_main_v6 val_main_v31 val_main_v32 val_main_v50 val_main_v54 val_main_v55 val_main_v73 val_main_v77 val_main_v78 val_main_v96 val_main_v100 val_main_v101 val_main_v105 val_main_v106 val_main_v109 val_main_v110)

variable (m : (ℓ : Loc nD τ sig) → Buf (Elt Ideal) ℓ) (ρ : Dev nD → PrngReg) (c : Dev nD)

/-! ## Host stretch 4: an unused zero row -/
theorem keep4_main_arg6 (V : Valuation τ sig (Elt Ideal)) : StableHlo.after hostOps4 V (Proc.devRef .tc main_arg6) = V (Proc.devRef .tc main_arg6) := by after_results_simp
theorem keep4_main_arg7 (V : Valuation τ sig (Elt Ideal)) : StableHlo.after hostOps4 V (Proc.devRef .tc main_arg7) = V (Proc.devRef .tc main_arg7) := by after_results_simp
theorem keep4_main_arg8 (V : Valuation τ sig (Elt Ideal)) : StableHlo.after hostOps4 V (Proc.devRef .tc main_arg8) = V (Proc.devRef .tc main_arg8) := by after_results_simp
theorem keep4_main_arg9 (V : Valuation τ sig (Elt Ideal)) : StableHlo.after hostOps4 V (Proc.devRef .tc main_arg9) = V (Proc.devRef .tc main_arg9) := by after_results_simp
theorem keep4_main_arg10 (V : Valuation τ sig (Elt Ideal)) : StableHlo.after hostOps4 V (Proc.devRef .tc main_arg10) = V (Proc.devRef .tc main_arg10) := by after_results_simp
theorem keep4_main_arg11 (V : Valuation τ sig (Elt Ideal)) : StableHlo.after hostOps4 V (Proc.devRef .tc main_arg11) = V (Proc.devRef .tc main_arg11) := by after_results_simp
theorem keep4_main_v3 (V : Valuation τ sig (Elt Ideal)) : StableHlo.after hostOps4 V (Proc.devRef .tc main_v3) = V (Proc.devRef .tc main_v3) := by after_results_simp
theorem keep4_main_v6 (V : Valuation τ sig (Elt Ideal)) : StableHlo.after hostOps4 V (Proc.devRef .tc main_v6) = V (Proc.devRef .tc main_v6) := by after_results_simp
theorem keep4_main_v31 (V : Valuation τ sig (Elt Ideal)) : StableHlo.after hostOps4 V (Proc.devRef .tc main_v31) = V (Proc.devRef .tc main_v31) := by after_results_simp
theorem keep4_main_v75 (V : Valuation τ sig (Elt Ideal)) : StableHlo.after hostOps4 V (Proc.devRef .tc main_v75) = V (Proc.devRef .tc main_v75) := by after_results_simp
theorem w9_main_arg6 : W9 m ρ c (Proc.devRef .tc main_arg6) = a6 m c := (keep4_main_arg6 (W8 m ρ c)).trans (w8_main_arg6 m ρ c)
theorem w9_main_arg7 : W9 m ρ c (Proc.devRef .tc main_arg7) = a7 m c := (keep4_main_arg7 (W8 m ρ c)).trans (w8_main_arg7 m ρ c)
theorem w9_main_arg8 : W9 m ρ c (Proc.devRef .tc main_arg8) = a8 m c := (keep4_main_arg8 (W8 m ρ c)).trans (w8_main_arg8 m ρ c)
theorem w9_main_arg9 : W9 m ρ c (Proc.devRef .tc main_arg9) = a9 m c := (keep4_main_arg9 (W8 m ρ c)).trans (w8_main_arg9 m ρ c)
theorem w9_main_arg10 : W9 m ρ c (Proc.devRef .tc main_arg10) = a10 m c := (keep4_main_arg10 (W8 m ρ c)).trans (w8_main_arg10 m ρ c)
theorem w9_main_arg11 : W9 m ρ c (Proc.devRef .tc main_arg11) = a11 m c := (keep4_main_arg11 (W8 m ρ c)).trans (w8_main_arg11 m ρ c)
theorem w9_main_v3 : W9 m ρ c (Proc.devRef .tc main_v3) = val_main_v3 (F := Ideal) (a1 m c) := (keep4_main_v3 (W8 m ρ c)).trans (w8_main_v3 m ρ c)
theorem w9_main_v6 : W9 m ρ c (Proc.devRef .tc main_v6) = val_main_v6 (F := Ideal) (a1 m c) := (keep4_main_v6 (W8 m ρ c)).trans (w8_main_v6 m ρ c)
theorem w9_main_v31 : W9 m ρ c (Proc.devRef .tc main_v31) = val_main_v31 (F := Ideal) (a1 m c) := (keep4_main_v31 (W8 m ρ c)).trans (w8_main_v31 m ρ c)
theorem w9_main_v75 : W9 m ρ c (Proc.devRef .tc main_v75) = val_main_v77 (F := Ideal) (a0 m c) (a1 m c) (a2 m c) (a3 m c) (a4 m c) (a5 m c) := (keep4_main_v75 (W8 m ρ c)).trans (w8_main_v75 m ρ c)

/-! ## Region 4: the dense product -/
theorem w10_main_arg7 : W10 m ρ c (Proc.devRef .tc main_arg7) = a7 m c := (W10_of_ne m ρ c main_arg7 (by decide)).trans (w9_main_arg7 m ρ c)
theorem w10_main_arg8 : W10 m ρ c (Proc.devRef .tc main_arg8) = a8 m c := (W10_of_ne m ρ c main_arg8 (by decide)).trans (w9_main_arg8 m ρ c)
theorem w10_main_arg9 : W10 m ρ c (Proc.devRef .tc main_arg9) = a9 m c := (W10_of_ne m ρ c main_arg9 (by decide)).trans (w9_main_arg9 m ρ c)
theorem w10_main_arg10 : W10 m ρ c (Proc.devRef .tc main_arg10) = a10 m c := (W10_of_ne m ρ c main_arg10 (by decide)).trans (w9_main_arg10 m ρ c)
theorem w10_main_arg11 : W10 m ρ c (Proc.devRef .tc main_arg11) = a11 m c := (W10_of_ne m ρ c main_arg11 (by decide)).trans (w9_main_arg11 m ρ c)
theorem w10_main_v3 : W10 m ρ c (Proc.devRef .tc main_v3) = val_main_v3 (F := Ideal) (a1 m c) := (W10_of_ne m ρ c main_v3 (by decide)).trans (w9_main_v3 m ρ c)
theorem w10_main_v6 : W10 m ρ c (Proc.devRef .tc main_v6) = val_main_v6 (F := Ideal) (a1 m c) := (W10_of_ne m ρ c main_v6 (by decide)).trans (w9_main_v6 m ρ c)
theorem w10_main_v31 : W10 m ρ c (Proc.devRef .tc main_v31) = val_main_v31 (F := Ideal) (a1 m c) := (W10_of_ne m ρ c main_v31 (by decide)).trans (w9_main_v31 m ρ c)
theorem w10_main_v77 : W10 m ρ c (Proc.devRef .tc main_v77) = val_main_v78 (F := Ideal) (a0 m c) (a1 m c) (a2 m c) (a3 m c) (a4 m c) (a5 m c) (a6 m c) :=
  (W10_arr m ρ c 3).trans ((Dense4.final (V9 m ρ) c).trans (by
    show Dense4.dense (W9 m ρ c (Proc.devRef .tc main_v75)) (W9 m ρ c (Proc.devRef .tc main_arg6)) = _
    rw [w9_main_v75 m ρ c, w9_main_arg6 m ρ c]
    rfl))

/-! ## Host stretch 5: gather along the sources, scale, scatter-add at the targets; the bias row -/
theorem keep5_main_arg8 (V : Valuation τ sig (Elt Ideal)) : StableHlo.after hostOps5 V (Proc.devRef .tc main_arg8) = V (Proc.devRef .tc main_arg8) := by after_results_simp
theorem keep5_main_arg9 (V : Valuation τ sig (Elt Ideal)) : StableHlo.after hostOps5 V (Proc.devRef .tc main_arg9) = V (Proc.devRef .tc main_arg9) := by after_results_simp
theorem keep5_main_arg10 (V : Valuation τ sig (Elt Ideal)) : StableHlo.after hostOps5 V (Proc.devRef .tc main_arg10) = V (Proc.devRef .tc main_arg10) := by after_results_simp
theorem keep5_main_arg11 (V : Valuation τ sig (Elt Ideal)) : StableHlo.after hostOps5 V (Proc.devRef .tc main_arg11) = V (Proc.devRef .tc main_arg11) := by after_results_simp

theorem w11_main_arg8 : W11 m ρ c (Proc.devRef .tc main_arg8) = a8 m c := (keep5_main_arg8 (W10 m ρ c)).trans (w10_main_arg8 m ρ c)
theorem w11_main_arg9 : W11 m ρ c (Proc.devRef .tc main_arg9) = a9 m c := (keep5_main_arg9 (W10 m ρ c)).trans (w10_main_arg9 m ρ c)
theorem w11_main_arg10 : W11 m ρ c (Proc.devRef .tc main_arg10) = a10 m c := (keep5_main_arg10 (W10 m ρ c)).trans (w10_main_arg10 m ρ c)
theorem w11_main_arg11 : W11 m ρ c (Proc.devRef .tc main_arg11) = a11 m c := (keep5_main_arg11 (W10 m ρ c)).trans (w10_main_arg11 m ρ c)

/-- The aggregation of layer 3 is the reference's, given the reference's product, edge lists and normalization. -/
theorem host5_agg (V : Valuation τ sig (Elt Ideal)) (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S64x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal)) (x6 : (⟨Cert.ReferenceIdeal.S64x64, .f32⟩ : BufTy).Contents (Elt Ideal))
    (hh : V (Proc.devRef .tc main_v77) = val_main_v78 (F := Ideal) x0 x1 x2 x3 x4 x5 x6) (hs : V (Proc.devRef .tc main_v3) = val_main_v3 (F := Ideal) x1)
    (hd : V (Proc.devRef .tc main_v6) = val_main_v6 (F := Ideal) x1) (hn : V (Proc.devRef .tc main_v31) = val_main_v31 (F := Ideal) x1) :
    StableHlo.after hostOps5 V (Proc.devRef .tc main_v95) = val_main_v96 (F := Ideal) x0 x1 x2 x3 x4 x5 x6 := by
  after_results_simp
  rw [hh, hs, hd, hn]
  rfl
theorem host5_brow (V : Valuation τ sig (Elt Ideal)) :
    StableHlo.after hostOps5 V (Proc.devRef .tc main_v96) = Cert.Bridge.biasRow (V (Proc.devRef .tc main_arg7)) := by
  after_results_simp
  rfl
theorem w11_main_v95 : W11 m ρ c (Proc.devRef .tc main_v95) = val_main_v96 (F := Ideal) (a0 m c) (a1 m c) (a2 m c) (a3 m c) (a4 m c) (a5 m c) (a6 m c) :=
  host5_agg (W10 m ρ c) (a0 m c) (a1 m c) (a2 m c) (a3 m c) (a4 m c) (a5 m c) (a6 m c) (w10_main_v77 m ρ c) (w10_main_v3 m ρ c) (w10_main_v6 m ρ c) (w10_main_v31 m ρ c)
theorem w11_main_v96 : W11 m ρ c (Proc.devRef .tc main_v96) = Cert.Bridge.biasRow (a7 m c) :=
  (host5_brow (W10 m ρ c)).trans (congrArg Cert.Bridge.biasRow (w10_main_arg7 m ρ c))

/-! ## Region 5: the bias and the rectifier -/
theorem w12_main_arg8 : W12 m ρ c (Proc.devRef .tc main_arg8) = a8 m c := (W12_of_ne m ρ c main_arg8 (by decide)).trans (w11_main_arg8 m ρ c)
theorem w12_main_arg9 : W12 m ρ c (Proc.devRef .tc main_arg9) = a9 m c := (W12_of_ne m ρ c main_arg9 (by decide)).trans (w11_main_arg9 m ρ c)
theorem w12_main_arg10 : W12 m ρ c (Proc.devRef .tc main_arg10) = a10 m c := (W12_of_ne m ρ c main_arg10 (by decide)).trans (w11_main_arg10 m ρ c)
theorem w12_main_arg11 : W12 m ρ c (Proc.devRef .tc main_arg11) = a11 m c := (W12_of_ne m ρ c main_arg11 (by decide)).trans (w11_main_arg11 m ρ c)

/-- The output of graph layer 3 is the reference's. -/
theorem w12_main_v97 : W12 m ρ c (Proc.devRef .tc main_v97) = val_main_v100 (F := Ideal) (a0 m c) (a1 m c) (a2 m c) (a3 m c) (a4 m c) (a5 m c) (a6 m c) (a7 m c) :=
  (W12_arr m ρ c 2).trans ((BiasRelu5.final (V11 m ρ) c).trans (by
    show BiasRelu5.biasRelu (W11 m ρ c (Proc.devRef .tc main_v95)) (W11 m ρ c (Proc.devRef .tc main_v96)) = _
    rw [w11_main_v95 m ρ c, w11_main_v96 m ρ c]
    exact (show BiasRelu5.biasRelu _ _ = BiasRelu1.biasRelu _ _ from rfl).trans ((Cert.Bridge.biasRelu_eq _ _).trans rfl)))

end Cert.KernelIdeal.Chain

end
-- ==== Proof.KChain4.lean ====
/-
  The idealized kernel's buffer contents from the end of graph layer 3 to the result: the bias vectors of the two
  dense layers reshaped to rows on the host, the pallas_call of the dense layer with bias and rectifier, the
  pallas_call of the last dense layer with bias, and the host stretch of the log-softmax, which is operation for
  operation the reference's. The result buffer ends at the reference's last stage function of the arguments.
-/
import proofs.«163823_j53824530153630_1_alg».proof.Proof.Gen.KernelIdeal.Frame
import proofs.«163823_j53824530153630_1_alg».proof.Proof.RefRead
import proofs.«163823_j53824530153630_1_alg».proof.Proof.Dense6
import proofs.«163823_j53824530153630_1_alg».proof.Proof.Dense7
import proofs.«163823_j53824530153630_1_alg».proof.Proof.Bridge
import proofs.«163823_j53824530153630_1_alg».proof.Proof.KChain3
import proofs.«163823_j53824530153630_1_alg».proof.Proof.LibHostFold
import Idealize.ShloMosaic.Lib.StableHlo.Run
import Idealize.ShloMosaic.PureOps.Ideal.Laws

set_option maxRecDepth 16384

noncomputable section

namespace Cert.KernelIdeal.Chain

open Cert.KernelIdeal Cert.KernelIdeal.Gen Idealize.ShloMosaic Idealize.ShloMosaic.TcCoe Idealize.SL.Sem Idealize.ShloMosaic.StableHlo
open Cert.ReferenceIdeal.ReadP (val_main_v3 val_main_v6 val_main_v31 val_main_v32 val_main_v50 val_main_v54 val_main_v55 val_main_v73 val_main_v77 val_main_v78 val_main_v96 val_main_v100 val_main_v101 val_main_v105 val_main_v106 val_main_v109 val_main_v110)

open Cert.LibHostFold

variable (m : (ℓ : Loc nD τ sig) → Buf (Elt Ideal) ℓ) (ρ : Dev nD → PrngReg) (c : Dev nD)

/-! ## Host stretch 6: the bias row of the first dense layer -/
theorem keep6_main_arg8 (V : Valuation τ sig (Elt Ideal)) : StableHlo.after hostOps6 V (Proc.devRef .tc main_arg8) = V (Proc.devRef .tc main_arg8) := by after_results_simp
theorem keep6_main_arg10 (V : Valuation τ sig (Elt Ideal)) : StableHlo.after hostOps6 V (Proc.devRef .tc main_arg10) = V (Proc.devRef .tc main_arg10) := by after_results_simp
theorem keep6_main_arg11 (V : Valuation τ sig (Elt Ideal)) : StableHlo.after hostOps6 V (Proc.devRef .tc main_arg11) = V (Proc.devRef .tc main_arg11) := by after_results_simp
theorem keep6_main_v97 (V : Valuation τ sig (Elt Ideal)) : StableHlo.after hostOps6 V (Proc.devRef .tc main_v97) = V (Proc.devRef .tc main_v97) := by after_results_simp
theorem w13_main_arg8 : W13 m ρ c (Proc.devRef .tc main_arg8) = a8 m c := (keep6_main_arg8 (W12 m ρ c)).trans (w12_main_arg8 m ρ c)
theorem w13_main_arg10 : W13 m ρ c (Proc.devRef .tc main_arg10) = a10 m c := (keep6_main_arg10 (W12 m ρ c)).trans (w12_main_arg10 m ρ c)
theorem w13_main_arg11 : W13 m ρ c (Proc.devRef .tc main_arg11) = a11 m c := (keep6_main_arg11 (W12 m ρ c)).trans (w12_main_arg11 m ρ c)
theorem w13_main_v97 : W13 m ρ c (Proc.devRef .tc main_v97) = val_main_v100 (F := Ideal) (a0 m c) (a1 m c) (a2 m c) (a3 m c) (a4 m c) (a5 m c) (a6 m c) (a7 m c) := (keep6_main_v97 (W12 m ρ c)).trans (w12_main_v97 m ρ c)
theorem host6_brow (V : Valuation τ sig (Elt Ideal)) :
    StableHlo.after hostOps6 V (Proc.devRef .tc main_v98) = Cert.Bridge.biasRow (V (Proc.devRef .tc main_arg9)) := by
  after_results_simp
  rfl
theorem w13_main_v98 : W13 m ρ c (Proc.devRef .tc main_v98) = Cert.Bridge.biasRow (a9 m c) :=
  (host6_brow (W12 m ρ c)).trans (congrArg Cert.Bridge.biasRow (w12_main_arg9 m ρ c))

/-! ## Region 6: the dense layer with bias and rectifier -/
theorem w14_main_arg10 : W14 m ρ c (Proc.devRef .tc main_arg10) = a10 m c := (W14_of_ne m ρ c main_arg10 (by decide)).trans (w13_main_arg10 m ρ c)
theorem w14_main_arg11 : W14 m ρ c (Proc.devRef .tc main_arg11) = a11 m c := (W14_of_ne m ρ c main_arg11 (by decide)).trans (w13_main_arg11 m ρ c)
theorem w14_main_v99 : W14 m ρ c (Proc.devRef .tc main_v99) = val_main_v105 (F := Ideal) (a0 m c) (a1 m c) (a2 m c) (a3 m c) (a4 m c) (a5 m c) (a6 m c) (a7 m c) (a8 m c) (a9 m c) :=
  (W14_arr m ρ c 3).trans ((Dense6.final (V13 m ρ) c).trans (by
    show Dense6.denseBiasRelu (W13 m ρ c (Proc.devRef .tc main_v97)) (W13 m ρ c (Proc.devRef .tc main_arg8)) (W13 m ρ c (Proc.devRef .tc main_v98)) = _
    rw [w13_main_v97 m ρ c, w13_main_arg8 m ρ c, w13_main_v98 m ρ c, Cert.Bridge.denseBiasRelu_eq]
    rfl))

/-! ## Host stretch 7: the bias row of the last dense layer -/
theorem keep7_main_arg10 (V : Valuation τ sig (Elt Ideal)) : StableHlo.after hostOps7 V (Proc.devRef .tc main_arg10) = V (Proc.devRef .tc main_arg10) := by after_results_simp
theorem keep7_main_v99 (V : Valuation τ sig (Elt Ideal)) : StableHlo.after hostOps7 V (Proc.devRef .tc main_v99) = V (Proc.devRef .tc main_v99) := by after_results_simp
theorem w15_main_arg10 : W15 m ρ c (Proc.devRef .tc main_arg10) = a10 m c := (keep7_main_arg10 (W14 m ρ c)).trans (w14_main_arg10 m ρ c)
theorem w15_main_v99 : W15 m ρ c (Proc.devRef .tc main_v99) = val_main_v105 (F := Ideal) (a0 m c) (a1 m c) (a2 m c) (a3 m c) (a4 m c) (a5 m c) (a6 m c) (a7 m c) (a8 m c) (a9 m c) := (keep7_main_v99 (W14 m ρ c)).trans (w14_main_v99 m ρ c)
theorem host7_brow (V : Valuation τ sig (Elt Ideal)) :
    StableHlo.after hostOps7 V (Proc.devRef .tc main_v100) = Cert.Bridge.biasRow10 (V (Proc.devRef .tc main_arg11)) := by
  after_results_simp
  rfl
theorem w15_main_v100 : W15 m ρ c (Proc.devRef .tc main_v100) = Cert.Bridge.biasRow10 (a11 m c) :=
  (host7_brow (W14 m ρ c)).trans (congrArg Cert.Bridge.biasRow10 (w14_main_arg11 m ρ c))

/-! ## Region 7: the last dense layer with bias -/
theorem w16_main_v101 : W16 m ρ c (Proc.devRef .tc main_v101) = val_main_v109 (F := Ideal) (a0 m c) (a1 m c) (a2 m c) (a3 m c) (a4 m c) (a5 m c) (a6 m c) (a7 m c) (a8 m c) (a9 m c) (a10 m c) (a11 m c) :=
  (W16_arr m ρ c 3).trans ((Dense7.final (V15 m ρ) c).trans (by
    show Dense7.denseBias (W15 m ρ c (Proc.devRef .tc main_v99)) (W15 m ρ c (Proc.devRef .tc main_arg10)) (W15 m ρ c (Proc.devRef .tc main_v100)) = _
    rw [w15_main_v99 m ρ c, w15_main_arg10 m ρ c, w15_main_v100 m ρ c, Cert.Bridge.denseBias_eq]
    rfl))

/-! ## Host stretch 8: the log-softmax -/
/-- Reading back through a typed reference what was written through it gives the value; at the logits' buffer (which
    the last pallas_call wrote) and at the result buffer the transport is the identity by computation. -/
theorem toBuf_v102 (v : (⟨S100000x10, .f32⟩ : BufTy).Contents (Elt Ideal)) : (TRef.of (sig := sig) (T := ⟨S100000x10, .f32⟩) main_v102).toBuf v = v := rfl
theorem ofBuf_v101 (v : (⟨S100000x10, .f32⟩ : BufTy).Contents (Elt Ideal)) : (TRef.of (sig := sig) (T := ⟨S100000x10, .f32⟩) main_v101).ofBuf v = v := rfl
/-- The log-softmax of the logits, operation for operation the reference's. -/
theorem host8_result (V : Valuation τ sig (Elt Ideal)) (x0 : (⟨Cert.ReferenceIdeal.S100000x64, .f32⟩ : BufTy).Contents (Elt Ideal)) (x1 : (⟨Cert.ReferenceIdeal.S2x1600000, .i32⟩ : BufTy).Contents (Elt Ideal)) (x2 : (⟨Cert.ReferenceIdeal.S64x64, .f32⟩ : BufTy).Contents (Elt Ideal)) (x3 : (⟨Cert.ReferenceIdeal.S64, .f32⟩ : BufTy).Contents (Elt Ideal)) (x4 : (⟨Cert.ReferenceIdeal.S64x64, .f32⟩ : BufTy).Contents (Elt Ideal)) (x5 : (⟨Cert.ReferenceIdeal.S64, .f32⟩ : BufTy).Contents (Elt Ideal)) (x6 : (⟨Cert.ReferenceIdeal.S64x64, .f32⟩ : BufTy).Contents (Elt Ideal)) (x7 : (⟨Cert.ReferenceIdeal.S64, .f32⟩ : BufTy).Contents (Elt Ideal)) (x8 : (⟨Cert.ReferenceIdeal.S64x64, .f32⟩ : BufTy).Contents (Elt Ideal)) (x9 : (⟨Cert.ReferenceIdeal.S64, .f32⟩ : BufTy).Contents (Elt Ideal)) (x10 : (⟨Cert.ReferenceIdeal.S64x10, .f32⟩ : BufTy).Contents (Elt Ideal)) (x11 : (⟨Cert.ReferenceIdeal.S10, .f32⟩ : BufTy).Contents (Elt Ideal))
    (hh : V (Proc.devRef .tc main_v101) = val_main_v109 (F := Ideal) x0 x1 x2 x3 x4 x5 x6 x7 x8 x9 x10 x11) :
    StableHlo.after hostOps8 V (Proc.devRef .tc main_v102) = val_main_v110 (F := Ideal) x0 x1 x2 x3 x4 x5 x6 x7 x8 x9 x10 x11 := by
  after_results_simp
  simp only [ofBuf_toBuf, toBuf_v102, ofBuf_v101]
  rw [hh]
  rfl
/-- The kernel's result buffer at the last boundary: the reference's last stage function of the arguments. -/
theorem result : W17 m ρ c (Proc.devRef .tc main_v102) = val_main_v110 (F := Ideal) (a0 m c) (a1 m c) (a2 m c) (a3 m c) (a4 m c) (a5 m c) (a6 m c) (a7 m c) (a8 m c) (a9 m c) (a10 m c) (a11 m c) :=
  host8_result (W16 m ρ c) (a0 m c) (a1 m c) (a2 m c) (a3 m c) (a4 m c) (a5 m c) (a6 m c) (a7 m c) (a8 m c) (a9 m c) (a10 m c) (a11 m c) (w16_main_v101 m ρ c)

end Cert.KernelIdeal.Chain

end
-- ==== Proof.lean ====
/-
  The certificate of a three-layer graph convolution network on 100000 nodes with 1.6 million edges, followed by two
  dense layers and a log-softmax. The kernel computes, per layer, h W in a pallas_call over ten blocks of 10000 rows,
  gathers the rows of h W along the edge sources, scales them by the symmetric degree normalization and scatter-adds
  them at the edge targets on the host, and adds the bias and rectifies in a second pallas_call; the two dense layers
  are pallas_calls of the same kind, and the log-softmax runs on the host. The reference does all of it with whole-array
  host operations. On the extended reals the two agree entry by entry with no algebra at all: a block product's entry
  is the same sum over the 64 inner indices as the whole product's entry (the bf16 roundings are the identity), the
  ten row blocks tile the array, the kernel's bias row is the reference's broadcast bias read at a column, and every
  host operation the two programs share — the edge lists with self-loops, the degrees, the inverse square roots, the
  gathers, the scatter-adds, the log-softmax — is the same operation applied to equal arrays. So the precondition
  (finite inputs) is never opened.

  The three frames: the kernel's two are the generated frame certificates; the reference's is its run with the
  result dropped. `preserves` is trivial (the ideal pass rewrote nothing). `algebraic`: both runs end at the
  reference's last stage function of the twelve arguments — the kernel's by following its buffers through the seventeen
  segments, the reference's by folding its 156 operations in five stretches.
-/
import proofs.«163823_j53824530153630_1_alg».proof.Defs
import proofs.«163823_j53824530153630_1_alg».proof.Proof.Gen.Kernel
import proofs.«163823_j53824530153630_1_alg».proof.Proof.Gen.Kernel.Frame
import proofs.«163823_j53824530153630_1_alg».proof.Proof.Gen.KernelIdeal
import proofs.«163823_j53824530153630_1_alg».proof.Proof.Gen.KernelIdeal.Frame
import proofs.«163823_j53824530153630_1_alg».proof.Proof.Gen.ReferenceIdeal
import proofs.«163823_j53824530153630_1_alg».proof.Proof.Gen.Pre_finite_inputs
import proofs.«163823_j53824530153630_1_alg».proof.Proof.RefRun
import proofs.«163823_j53824530153630_1_alg».proof.Proof.RefRead
import proofs.«163823_j53824530153630_1_alg».proof.Proof.RefChain
import proofs.«163823_j53824530153630_1_alg».proof.Proof.KernelRun
import proofs.«163823_j53824530153630_1_alg».proof.Proof.KChain4
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both idealized programs end with the reference's last stage function of the twelve arguments in their result
    buffers, the arguments agreeing. -/
theorem algebraic : Cert.algebraic_KernelIdeal_ReferenceIdeal := by
  intro m ρ m' ρ' _ hagree
  refine ⟨fun c => Cert.ReferenceIdeal.ReadP.val_main_v110 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Chain.result m ρ c), (h c).2⟩) (Cert.KernelIdeal.Run.run (F := Ideal) m ρ)
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7, e8, e9, e10, e11⟩ := hagree c
    rw [Cert.ReferenceIdeal.Chain.result m' c, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
